-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S512x2048 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x4096 : Shape := ⟨2, ![512, 4096]⟩
abbrev S2048x512 : Shape := ⟨2, ![2048, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S4096x512 .f32) (main_arg1 : FVec F S512x4096 .f32) (main_arg2 : FVec F S2048x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Kernel.lean ====
abbrev S4096x512 : Shape := ⟨2, ![4096, 512]⟩
abbrev S512x4096 : Shape := ⟨2, ![512, 4096]⟩
abbrev S2048x512 : Shape := ⟨2, ![2048, 512]⟩
abbrev S4096x4096 : Shape := ⟨2, ![4096, 4096]⟩
abbrev S1x4096 : Shape := ⟨2, ![1, 4096]⟩
abbrev S512x512 : Shape := ⟨2, ![512, 512]⟩
abbrev S512x2048 : Shape := ⟨2, ![512, 2048]⟩
abbrev S1x2048 : Shape := ⟨2, ![1, 2048]⟩
abbrev S2048 : Shape := ⟨1, ![2048]⟩
abbrev S4096x2048 : Shape := ⟨2, ![4096, 2048]⟩
abbrev S1024x512 : Shape := ⟨2, ![1024, 512]⟩
abbrev S1024x1024 : Shape := ⟨2, ![1024, 1024]⟩
abbrev S1x1024 : Shape := ⟨2, ![1, 1024]⟩
abbrev S1024 : Shape := ⟨1, ![1024]⟩
abbrev S2048x4096 : Shape := ⟨2, ![2048, 4096]⟩
abbrev S1024x1 : Shape := ⟨2, ![1024, 1]⟩

abbrev nBuf : Space → Nat
  | .hbm => 8
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S2048x512, .f32⟩
  | .hbm, ⟨3, _⟩ => ⟨S4096x4096, .bf16⟩
  | .hbm, ⟨4, _⟩ => ⟨S1x4096, .f32⟩
  | .hbm, ⟨5, _⟩ => ⟨S4096x2048, .bf16⟩
  | .hbm, ⟨6, _⟩ => ⟨S1x2048, .f32⟩
  | .hbm, ⟨7, _⟩ => ⟨S2048x4096, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_11 : BitVec 32 := 0#32
  let v21 : BitVec 1 := Scalar.cmpi .ne v20 c0_i32_11
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨3, ![2, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  reduces_S512x2048_S2048 : S512x2048.Reduces [0] S2048
  shapeCasts_S2048_S1x2048 : S2048.ShapeCasts S1x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x512_S1024x512_0_0 : ∀ a, (![0, 0] : Fin 2 → Nat) a + S1024x512.size a ≤ S1024x512.size a
  h_S1024x512 : 0 < S1024x512.numel
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  reduces_S1024x1024_S1024 : S1024x1024.Reduces [0] S1024
  shapeCasts_S1024_S1x1024 : S1024.ShapeCasts S1x1024
  shapeCasts_S1024x1024_S1024x1024 : S1024x1024.ShapeCasts S1024x1024
  transposes_S1x1024_p1_0_S1024x1 : S1x1024.Transposes [1, 0] S1024x1
  broadcasts_S1x1024_S1024x1024 : S1x1024.Broadcasts S1024x1024
  broadcasts_S1024x1_S1024x1024 : S1024x1.Broadcasts S1024x1024
  dot_S512x512_S512x2048_S512x2048_1_0_0_1_n_n_wf : DotDims.WF S512x512 S512x2048 S512x2048 [1] [0] [0] [1] [] []
  dot_S1024x512_S1024x512_S1024x1024_1_1_0_0_n_n_wf : DotDims.WF S1024x512 S1024x512 S1024x1024 [1] [1] [0] [0] [] []
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x4096.size a
  hwx0_1 : ∀ i : grid0.Coords, EltTy.bits .f32 = 32 ∨ (Rect.block (s := S512x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x4096.size a
  hwx0_2 : ∀ i : grid0.Coords, EltTy.bits .bf16 = 32 ∨ (Rect.block (s := S4096x4096) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S2048x512.size a
  hwx1_1 : ∀ i : grid1.Coords, EltTy.bits .f32 = 32 ∨ (Rect.block (s := S2048x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x2048.size a
  hwx1_2 : ∀ i : grid1.Coords, EltTy.bits .bf16 = 32 ∨ (Rect.block (s := S4096x2048) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x2048.size a
  hwx1_3 : ∀ i : grid1.Coords, EltTy.bits .f32 = 32 ∨ (Rect.block (s := S1x2048) S1x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x2048.size a
  hwx2_0 : ∀ i : grid2.Coords, EltTy.bits .bf16 = 32 ∨ (Rect.block (s := S4096x2048) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x2048.size a
  hwx2_3 : ∀ i : grid2.Coords, EltTy.bits .f32 = 32 ∨ (Rect.block (s := S1x2048) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S2048x4096.size a
  hwx2_4 : ∀ i : grid2.Coords, EltTy.bits .f32 = 32 ∨ (Rect.block (s := S2048x4096) S1024x1024.size (cc2_transform_4 i) (hinb2_4 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1024x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1_1) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S512x4096 : Shape := ⟨2, ![512, 4096]⟩
abbrev S2048x512 : Shape := ⟨2, ![2048, 512]⟩
abbrev S4096x4096 : Shape := ⟨2, ![4096, 4096]⟩
abbrev S512x2048 : Shape := ⟨2, ![512, 2048]⟩
abbrev S4096x2048 : Shape := ⟨2, ![4096, 2048]⟩
abbrev S_ : Shape := ⟨0, ![]⟩
abbrev S4096 : Shape := ⟨1, ![4096]⟩
abbrev S1x4096 : Shape := ⟨2, ![1, 4096]⟩
abbrev S2048x4096 : Shape := ⟨2, ![2048, 4096]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S2048x512, .f32⟩
  | .hbm, ⟨3, _⟩ => ⟨S4096x4096, .f32⟩
  | .hbm, ⟨4, _⟩ => ⟨S512x2048, .f32⟩
  | .hbm, ⟨5, _⟩ => ⟨S4096x2048, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S4096x2048, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S2048x4096, .f32⟩
  | .hbm, ⟨22, _⟩ => ⟨S2048x4096, .f32⟩
  | .hbm, ⟨23, _⟩ => ⟨S_, .f32⟩
  | .hbm, ⟨24, _⟩ => ⟨S2048x4096, .f32⟩
  | .hbm, ⟨25, _⟩ => ⟨S2048x4096, .f32⟩
  | .hbm, ⟨26, _⟩ => ⟨S2048x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S2048x512_S512x2048_1_0 : S2048x512.Transposes [1, 0] S512x2048
  reducesTo_S4096x4096_S4096_d0 : S4096x4096.ReducesTo [0] S4096
  h_S_ : 0 < S_.numel
  bcast_S4096_S1x4096_1 : S4096.BroadcastsInDim S1x4096 (![1] : Fin 1 → Fin S1x4096.rank)
  transposes_S4096x2048_S2048x4096_1_0 : S4096x2048.Transposes [1, 0] S2048x4096
  bcast_S_S2048x4096 : S_.BroadcastsInDim S2048x4096 (![] : Fin 0 → Fin S2048x4096.rank)
  bcast_S1x4096_S2048x4096_0_1 : S1x4096.BroadcastsInDim S2048x4096 (![0, 1] : Fin 2 → Fin S2048x4096.rank)
  reducesTo_S4096x2048_S2048_d0 : S4096x2048.ReducesTo [0] S2048
  bcast_S2048_S2048x1_0 : S2048.BroadcastsInDim S2048x1 (![0] : Fin 1 → Fin S2048x1.rank)
  bcast_S2048x1_S2048x4096_0_1 : S2048x1.BroadcastsInDim S2048x4096 (![0, 1] : Fin 2 → Fin S2048x4096.rank)
  dot_S4096x512_S512x4096_S4096x4096_1_0_0_1_n_n_wf : DotDims.WF S4096x512 S512x4096 S4096x4096 [1] [0] [0] [1] [] []
  dot_S4096x512_S512x2048_S4096x2048_1_0_0_1_n_n_wf : DotDims.WF S4096x512 S512x2048 S4096x2048 [1] [0] [0] [1] [] []
  dot_S2048x4096_S4096x4096_S2048x4096_1_0_0_1_n_n_wf : DotDims.WF S2048x4096 S4096x4096 S2048x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.KB0Runs.lean ====
/-
  Region 0 of the program: what its three control cases share. The body is entered at every grid point with the
  windows' staging buffers and one scratch accumulator; the accumulator is reset where the last grid coordinate is 0,
  added to at every point, and copied out where that coordinate is 7. Here: each window's block read off the
  array the region finds, the two conditions in closed form over the grid's points, where the late output is idle,
  and the region's invariant with the accumulator split off the other scoped buffers.
-/
import proofs.«139255_j55740085568003_2_alg».proof.Proof.Gen.Kernel.Launch
import proofs.«139255_j55740085568003_2_alg».proof.Proof.Gen.Kernel.Skeleton
import proofs.«139255_j55740085568003_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (where it is not fetched its block index has not moved). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (where it is not fetched its block index has not moved). -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-- The reset condition: the grid's last coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The copy-out condition: the grid's last coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-- One staging buffer of output window 2, through which its contents are stated. -/
abbrev VO0_2 : View sig .tc .vmem S512x2048 .bf16 := (Memref.whole cc0_stg2_0 : Memref sig .tc .vmem S512x2048 .bf16).view
/-- One staging buffer of output window 3, through which its contents are stated. -/
abbrev VO0_3 : View sig .tc .vmem S1x2048 .f32 := (Memref.whole cc0_stg3_0 : Memref sig .tc .vmem S1x2048 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
/-- The scratch accumulator, a whole scoped buffer of the kernel's own, and the view its contents are stated through. -/
abbrev scM0_0 : Memref sig .tc .vmem S1x2048 .f32 := Memref.whole cc0_scratch0
abbrev VS0_0 : View sig .tc .vmem S1x2048 .f32 := scM0_0.view

/-- The other scoped buffers of the core (the other regions' staging buffers and accumulators), at anything: they ride along unopened. -/
abbrev others0 (c : Dev nD) : sProp 𝕄 :=
  Pipeline.scopedRestBut (Ix := Unit) (Name := ℕ) (U := Pipeline.UD sig nD τ) (Lvl := ℕ) (Val := Elt F) spec0 c [cc0_scratch0]

/-- The class invariant with the accumulator split off: the accumulator at some contents, the other scoped buffers, the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [scM0_0, owns_whole, Idealize.SL.BI.bigSepL_singleton]; try rfl

end Cert.Kernel.Fr

end
-- ==== Proof.KB0RunA.lean ====
/-
  Region 0, the body's run in case A (the accumulator is reset, nothing is copied out):
  on whole staging buffers, the inputs at their blocks, the accumulator at anything, the body runs to the end, leaving
  the inputs as they were and in every buffer it stores into the pieces this run finds.
-/
import proofs.«139255_j55740085568003_2_alg».proof.Proof.KB0Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun0_A (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (hc0 : cond0_0 i) (hc1 : ¬cond0_1 i)
    (x0 : Vec F S512x512 .f32) (x1 : Vec F S512x2048 .f32) :
    Σ' (L2 : List (View.Piece (Elt F) S512x2048 .bf16)) (L3 : List (View.Piece (Elt F) S1x2048 .f32)), { LS0 : List (View.Piece (Elt F) S1x2048 .f32) //
      ∀ (xi3 : Vec F S1x2048 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__xm_kernel i arg2 harg2 arg3 harg3 arg4 harg4 arg5 harg5 arg6 harg6) K } := by
  refine ⟨?_, [], ?_, fun xi3 E K => ?run⟩
  case run =>
    simp only [cc0__xm_kernel_eq_skeleton]; unfold cc0__xm_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.Kernel.Fr

end
-- ==== Proof.KB0RunB.lean ====
/-
  Region 0, the body's run in case B (no reset, nothing copied out):
  on whole staging buffers, the inputs at their blocks, the accumulator at what the point before left, the body runs to the end, leaving
  the inputs as they were and in every buffer it stores into the pieces this run finds.
-/
import proofs.«139255_j55740085568003_2_alg».proof.Proof.KB0RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun0_B (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (hc0 : ¬cond0_0 i) (hc1 : ¬cond0_1 i)
    (x0 : Vec F S512x512 .f32) (x1 : Vec F S512x2048 .f32) (xs0 : Vec F S1x2048 .f32) :
    Σ' (L2 : List (View.Piece (Elt F) S512x2048 .bf16)) (L3 : List (View.Piece (Elt F) S1x2048 .f32)), { LS0 : List (View.Piece (Elt F) S1x2048 .f32) //
      ∀ (xi3 : Vec F S1x2048 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__xm_kernel i arg2 harg2 arg3 harg3 arg4 harg4 arg5 harg5 arg6 harg6) K } := by
  refine ⟨?_, [], ?_, fun xi3 E K => ?run⟩
  case run =>
    simp only [cc0__xm_kernel_eq_skeleton]; unfold cc0__xm_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.Kernel.Fr

end
-- ==== Proof.KB0RunC.lean ====
/-
  Region 0, the body's run in case C (no reset, the accumulator is copied out):
  on whole staging buffers, the inputs at their blocks, the accumulator at what the point before left, the body runs to the end, leaving
  the inputs as they were and in every buffer it stores into the pieces this run finds.
-/
import proofs.«139255_j55740085568003_2_alg».proof.Proof.KB0RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun0_C (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (hc0 : ¬cond0_0 i) (hc1 : cond0_1 i)
    (x0 : Vec F S512x512 .f32) (x1 : Vec F S512x2048 .f32) (xs0 : Vec F S1x2048 .f32) :
    Σ' (L2 : List (View.Piece (Elt F) S512x2048 .bf16)) (L3 : List (View.Piece (Elt F) S1x2048 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__xm_kernel i arg2 harg2 arg3 harg3 arg4 harg4 arg5 harg5 arg6 harg6) K } := by
  refine ⟨?_, ?_, ?_, fun E K => ?run⟩
  case run =>
    simp only [cc0__xm_kernel_eq_skeleton]; unfold cc0__xm_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Fr

end
-- ==== Proof.KB0.lean ====
/-
  Region 0: what its buffers hold point by point, its proof data, and the body's obligation at every point.
  After the body at a point each input window's buffer holds its block; the outputs' buffers and the accumulator hold
  what the point's case leaves, the accumulator's contents going into the next point's case. Between points the
  region's invariant names the accumulator's contents; before the first point and after the last it is the
  class invariant (every scoped buffer at anything).
-/
import proofs.«139255_j55740085568003_2_alg».proof.Proof.KB0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The run of case A at point `t`. -/
abbrev run0_A (c : Dev nD) (t : Fin cfg0.N) (h0 : t.val % 8 = 0) (h1 : ¬t.val % 8 = 7) (x0 : Vec F S512x512 .f32) (x1 : Vec F S512x2048 .f32) :=
  kernelRun0_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) x0 x1

theorem cover0_A_2 (c : Dev nD) (t : Fin cfg0.N) (h0 : t.val % 8 = 0) (h1 : ¬t.val % 8 = 7) (x0 : Vec F S512x512 .f32) (x1 : Vec F S512x2048 .f32) (y : S512x2048.Idx) :
    ∃ pc ∈ (run0_A c t h0 h1 x0 x1).1, y ∈ pc.1.set :=
  View.cover_of_tiledL _ S512x2048.size (by sl_kernel_rfl) y

/-- What case A leaves in output window 2's buffer. -/
def out0_A_2 (c : Dev nD) (t : Fin cfg0.N) (h0 : t.val % 8 = 0) (h1 : ¬t.val % 8 = 7) (x0 : Vec F S512x512 .f32) (x1 : Vec F S512x2048 .f32) : Vec F S512x2048 .bf16 :=
  VO0_2.read (Elt F) (VO0_2.writes (Elt F) VO0_2.junk (run0_A c t h0 h1 x0 x1).1)

/-- What case A leaves in output window 3's buffer (nothing is stored: a placeholder nothing consults). -/
def out0_A_3 (c : Dev nD) (t : Fin cfg0.N) (h0 : t.val % 8 = 0) (h1 : ¬t.val % 8 = 7) (x0 : Vec F S512x512 .f32) (x1 : Vec F S512x2048 .f32) : Vec F S1x2048 .f32 :=
  VO0_3.read (Elt F) (VO0_3.writes (Elt F) VO0_3.junk (run0_A c t h0 h1 x0 x1).2.1)

theorem scover0_A (c : Dev nD) (t : Fin cfg0.N) (h0 : t.val % 8 = 0) (h1 : ¬t.val % 8 = 7) (x0 : Vec F S512x512 .f32) (x1 : Vec F S512x2048 .f32) (y : S1x2048.Idx) :
    ∃ pc ∈ (run0_A c t h0 h1 x0 x1).2.2.1, y ∈ pc.1.set :=
  View.cover_of_tiledL _ S1x2048.size (by sl_kernel_rfl) y

/-- What case A leaves in the accumulator. -/
def sout0_A (c : Dev nD) (t : Fin cfg0.N) (h0 : t.val % 8 = 0) (h1 : ¬t.val % 8 = 7) (x0 : Vec F S512x512 .f32) (x1 : Vec F S512x2048 .f32) : Vec F S1x2048 .f32 :=
  VS0_0.read (Elt F) (VS0_0.writes (Elt F) VS0_0.junk (run0_A c t h0 h1 x0 x1).2.2.1)

/-- The run of case B at point `t`. -/
abbrev run0_B (c : Dev nD) (t : Fin cfg0.N) (h0 : ¬t.val % 8 = 0) (h1 : ¬t.val % 8 = 7) (x0 : Vec F S512x512 .f32) (x1 : Vec F S512x2048 .f32) (xs0 : Vec F S1x2048 .f32) :=
  kernelRun0_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) x0 x1 xs0

theorem cover0_B_2 (c : Dev nD) (t : Fin cfg0.N) (h0 : ¬t.val % 8 = 0) (h1 : ¬t.val % 8 = 7) (x0 : Vec F S512x512 .f32) (x1 : Vec F S512x2048 .f32) (xs0 : Vec F S1x2048 .f32) (y : S512x2048.Idx) :
    ∃ pc ∈ (run0_B c t h0 h1 x0 x1 xs0).1, y ∈ pc.1.set :=
  View.cover_of_tiledL _ S512x2048.size (by sl_kernel_rfl) y

/-- What case B leaves in output window 2's buffer. -/
def out0_B_2 (c : Dev nD) (t : Fin cfg0.N) (h0 : ¬t.val % 8 = 0) (h1 : ¬t.val % 8 = 7) (x0 : Vec F S512x512 .f32) (x1 : Vec F S512x2048 .f32) (xs0 : Vec F S1x2048 .f32) : Vec F S512x2048 .bf16 :=
  VO0_2.read (Elt F) (VO0_2.writes (Elt F) VO0_2.junk (run0_B c t h0 h1 x0 x1 xs0).1)

/-- What case B leaves in output window 3's buffer (nothing is stored: a placeholder nothing consults). -/
def out0_B_3 (c : Dev nD) (t : Fin cfg0.N) (h0 : ¬t.val % 8 = 0) (h1 : ¬t.val % 8 = 7) (x0 : Vec F S512x512 .f32) (x1 : Vec F S512x2048 .f32) (xs0 : Vec F S1x2048 .f32) : Vec F S1x2048 .f32 :=
  VO0_3.read (Elt F) (VO0_3.writes (Elt F) VO0_3.junk (run0_B c t h0 h1 x0 x1 xs0).2.1)

theorem scover0_B (c : Dev nD) (t : Fin cfg0.N) (h0 : ¬t.val % 8 = 0) (h1 : ¬t.val % 8 = 7) (x0 : Vec F S512x512 .f32) (x1 : Vec F S512x2048 .f32) (xs0 : Vec F S1x2048 .f32) (y : S1x2048.Idx) :
    ∃ pc ∈ (run0_B c t h0 h1 x0 x1 xs0).2.2.1, y ∈ pc.1.set :=
  View.cover_of_tiledL _ S1x2048.size (by sl_kernel_rfl) y

/-- What case B leaves in the accumulator. -/
def sout0_B (c : Dev nD) (t : Fin cfg0.N) (h0 : ¬t.val % 8 = 0) (h1 : ¬t.val % 8 = 7) (x0 : Vec F S512x512 .f32) (x1 : Vec F S512x2048 .f32) (xs0 : Vec F S1x2048 .f32) : Vec F S1x2048 .f32 :=
  VS0_0.read (Elt F) (VS0_0.writes (Elt F) VS0_0.junk (run0_B c t h0 h1 x0 x1 xs0).2.2.1)

/-- The run of case C at point `t`. -/
abbrev run0_C (c : Dev nD) (t : Fin cfg0.N) (h0 : ¬t.val % 8 = 0) (h1 : t.val % 8 = 7) (x0 : Vec F S512x512 .f32) (x1 : Vec F S512x2048 .f32) (xs0 : Vec F S1x2048 .f32) :=
  kernelRun0_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) x0 x1 xs0

theorem cover0_C_2 (c : Dev nD) (t : Fin cfg0.N) (h0 : ¬t.val % 8 = 0) (h1 : t.val % 8 = 7) (x0 : Vec F S512x512 .f32) (x1 : Vec F S512x2048 .f32) (xs0 : Vec F S1x2048 .f32) (y : S512x2048.Idx) :
    ∃ pc ∈ (run0_C c t h0 h1 x0 x1 xs0).1, y ∈ pc.1.set :=
  View.cover_of_tiledL _ S512x2048.size (by sl_kernel_rfl) y

/-- What case C leaves in output window 2's buffer. -/
def out0_C_2 (c : Dev nD) (t : Fin cfg0.N) (h0 : ¬t.val % 8 = 0) (h1 : t.val % 8 = 7) (x0 : Vec F S512x512 .f32) (x1 : Vec F S512x2048 .f32) (xs0 : Vec F S1x2048 .f32) : Vec F S512x2048 .bf16 :=
  VO0_2.read (Elt F) (VO0_2.writes (Elt F) VO0_2.junk (run0_C c t h0 h1 x0 x1 xs0).1)

theorem cover0_C_3 (c : Dev nD) (t : Fin cfg0.N) (h0 : ¬t.val % 8 = 0) (h1 : t.val % 8 = 7) (x0 : Vec F S512x512 .f32) (x1 : Vec F S512x2048 .f32) (xs0 : Vec F S1x2048 .f32) (y : S1x2048.Idx) :
    ∃ pc ∈ (run0_C c t h0 h1 x0 x1 xs0).2.1, y ∈ pc.1.set :=
  View.cover_of_tiledL _ S1x2048.size (by sl_kernel_rfl) y

/-- What case C leaves in output window 3's buffer. -/
def out0_C_3 (c : Dev nD) (t : Fin cfg0.N) (h0 : ¬t.val % 8 = 0) (h1 : t.val % 8 = 7) (x0 : Vec F S512x512 .f32) (x1 : Vec F S512x2048 .f32) (xs0 : Vec F S1x2048 .f32) : Vec F S1x2048 .f32 :=
  VO0_3.read (Elt F) (VO0_3.writes (Elt F) VO0_3.junk (run0_C c t h0 h1 x0 x1 xs0).2.1)

theorem scover0_C (c : Dev nD) (t : Fin cfg0.N) (h0 : ¬t.val % 8 = 0) (h1 : t.val % 8 = 7) (x0 : Vec F S512x512 .f32) (x1 : Vec F S512x2048 .f32) (xs0 : Vec F S1x2048 .f32) (y : S1x2048.Idx) :
    ∃ pc ∈ (run0_C c t h0 h1 x0 x1 xs0).2.2.1, y ∈ pc.1.set :=
  View.cover_of_tiledL _ S1x2048.size (by sl_kernel_rfl) y

/-- What case C leaves in the accumulator. -/
def sout0_C (c : Dev nD) (t : Fin cfg0.N) (h0 : ¬t.val % 8 = 0) (h1 : t.val % 8 = 7) (x0 : Vec F S512x512 .f32) (x1 : Vec F S512x2048 .f32) (xs0 : Vec F S1x2048 .f32) : Vec F S1x2048 .f32 :=
  VS0_0.read (Elt F) (VS0_0.writes (Elt F) VS0_0.junk (run0_C c t h0 h1 x0 x1 xs0).2.2.1)

/-! ## Point by point -/

/-- What the outputs' buffers and the accumulator hold after the body at point `t`, given what the accumulator held before it. -/
def step0 (c : Dev nD) (t : Fin cfg0.N) (prev : Vec F S1x2048 .f32) : Vec F S512x2048 .bf16 × Vec F S1x2048 .f32 × Vec F S1x2048 .f32 :=
  if h0 : t.val % 8 = 0 then (out0_A_2 c t h0 (by omega) (iblk0 V c 0 t) (iblk0 V c 1 t), out0_A_3 c t h0 (by omega) (iblk0 V c 0 t) (iblk0 V c 1 t), sout0_A c t h0 (by omega) (iblk0 V c 0 t) (iblk0 V c 1 t))
  else if h1 : t.val % 8 = 7 then (out0_C_2 c t h0 h1 (iblk0 V c 0 t) (iblk0 V c 1 t) prev, out0_C_3 c t h0 h1 (iblk0 V c 0 t) (iblk0 V c 1 t) prev, sout0_C c t h0 h1 (iblk0 V c 0 t) (iblk0 V c 1 t) prev)
  else (out0_B_2 c t h0 h1 (iblk0 V c 0 t) (iblk0 V c 1 t) prev, out0_B_3 c t h0 h1 (iblk0 V c 0 t) (iblk0 V c 1 t) prev, sout0_B c t h0 h1 (iblk0 V c 0 t) (iblk0 V c 1 t) prev)

theorem step0_A (c : Dev nD) (t : Fin cfg0.N) (prev) (h0 : t.val % 8 = 0) (h1 : ¬t.val % 8 = 7) :
    step0 V c t prev = (out0_A_2 c t h0 h1 (iblk0 V c 0 t) (iblk0 V c 1 t), out0_A_3 c t h0 h1 (iblk0 V c 0 t) (iblk0 V c 1 t), sout0_A c t h0 h1 (iblk0 V c 0 t) (iblk0 V c 1 t)) := dif_pos h0
theorem step0_B (c : Dev nD) (t : Fin cfg0.N) (prev) (h0 : ¬t.val % 8 = 0) (h1 : ¬t.val % 8 = 7) :
    step0 V c t prev = (out0_B_2 c t h0 h1 (iblk0 V c 0 t) (iblk0 V c 1 t) prev, out0_B_3 c t h0 h1 (iblk0 V c 0 t) (iblk0 V c 1 t) prev, sout0_B c t h0 h1 (iblk0 V c 0 t) (iblk0 V c 1 t) prev) := (dif_neg h0).trans (dif_neg h1)
theorem step0_C (c : Dev nD) (t : Fin cfg0.N) (prev) (h0 : ¬t.val % 8 = 0) (h1 : t.val % 8 = 7) :
    step0 V c t prev = (out0_C_2 c t h0 h1 (iblk0 V c 0 t) (iblk0 V c 1 t) prev, out0_C_3 c t h0 h1 (iblk0 V c 0 t) (iblk0 V c 1 t) prev, sout0_C c t h0 h1 (iblk0 V c 0 t) (iblk0 V c 1 t) prev) := (dif_neg h0).trans (dif_pos h1)

/-- Contents standing for "anything" before the first point (never consulted: the first point resets). -/
abbrev anyS0 : Vec F S1x2048 .f32 := VS0_0.read (Elt F) VS0_0.junk

/-- The accumulator after point `n`, by recursion on the point. -/
def scrAt0 (c : Dev nD) : (n : ℕ) → n < cfg0.N → Vec F S1x2048 .f32
  | 0, hn => (step0 V c ⟨0, hn⟩ anyS0).2.2
  | n + 1, hn => (step0 V c ⟨n + 1, hn⟩ (scrAt0 c n (Nat.lt_of_succ_lt hn))).2.2

/-- The accumulator before point `t`. -/
def prevAt0 (c : Dev nD) (t : Fin cfg0.N) : Vec F S1x2048 .f32 :=
  if hz : t.val = 0 then anyS0 else scrAt0 V c (t.val - 1) (Nat.lt_of_le_of_lt (Nat.sub_le _ _) t.isLt)

/-- The outputs' buffers and the accumulator after point `t`. -/
def outsAt0 (c : Dev nD) (t : Fin cfg0.N) : Vec F S512x2048 .bf16 × Vec F S1x2048 .f32 × Vec F S1x2048 .f32 := step0 V c t (prevAt0 V c t)

theorem scrAt0_eq (c : Dev nD) (t : Fin cfg0.N) : scrAt0 V c t.val t.isLt = (outsAt0 V c t).2.2 := by
  obtain ⟨n, hn⟩ := t
  cases n with
  | zero => rfl
  | succ n => rfl

theorem prevAt0_pos (c : Dev nD) (t : Fin cfg0.N) (hz : t.val ≠ 0) :
    prevAt0 V c t = scrAt0 V c (t.val - 1) (Nat.lt_of_le_of_lt (Nat.sub_le _ _) t.isLt) := dif_neg hz

/-- The region's invariant before position `n`: the class invariant before the first point; afterwards the accumulator at what the point before left, the other scoped buffers and the generator register at anything. -/
def PhiS0 (c : Dev nD) : (n : ℕ) → n ≤ cfg0.N → sProp 𝕄
  | 0, _ => Pipeline.ΦA spec0 c
  | n + 1, hn => iprop(iprop(owns (c : Thread nD τ) scM0_0 fullShare (scrAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (scrAt0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (scrAt0 V c (n - 1) (by omega)) ∗ others0 c) ∗ (∃ r, prngReg c r)) := by
  cases n with
  | zero => exact absurd rfl hz
  | succ n => rfl

/-! ## The proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  have hN : t.val < 16 := lt_of_lt_of_eq t.isLt (show cfg0.N = 16 from N_0)
  by_cases h0 : t.val % 8 = 0
  · have h1 : ¬t.val % 8 = 7 := by omega
    rw [show (dat0 V c).leavesExact 0 t = owns (c : Thread nD τ) (ms0_0 t) fullShare ((dat0 V c).after 0 t) from by
            unfold Dat.leavesExact; rw [liveAt0_0 t], after0_0]
    rw [show (dat0 V c).leavesExact 1 t = owns (c : Thread nD τ) (ms0_1 t) fullShare ((dat0 V c).after 1 t) from by
            unfold Dat.leavesExact; rw [liveAt0_1 t], after0_1]
    rw [show (dat0 V c).leavesExact 2 t = owns (c : Thread nD τ) (ms0_2 t) fullShare ((dat0 V c).after 2 t) from by
            unfold Dat.leavesExact; rw [liveAt0_2 t], after0_2]
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [show (dat0 V c).Φ t.succ = PhiS0 V c (t.val + 1) t.isLt from rfl, PhiS0_succ, scrAt0_eq V c t]
    unfold outsAt0
    rw [step0_A V c t _ h0 h1]
    unfold out0_A_2 sout0_A; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((run0_A c t h0 h1 (iblk0 V c 0 t) (iblk0 V c 1 t)).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c t h0 h1 _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover0_A_2 c t h0 h1 _ _)
      iexists _; iexact H3

    · rw [PhiS0_castSucc V c t, PhiS0_pos V c _ _ hz, ← prevAt0_pos V c t hz]
      iintro ⟨⟨⟨HS0, HR⟩, Hg⟩, Ho, ⟨%d0, H0⟩, ⟨%d1, H1⟩, ⟨%d2, H2⟩, ⟨%d3, H3⟩⟩
      iapply ((run0_A c t h0 h1 (iblk0 V c 0 t) (iblk0 V c 1 t)).2.2.2 _ Set.univ _)
      isplitl [H0]; · iexact H0
      isplitl [H1]; · iexact H1
      isplitl [H2]; · iexists _; iexact H2
      isplitl [H3]; · iexact H3
      isplitl [HS0]; · iexists _; iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c t h0 h1 _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover0_A_2 c t h0 h1 _ _)
      iexists _; iexact H3

  · have hz : t.val ≠ 0 := fun e => h0 (by rw [e])
    by_cases h1 : t.val % 8 = 7
    · rw [show (dat0 V c).leavesExact 0 t = owns (c : Thread nD τ) (ms0_0 t) fullShare ((dat0 V c).after 0 t) from by
              unfold Dat.leavesExact; rw [liveAt0_0 t], after0_0]
      rw [show (dat0 V c).leavesExact 1 t = owns (c : Thread nD τ) (ms0_1 t) fullShare ((dat0 V c).after 1 t) from by
              unfold Dat.leavesExact; rw [liveAt0_1 t], after0_1]
      rw [show (dat0 V c).leavesExact 2 t = owns (c : Thread nD τ) (ms0_2 t) fullShare ((dat0 V c).after 2 t) from by
              unfold Dat.leavesExact; rw [liveAt0_2 t], after0_2]
      rw [show (dat0 V c).leavesExact 3 t = owns (c : Thread nD τ) (ms0_3 t) fullShare ((dat0 V c).after 3 t) from by
              unfold Dat.leavesExact; rw [liveAt0_3_C t (fun h => h0 ((hcond0_0 t).mp h)) ((hcond0_1 t).mpr h1)], after0_3]
      rw [show (dat0 V c).Φ t.succ = PhiS0 V c (t.val + 1) t.isLt from rfl, PhiS0_succ, scrAt0_eq V c t]
      unfold outsAt0
      rw [step0_C V c t _ h0 h1]
      unfold out0_C_2 out0_C_3 sout0_C; (try dsimp only)
      rw [PhiS0_castSucc V c t, PhiS0_pos V c _ _ hz, ← prevAt0_pos V c t hz]
      iintro ⟨⟨⟨HS0, HR⟩, Hg⟩, Ho, ⟨%d0, H0⟩, ⟨%d1, H1⟩, ⟨%d2, H2⟩, ⟨%d3, H3⟩⟩
      iapply ((run0_C c t h0 h1 (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c t h0 h1 _ _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover0_C_2 c t h0 h1 _ _ _)
      unfold owns; iexists _; isplitr
      swap; · iexact H3
      ipureintro; exact View.read_writes_of_cover _ _ _ _ _ (cover0_C_3 c t h0 h1 _ _ _)

    · rw [show (dat0 V c).leavesExact 0 t = owns (c : Thread nD τ) (ms0_0 t) fullShare ((dat0 V c).after 0 t) from by
              unfold Dat.leavesExact; rw [liveAt0_0 t], after0_0]
      rw [show (dat0 V c).leavesExact 1 t = owns (c : Thread nD τ) (ms0_1 t) fullShare ((dat0 V c).after 1 t) from by
              unfold Dat.leavesExact; rw [liveAt0_1 t], after0_1]
      rw [show (dat0 V c).leavesExact 2 t = owns (c : Thread nD τ) (ms0_2 t) fullShare ((dat0 V c).after 2 t) from by
              unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [show (dat0 V c).Φ t.succ = PhiS0 V c (t.val + 1) t.isLt from rfl, PhiS0_succ, scrAt0_eq V c t]
      unfold outsAt0
      rw [step0_B V c t _ h0 h1]
      unfold out0_B_2 sout0_B; (try dsimp only)
      rw [PhiS0_castSucc V c t, PhiS0_pos V c _ _ hz, ← prevAt0_pos V c t hz]
      iintro ⟨⟨⟨HS0, HR⟩, Hg⟩, Ho, ⟨%d0, H0⟩, ⟨%d1, H1⟩, ⟨%d2, H2⟩, ⟨%d3, H3⟩⟩
      iapply ((run0_B c t h0 h1 (iblk0 V c 0 t) (iblk0 V c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c t h0 h1 _ _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover0_B_2 c t h0 h1 _ _ _)
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS0, HR⟩, Hg⟩
  isplitl [HS0 HR]
  · isplitl [HS0]
    · iexists _; iexact HS0
    iexact HR
  iexact Hg

end

end Cert.Kernel.Fr

end
-- ==== Proof.KB1Runs.lean ====
/-
  Region 1 of the program: what its three control cases share. The body is entered at every grid point with the
  windows' staging buffers and one scratch accumulator; the accumulator is reset where the last grid coordinate is 0,
  added to at every point, and copied out where that coordinate is 3. Here: each window's block read off the
  array the region finds, the two conditions in closed form over the grid's points, where the late output is idle,
  and the region's invariant with the accumulator split off the other scoped buffers.
-/
import proofs.«139255_j55740085568003_2_alg».proof.Proof.Gen.Kernel.Launch
import proofs.«139255_j55740085568003_2_alg».proof.Proof.Gen.Kernel.Skeleton
import proofs.«139255_j55740085568003_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (where it is not fetched its block index has not moved). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (where it is not fetched its block index has not moved). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The reset condition: the grid's last coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The copy-out condition: the grid's last coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One staging buffer of output window 2, through which its contents are stated. -/
abbrev VO1_2 : View sig .tc .vmem S1024x1024 .bf16 := (Memref.whole cc1_stg2_0 : Memref sig .tc .vmem S1024x1024 .bf16).view
/-- One staging buffer of output window 3, through which its contents are stated. -/
abbrev VO1_3 : View sig .tc .vmem S1x1024 .f32 := (Memref.whole cc1_stg3_0 : Memref sig .tc .vmem S1x1024 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
/-- The scratch accumulator, a whole scoped buffer of the kernel's own, and the view its contents are stated through. -/
abbrev scM1_0 : Memref sig .tc .vmem S1x1024 .f32 := Memref.whole cc1_scratch0
abbrev VS1_0 : View sig .tc .vmem S1x1024 .f32 := scM1_0.view

/-- The other scoped buffers of the core (the other regions' staging buffers and accumulators), at anything: they ride along unopened. -/
abbrev others1 (c : Dev nD) : sProp 𝕄 :=
  Pipeline.scopedRestBut (Ix := Unit) (Name := ℕ) (U := Pipeline.UD sig nD τ) (Lvl := ℕ) (Val := Elt F) spec1 c [cc1_scratch0]

/-- The class invariant with the accumulator split off: the accumulator at some contents, the other scoped buffers, the generator register at some state. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole, Idealize.SL.BI.bigSepL_singleton]; try rfl

end Cert.Kernel.Fr

end
-- ==== Proof.KB1RunA.lean ====
/-
  Region 1, the body's run in case A (the accumulator is reset, nothing is copied out):
  on whole staging buffers, the inputs at their blocks, the accumulator at anything, the body runs to the end, leaving
  the inputs as they were and in every buffer it stores into the pieces this run finds.
-/
import proofs.«139255_j55740085568003_2_alg».proof.Proof.KB1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun1_A (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (hc0 : cond1_0 i) (hc1 : ¬cond1_1 i)
    (x0 : Vec F S1024x512 .f32) (x1 : Vec F S1024x512 .f32) :
    Σ' (L2 : List (View.Piece (Elt F) S1024x1024 .bf16)) (L3 : List (View.Piece (Elt F) S1x1024 .f32)), { LS0 : List (View.Piece (Elt F) S1x1024 .f32) //
      ∀ (xi3 : Vec F S1x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__xc_kernel i arg2 harg2 arg3 harg3 arg4 harg4 arg5 harg5 arg6 harg6) K } := by
  refine ⟨?_, [], ?_, fun xi3 E K => ?run⟩
  case run =>
    simp only [cc1__xc_kernel_eq_skeleton]; unfold cc1__xc_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.Kernel.Fr

end
-- ==== Proof.KB1RunB.lean ====
/-
  Region 1, the body's run in case B (no reset, nothing copied out):
  on whole staging buffers, the inputs at their blocks, the accumulator at what the point before left, the body runs to the end, leaving
  the inputs as they were and in every buffer it stores into the pieces this run finds.
-/
import proofs.«139255_j55740085568003_2_alg».proof.Proof.KB1RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun1_B (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (hc0 : ¬cond1_0 i) (hc1 : ¬cond1_1 i)
    (x0 : Vec F S1024x512 .f32) (x1 : Vec F S1024x512 .f32) (xs0 : Vec F S1x1024 .f32) :
    Σ' (L2 : List (View.Piece (Elt F) S1024x1024 .bf16)) (L3 : List (View.Piece (Elt F) S1x1024 .f32)), { LS0 : List (View.Piece (Elt F) S1x1024 .f32) //
      ∀ (xi3 : Vec F S1x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__xc_kernel i arg2 harg2 arg3 harg3 arg4 harg4 arg5 harg5 arg6 harg6) K } := by
  refine ⟨?_, [], ?_, fun xi3 E K => ?run⟩
  case run =>
    simp only [cc1__xc_kernel_eq_skeleton]; unfold cc1__xc_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.Kernel.Fr

end
-- ==== Proof.KB1RunC.lean ====
/-
  Region 1, the body's run in case C (no reset, the accumulator is copied out):
  on whole staging buffers, the inputs at their blocks, the accumulator at what the point before left, the body runs to the end, leaving
  the inputs as they were and in every buffer it stores into the pieces this run finds.
-/
import proofs.«139255_j55740085568003_2_alg».proof.Proof.KB1RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun1_C (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (hc0 : ¬cond1_0 i) (hc1 : cond1_1 i)
    (x0 : Vec F S1024x512 .f32) (x1 : Vec F S1024x512 .f32) (xs0 : Vec F S1x1024 .f32) :
    Σ' (L2 : List (View.Piece (Elt F) S1024x1024 .bf16)) (L3 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__xc_kernel i arg2 harg2 arg3 harg3 arg4 harg4 arg5 harg5 arg6 harg6) K } := by
  refine ⟨?_, ?_, ?_, fun E K => ?run⟩
  case run =>
    simp only [cc1__xc_kernel_eq_skeleton]; unfold cc1__xc_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Fr

end
-- ==== Proof.KB1.lean ====
/-
  Region 1: what its buffers hold point by point, its proof data, and the body's obligation at every point.
  After the body at a point each input window's buffer holds its block; the outputs' buffers and the accumulator hold
  what the point's case leaves, the accumulator's contents going into the next point's case. Between points the
  region's invariant names the accumulator's contents; before the first point and after the last it is the
  class invariant (every scoped buffer at anything).
-/
import proofs.«139255_j55740085568003_2_alg».proof.Proof.KB1RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The run of case A at point `t`. -/
abbrev run1_A (c : Dev nD) (t : Fin cfg1.N) (h0 : t.val % 4 = 0) (h1 : ¬t.val % 4 = 3) (x0 : Vec F S1024x512 .f32) (x1 : Vec F S1024x512 .f32) :=
  kernelRun1_A (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) x0 x1

theorem cover1_A_2 (c : Dev nD) (t : Fin cfg1.N) (h0 : t.val % 4 = 0) (h1 : ¬t.val % 4 = 3) (x0 : Vec F S1024x512 .f32) (x1 : Vec F S1024x512 .f32) (y : S1024x1024.Idx) :
    ∃ pc ∈ (run1_A c t h0 h1 x0 x1).1, y ∈ pc.1.set :=
  View.cover_of_tiledL _ S1024x1024.size (by sl_kernel_rfl) y

/-- What case A leaves in output window 2's buffer. -/
def out1_A_2 (c : Dev nD) (t : Fin cfg1.N) (h0 : t.val % 4 = 0) (h1 : ¬t.val % 4 = 3) (x0 : Vec F S1024x512 .f32) (x1 : Vec F S1024x512 .f32) : Vec F S1024x1024 .bf16 :=
  VO1_2.read (Elt F) (VO1_2.writes (Elt F) VO1_2.junk (run1_A c t h0 h1 x0 x1).1)

/-- What case A leaves in output window 3's buffer (nothing is stored: a placeholder nothing consults). -/
def out1_A_3 (c : Dev nD) (t : Fin cfg1.N) (h0 : t.val % 4 = 0) (h1 : ¬t.val % 4 = 3) (x0 : Vec F S1024x512 .f32) (x1 : Vec F S1024x512 .f32) : Vec F S1x1024 .f32 :=
  VO1_3.read (Elt F) (VO1_3.writes (Elt F) VO1_3.junk (run1_A c t h0 h1 x0 x1).2.1)

theorem scover1_A (c : Dev nD) (t : Fin cfg1.N) (h0 : t.val % 4 = 0) (h1 : ¬t.val % 4 = 3) (x0 : Vec F S1024x512 .f32) (x1 : Vec F S1024x512 .f32) (y : S1x1024.Idx) :
    ∃ pc ∈ (run1_A c t h0 h1 x0 x1).2.2.1, y ∈ pc.1.set :=
  View.cover_of_tiledL _ S1x1024.size (by sl_kernel_rfl) y

/-- What case A leaves in the accumulator. -/
def sout1_A (c : Dev nD) (t : Fin cfg1.N) (h0 : t.val % 4 = 0) (h1 : ¬t.val % 4 = 3) (x0 : Vec F S1024x512 .f32) (x1 : Vec F S1024x512 .f32) : Vec F S1x1024 .f32 :=
  VS1_0.read (Elt F) (VS1_0.writes (Elt F) VS1_0.junk (run1_A c t h0 h1 x0 x1).2.2.1)

/-- The run of case B at point `t`. -/
abbrev run1_B (c : Dev nD) (t : Fin cfg1.N) (h0 : ¬t.val % 4 = 0) (h1 : ¬t.val % 4 = 3) (x0 : Vec F S1024x512 .f32) (x1 : Vec F S1024x512 .f32) (xs0 : Vec F S1x1024 .f32) :=
  kernelRun1_B (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) x0 x1 xs0

theorem cover1_B_2 (c : Dev nD) (t : Fin cfg1.N) (h0 : ¬t.val % 4 = 0) (h1 : ¬t.val % 4 = 3) (x0 : Vec F S1024x512 .f32) (x1 : Vec F S1024x512 .f32) (xs0 : Vec F S1x1024 .f32) (y : S1024x1024.Idx) :
    ∃ pc ∈ (run1_B c t h0 h1 x0 x1 xs0).1, y ∈ pc.1.set :=
  View.cover_of_tiledL _ S1024x1024.size (by sl_kernel_rfl) y

/-- What case B leaves in output window 2's buffer. -/
def out1_B_2 (c : Dev nD) (t : Fin cfg1.N) (h0 : ¬t.val % 4 = 0) (h1 : ¬t.val % 4 = 3) (x0 : Vec F S1024x512 .f32) (x1 : Vec F S1024x512 .f32) (xs0 : Vec F S1x1024 .f32) : Vec F S1024x1024 .bf16 :=
  VO1_2.read (Elt F) (VO1_2.writes (Elt F) VO1_2.junk (run1_B c t h0 h1 x0 x1 xs0).1)

/-- What case B leaves in output window 3's buffer (nothing is stored: a placeholder nothing consults). -/
def out1_B_3 (c : Dev nD) (t : Fin cfg1.N) (h0 : ¬t.val % 4 = 0) (h1 : ¬t.val % 4 = 3) (x0 : Vec F S1024x512 .f32) (x1 : Vec F S1024x512 .f32) (xs0 : Vec F S1x1024 .f32) : Vec F S1x1024 .f32 :=
  VO1_3.read (Elt F) (VO1_3.writes (Elt F) VO1_3.junk (run1_B c t h0 h1 x0 x1 xs0).2.1)

theorem scover1_B (c : Dev nD) (t : Fin cfg1.N) (h0 : ¬t.val % 4 = 0) (h1 : ¬t.val % 4 = 3) (x0 : Vec F S1024x512 .f32) (x1 : Vec F S1024x512 .f32) (xs0 : Vec F S1x1024 .f32) (y : S1x1024.Idx) :
    ∃ pc ∈ (run1_B c t h0 h1 x0 x1 xs0).2.2.1, y ∈ pc.1.set :=
  View.cover_of_tiledL _ S1x1024.size (by sl_kernel_rfl) y

/-- What case B leaves in the accumulator. -/
def sout1_B (c : Dev nD) (t : Fin cfg1.N) (h0 : ¬t.val % 4 = 0) (h1 : ¬t.val % 4 = 3) (x0 : Vec F S1024x512 .f32) (x1 : Vec F S1024x512 .f32) (xs0 : Vec F S1x1024 .f32) : Vec F S1x1024 .f32 :=
  VS1_0.read (Elt F) (VS1_0.writes (Elt F) VS1_0.junk (run1_B c t h0 h1 x0 x1 xs0).2.2.1)

/-- The run of case C at point `t`. -/
abbrev run1_C (c : Dev nD) (t : Fin cfg1.N) (h0 : ¬t.val % 4 = 0) (h1 : t.val % 4 = 3) (x0 : Vec F S1024x512 .f32) (x1 : Vec F S1024x512 .f32) (xs0 : Vec F S1x1024 .f32) :=
  kernelRun1_C (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) x0 x1 xs0

theorem cover1_C_2 (c : Dev nD) (t : Fin cfg1.N) (h0 : ¬t.val % 4 = 0) (h1 : t.val % 4 = 3) (x0 : Vec F S1024x512 .f32) (x1 : Vec F S1024x512 .f32) (xs0 : Vec F S1x1024 .f32) (y : S1024x1024.Idx) :
    ∃ pc ∈ (run1_C c t h0 h1 x0 x1 xs0).1, y ∈ pc.1.set :=
  View.cover_of_tiledL _ S1024x1024.size (by sl_kernel_rfl) y

/-- What case C leaves in output window 2's buffer. -/
def out1_C_2 (c : Dev nD) (t : Fin cfg1.N) (h0 : ¬t.val % 4 = 0) (h1 : t.val % 4 = 3) (x0 : Vec F S1024x512 .f32) (x1 : Vec F S1024x512 .f32) (xs0 : Vec F S1x1024 .f32) : Vec F S1024x1024 .bf16 :=
  VO1_2.read (Elt F) (VO1_2.writes (Elt F) VO1_2.junk (run1_C c t h0 h1 x0 x1 xs0).1)

theorem cover1_C_3 (c : Dev nD) (t : Fin cfg1.N) (h0 : ¬t.val % 4 = 0) (h1 : t.val % 4 = 3) (x0 : Vec F S1024x512 .f32) (x1 : Vec F S1024x512 .f32) (xs0 : Vec F S1x1024 .f32) (y : S1x1024.Idx) :
    ∃ pc ∈ (run1_C c t h0 h1 x0 x1 xs0).2.1, y ∈ pc.1.set :=
  View.cover_of_tiledL _ S1x1024.size (by sl_kernel_rfl) y

/-- What case C leaves in output window 3's buffer. -/
def out1_C_3 (c : Dev nD) (t : Fin cfg1.N) (h0 : ¬t.val % 4 = 0) (h1 : t.val % 4 = 3) (x0 : Vec F S1024x512 .f32) (x1 : Vec F S1024x512 .f32) (xs0 : Vec F S1x1024 .f32) : Vec F S1x1024 .f32 :=
  VO1_3.read (Elt F) (VO1_3.writes (Elt F) VO1_3.junk (run1_C c t h0 h1 x0 x1 xs0).2.1)

theorem scover1_C (c : Dev nD) (t : Fin cfg1.N) (h0 : ¬t.val % 4 = 0) (h1 : t.val % 4 = 3) (x0 : Vec F S1024x512 .f32) (x1 : Vec F S1024x512 .f32) (xs0 : Vec F S1x1024 .f32) (y : S1x1024.Idx) :
    ∃ pc ∈ (run1_C c t h0 h1 x0 x1 xs0).2.2.1, y ∈ pc.1.set :=
  View.cover_of_tiledL _ S1x1024.size (by sl_kernel_rfl) y

/-- What case C leaves in the accumulator. -/
def sout1_C (c : Dev nD) (t : Fin cfg1.N) (h0 : ¬t.val % 4 = 0) (h1 : t.val % 4 = 3) (x0 : Vec F S1024x512 .f32) (x1 : Vec F S1024x512 .f32) (xs0 : Vec F S1x1024 .f32) : Vec F S1x1024 .f32 :=
  VS1_0.read (Elt F) (VS1_0.writes (Elt F) VS1_0.junk (run1_C c t h0 h1 x0 x1 xs0).2.2.1)

/-! ## Point by point -/

/-- What the outputs' buffers and the accumulator hold after the body at point `t`, given what the accumulator held before it. -/
def step1 (c : Dev nD) (t : Fin cfg1.N) (prev : Vec F S1x1024 .f32) : Vec F S1024x1024 .bf16 × Vec F S1x1024 .f32 × Vec F S1x1024 .f32 :=
  if h0 : t.val % 4 = 0 then (out1_A_2 c t h0 (by omega) (iblk1 V c 0 t) (iblk1 V c 1 t), out1_A_3 c t h0 (by omega) (iblk1 V c 0 t) (iblk1 V c 1 t), sout1_A c t h0 (by omega) (iblk1 V c 0 t) (iblk1 V c 1 t))
  else if h1 : t.val % 4 = 3 then (out1_C_2 c t h0 h1 (iblk1 V c 0 t) (iblk1 V c 1 t) prev, out1_C_3 c t h0 h1 (iblk1 V c 0 t) (iblk1 V c 1 t) prev, sout1_C c t h0 h1 (iblk1 V c 0 t) (iblk1 V c 1 t) prev)
  else (out1_B_2 c t h0 h1 (iblk1 V c 0 t) (iblk1 V c 1 t) prev, out1_B_3 c t h0 h1 (iblk1 V c 0 t) (iblk1 V c 1 t) prev, sout1_B c t h0 h1 (iblk1 V c 0 t) (iblk1 V c 1 t) prev)

theorem step1_A (c : Dev nD) (t : Fin cfg1.N) (prev) (h0 : t.val % 4 = 0) (h1 : ¬t.val % 4 = 3) :
    step1 V c t prev = (out1_A_2 c t h0 h1 (iblk1 V c 0 t) (iblk1 V c 1 t), out1_A_3 c t h0 h1 (iblk1 V c 0 t) (iblk1 V c 1 t), sout1_A c t h0 h1 (iblk1 V c 0 t) (iblk1 V c 1 t)) := dif_pos h0
theorem step1_B (c : Dev nD) (t : Fin cfg1.N) (prev) (h0 : ¬t.val % 4 = 0) (h1 : ¬t.val % 4 = 3) :
    step1 V c t prev = (out1_B_2 c t h0 h1 (iblk1 V c 0 t) (iblk1 V c 1 t) prev, out1_B_3 c t h0 h1 (iblk1 V c 0 t) (iblk1 V c 1 t) prev, sout1_B c t h0 h1 (iblk1 V c 0 t) (iblk1 V c 1 t) prev) := (dif_neg h0).trans (dif_neg h1)
theorem step1_C (c : Dev nD) (t : Fin cfg1.N) (prev) (h0 : ¬t.val % 4 = 0) (h1 : t.val % 4 = 3) :
    step1 V c t prev = (out1_C_2 c t h0 h1 (iblk1 V c 0 t) (iblk1 V c 1 t) prev, out1_C_3 c t h0 h1 (iblk1 V c 0 t) (iblk1 V c 1 t) prev, sout1_C c t h0 h1 (iblk1 V c 0 t) (iblk1 V c 1 t) prev) := (dif_neg h0).trans (dif_pos h1)

/-- Contents standing for "anything" before the first point (never consulted: the first point resets). -/
abbrev anyS1 : Vec F S1x1024 .f32 := VS1_0.read (Elt F) VS1_0.junk

/-- The accumulator after point `n`, by recursion on the point. -/
def scrAt1 (c : Dev nD) : (n : ℕ) → n < cfg1.N → Vec F S1x1024 .f32
  | 0, hn => (step1 V c ⟨0, hn⟩ anyS1).2.2
  | n + 1, hn => (step1 V c ⟨n + 1, hn⟩ (scrAt1 c n (Nat.lt_of_succ_lt hn))).2.2

/-- The accumulator before point `t`. -/
def prevAt1 (c : Dev nD) (t : Fin cfg1.N) : Vec F S1x1024 .f32 :=
  if hz : t.val = 0 then anyS1 else scrAt1 V c (t.val - 1) (Nat.lt_of_le_of_lt (Nat.sub_le _ _) t.isLt)

/-- The outputs' buffers and the accumulator after point `t`. -/
def outsAt1 (c : Dev nD) (t : Fin cfg1.N) : Vec F S1024x1024 .bf16 × Vec F S1x1024 .f32 × Vec F S1x1024 .f32 := step1 V c t (prevAt1 V c t)

theorem scrAt1_eq (c : Dev nD) (t : Fin cfg1.N) : scrAt1 V c t.val t.isLt = (outsAt1 V c t).2.2 := by
  obtain ⟨n, hn⟩ := t
  cases n with
  | zero => rfl
  | succ n => rfl

theorem prevAt1_pos (c : Dev nD) (t : Fin cfg1.N) (hz : t.val ≠ 0) :
    prevAt1 V c t = scrAt1 V c (t.val - 1) (Nat.lt_of_le_of_lt (Nat.sub_le _ _) t.isLt) := dif_neg hz

/-- The region's invariant before position `n`: the class invariant before the first point; afterwards the accumulator at what the point before left, the other scoped buffers and the generator register at anything. -/
def PhiS1 (c : Dev nD) : (n : ℕ) → n ≤ cfg1.N → sProp 𝕄
  | 0, _ => Pipeline.ΦA spec1 c
  | n + 1, hn => iprop(iprop(owns (c : Thread nD τ) scM1_0 fullShare (scrAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (scrAt1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (scrAt1 V c (n - 1) (by omega)) ∗ others1 c) ∗ (∃ r, prngReg c r)) := by
  cases n with
  | zero => exact absurd rfl hz
  | succ n => rfl

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t).1 := by dsimp only [dat1]
theorem after1_3 (c : Dev nD) (t : Fin cfg1.N) : (dat1 V c).after 3 t = (outsAt1 V c t).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  have hN : t.val < 8 := lt_of_lt_of_eq t.isLt (show cfg1.N = 8 from N_1)
  by_cases h0 : t.val % 4 = 0
  · have h1 : ¬t.val % 4 = 3 := by omega
    rw [show (dat1 V c).leavesExact 0 t = owns (c : Thread nD τ) (ms1_0 t) fullShare ((dat1 V c).after 0 t) from by
            unfold Dat.leavesExact; rw [liveAt1_0 t], after1_0]
    rw [show (dat1 V c).leavesExact 1 t = owns (c : Thread nD τ) (ms1_1 t) fullShare ((dat1 V c).after 1 t) from by
            unfold Dat.leavesExact; rw [liveAt1_1 t], after1_1]
    rw [show (dat1 V c).leavesExact 2 t = owns (c : Thread nD τ) (ms1_2 t) fullShare ((dat1 V c).after 2 t) from by
            unfold Dat.leavesExact; rw [liveAt1_2 t], after1_2]
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [show (dat1 V c).Φ t.succ = PhiS1 V c (t.val + 1) t.isLt from rfl, PhiS1_succ, scrAt1_eq V c t]
    unfold outsAt1
    rw [step1_A V c t _ h0 h1]
    unfold out1_A_2 sout1_A; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩⟩
      iapply ((run1_A c t h0 h1 (iblk1 V c 0 t) (iblk1 V c 1 t)).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c t h0 h1 _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover1_A_2 c t h0 h1 _ _)
      iexists _; iexact H3

    · rw [PhiS1_castSucc V c t, PhiS1_pos V c _ _ hz, ← prevAt1_pos V c t hz]
      iintro ⟨⟨⟨HS0, HR⟩, Hg⟩, Ho, ⟨%d0, H0⟩, ⟨%d1, H1⟩, ⟨%d2, H2⟩, ⟨%d3, H3⟩⟩
      iapply ((run1_A c t h0 h1 (iblk1 V c 0 t) (iblk1 V c 1 t)).2.2.2 _ Set.univ _)
      isplitl [H0]; · iexact H0
      isplitl [H1]; · iexact H1
      isplitl [H2]; · iexists _; iexact H2
      isplitl [H3]; · iexact H3
      isplitl [HS0]; · iexists _; iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c t h0 h1 _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover1_A_2 c t h0 h1 _ _)
      iexists _; iexact H3

  · have hz : t.val ≠ 0 := fun e => h0 (by rw [e])
    by_cases h1 : t.val % 4 = 3
    · rw [show (dat1 V c).leavesExact 0 t = owns (c : Thread nD τ) (ms1_0 t) fullShare ((dat1 V c).after 0 t) from by
              unfold Dat.leavesExact; rw [liveAt1_0 t], after1_0]
      rw [show (dat1 V c).leavesExact 1 t = owns (c : Thread nD τ) (ms1_1 t) fullShare ((dat1 V c).after 1 t) from by
              unfold Dat.leavesExact; rw [liveAt1_1 t], after1_1]
      rw [show (dat1 V c).leavesExact 2 t = owns (c : Thread nD τ) (ms1_2 t) fullShare ((dat1 V c).after 2 t) from by
              unfold Dat.leavesExact; rw [liveAt1_2 t], after1_2]
      rw [show (dat1 V c).leavesExact 3 t = owns (c : Thread nD τ) (ms1_3 t) fullShare ((dat1 V c).after 3 t) from by
              unfold Dat.leavesExact; rw [liveAt1_3_C t (fun h => h0 ((hcond1_0 t).mp h)) ((hcond1_1 t).mpr h1)], after1_3]
      rw [show (dat1 V c).Φ t.succ = PhiS1 V c (t.val + 1) t.isLt from rfl, PhiS1_succ, scrAt1_eq V c t]
      unfold outsAt1
      rw [step1_C V c t _ h0 h1]
      unfold out1_C_2 out1_C_3 sout1_C; (try dsimp only)
      rw [PhiS1_castSucc V c t, PhiS1_pos V c _ _ hz, ← prevAt1_pos V c t hz]
      iintro ⟨⟨⟨HS0, HR⟩, Hg⟩, Ho, ⟨%d0, H0⟩, ⟨%d1, H1⟩, ⟨%d2, H2⟩, ⟨%d3, H3⟩⟩
      iapply ((run1_C c t h0 h1 (iblk1 V c 0 t) (iblk1 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c t h0 h1 _ _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover1_C_2 c t h0 h1 _ _ _)
      unfold owns; iexists _; isplitr
      swap; · iexact H3
      ipureintro; exact View.read_writes_of_cover _ _ _ _ _ (cover1_C_3 c t h0 h1 _ _ _)

    · rw [show (dat1 V c).leavesExact 0 t = owns (c : Thread nD τ) (ms1_0 t) fullShare ((dat1 V c).after 0 t) from by
              unfold Dat.leavesExact; rw [liveAt1_0 t], after1_0]
      rw [show (dat1 V c).leavesExact 1 t = owns (c : Thread nD τ) (ms1_1 t) fullShare ((dat1 V c).after 1 t) from by
              unfold Dat.leavesExact; rw [liveAt1_1 t], after1_1]
      rw [show (dat1 V c).leavesExact 2 t = owns (c : Thread nD τ) (ms1_2 t) fullShare ((dat1 V c).after 2 t) from by
              unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [show (dat1 V c).Φ t.succ = PhiS1 V c (t.val + 1) t.isLt from rfl, PhiS1_succ, scrAt1_eq V c t]
      unfold outsAt1
      rw [step1_B V c t _ h0 h1]
      unfold out1_B_2 sout1_B; (try dsimp only)
      rw [PhiS1_castSucc V c t, PhiS1_pos V c _ _ hz, ← prevAt1_pos V c t hz]
      iintro ⟨⟨⟨HS0, HR⟩, Hg⟩, Ho, ⟨%d0, H0⟩, ⟨%d1, H1⟩, ⟨%d2, H2⟩, ⟨%d3, H3⟩⟩
      iapply ((run1_B c t h0 h1 (iblk1 V c 0 t) (iblk1 V c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c t h0 h1 _ _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover1_B_2 c t h0 h1 _ _ _)
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  iintro ⟨⟨HS0, HR⟩, Hg⟩
  isplitl [HS0 HR]
  · isplitl [HS0]
    · iexists _; iexact HS0
    iexact HR
  iexact Hg

end

end Cert.Kernel.Fr

end
-- ==== Proof.KB2Runs.lean ====
/-
  Region 2 of the program: what its three control cases share. The body is entered at every grid point with the
  windows' staging buffers and one scratch accumulator; the accumulator is reset where the last grid coordinate is 0,
  added to at every point, and copied out where that coordinate is 3. Here: each window's block read off the
  array the region finds, the two conditions in closed form over the grid's points, where the late output is idle,
  and the region's invariant with the accumulator split off the other scoped buffers.
-/
import proofs.«139255_j55740085568003_2_alg».proof.Proof.Gen.Kernel.Launch
import proofs.«139255_j55740085568003_2_alg».proof.Proof.Gen.Kernel.Skeleton
import proofs.«139255_j55740085568003_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (where it is not fetched its block index has not moved). -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (where it is not fetched its block index has not moved). -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (where it is not fetched its block index has not moved). -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (where it is not fetched its block index has not moved). -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end

/-- The reset condition: the grid's last coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The copy-out condition: the grid's last coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
theorem liveAt2_4_C : ∀ t : Fin cfg2.N, ¬cond2_0 (grid2.coords t) → cond2_1 (grid2.coords t) → cfg2.idle 4 (grid2.coords t) = false := by decide +kernel

/-- One staging buffer of output window 4, through which its contents are stated. -/
abbrev VO2_4 : View sig .tc .vmem S1024x1024 .f32 := (Memref.whole cc2_stg4_0 : Memref sig .tc .vmem S1024x1024 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
/-- The scratch accumulator, a whole scoped buffer of the kernel's own, and the view its contents are stated through. -/
abbrev scM2_0 : Memref sig .tc .vmem S1024x1024 .f32 := Memref.whole cc2_scratch0
abbrev VS2_0 : View sig .tc .vmem S1024x1024 .f32 := scM2_0.view

/-- The other scoped buffers of the core (the other regions' staging buffers and accumulators), at anything: they ride along unopened. -/
abbrev others2 (c : Dev nD) : sProp 𝕄 :=
  Pipeline.scopedRestBut (Ix := Unit) (Name := ℕ) (U := Pipeline.UD sig nD τ) (Lvl := ℕ) (Val := Elt F) spec2 c [cc2_scratch0]

/-- The class invariant with the accumulator split off: the accumulator at some contents, the other scoped buffers, the generator register at some state. -/
theorem PhiA2_eq (c : Dev nD) :
    (Pipeline.ΦA spec2 c : sProp 𝕄)
      = iprop(iprop((∃ d, owns (c : Thread nD τ) scM2_0 fullShare d) ∗ others2 c) ∗ (∃ r, prngReg c r)) := by
  unfold Pipeline.ΦA
  rw [Pipeline.scopedRest_split_of_list spec2 c [cc2_scratch0] (by decide) (by decide)]
  simp only [scM2_0, owns_whole, Idealize.SL.BI.bigSepL_singleton]; try rfl

end Cert.Kernel.Fr

end
-- ==== Proof.KB2RunA.lean ====
/-
  Region 2, the body's run in case A (the accumulator is reset, nothing is copied out):
  on whole staging buffers, the inputs at their blocks, the accumulator at anything, the body runs to the end, leaving
  the inputs as they were and in every buffer it stores into the pieces this run finds.
-/
import proofs.«139255_j55740085568003_2_alg».proof.Proof.KB2Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__dist_kernel i arg3 harg3 arg4 harg4 arg5 harg5 arg6 harg6 arg7 harg7 arg8 harg8) K } := by
  refine ⟨[], ?_, fun xi4 E K => ?run⟩
  case run =>
    simp only [cc2__dist_kernel_eq_skeleton]; unfold cc2__dist_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.KB2RunB.lean ====
/-
  Region 2, the body's run in case B (no reset, nothing copied out):
  on whole staging buffers, the inputs at their blocks, the accumulator at what the point before left, the body runs to the end, leaving
  the inputs as they were and in every buffer it stores into the pieces this run finds.
-/
import proofs.«139255_j55740085568003_2_alg».proof.Proof.KB2RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__dist_kernel i arg3 harg3 arg4 harg4 arg5 harg5 arg6 harg6 arg7 harg7 arg8 harg8) K } := by
  refine ⟨[], ?_, fun xi4 E K => ?run⟩
  case run =>
    simp only [cc2__dist_kernel_eq_skeleton]; unfold cc2__dist_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.KB2RunC.lean ====
/-
  Region 2, the body's run in case C (no reset, the accumulator is copied out):
  on whole staging buffers, the inputs at their blocks, the accumulator at what the point before left, the body runs to the end, leaving
  the inputs as they were and in every buffer it stores into the pieces this run finds.
-/
import proofs.«139255_j55740085568003_2_alg».proof.Proof.KB2RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__dist_kernel i arg3 harg3 arg4 harg4 arg5 harg5 arg6 harg6 arg7 harg7 arg8 harg8) K } := by
  refine ⟨?_, ?_, fun E K => ?run⟩
  case run =>
    simp only [cc2__dist_kernel_eq_skeleton]; unfold cc2__dist_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.KB2.lean ====
/-
  Region 2: what its buffers hold point by point, its proof data, and the body's obligation at every point.
  After the body at a point each input window's buffer holds its block; the outputs' buffers and the accumulator hold
  what the point's case leaves, the accumulator's contents going into the next point's case. Between points the
  region's invariant names the accumulator's contents; before the first point and after the last it is the
  class invariant (every scoped buffer at anything).
-/
import proofs.«139255_j55740085568003_2_alg».proof.Proof.KB2RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The run of case A at point `t`. -/
abbrev run2_A (c : Dev nD) (t : Fin cfg2.N) (h0 : t.val % 4 = 0) (h1 : ¬t.val % 4 = 3) (x0 : Vec F S1024x1024 .bf16) (x1 : Vec F S1024x1024 .bf16) (x2 : Vec F S1x1024 .f32) (x3 : Vec F S1x1024 .f32) :=
  kernelRun2_A (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) x0 x1 x2 x3

/-- What case A leaves in output window 4's buffer (nothing is stored: a placeholder nothing consults). -/
def out2_A_4 (c : Dev nD) (t : Fin cfg2.N) (h0 : t.val % 4 = 0) (h1 : ¬t.val % 4 = 3) (x0 : Vec F S1024x1024 .bf16) (x1 : Vec F S1024x1024 .bf16) (x2 : Vec F S1x1024 .f32) (x3 : Vec F S1x1024 .f32) : Vec F S1024x1024 .f32 :=
  VO2_4.read (Elt F) (VO2_4.writes (Elt F) VO2_4.junk (run2_A c t h0 h1 x0 x1 x2 x3).1)

theorem scover2_A (c : Dev nD) (t : Fin cfg2.N) (h0 : t.val % 4 = 0) (h1 : ¬t.val % 4 = 3) (x0 : Vec F S1024x1024 .bf16) (x1 : Vec F S1024x1024 .bf16) (x2 : Vec F S1x1024 .f32) (x3 : Vec F S1x1024 .f32) (y : S1024x1024.Idx) :
    ∃ pc ∈ (run2_A c t h0 h1 x0 x1 x2 x3).2.1, y ∈ pc.1.set :=
  View.cover_of_tiledL _ S1024x1024.size (by sl_kernel_rfl) y

/-- What case A leaves in the accumulator. -/
def sout2_A (c : Dev nD) (t : Fin cfg2.N) (h0 : t.val % 4 = 0) (h1 : ¬t.val % 4 = 3) (x0 : Vec F S1024x1024 .bf16) (x1 : Vec F S1024x1024 .bf16) (x2 : Vec F S1x1024 .f32) (x3 : Vec F S1x1024 .f32) : Vec F S1024x1024 .f32 :=
  VS2_0.read (Elt F) (VS2_0.writes (Elt F) VS2_0.junk (run2_A c t h0 h1 x0 x1 x2 x3).2.1)

/-- The run of case B at point `t`. -/
abbrev run2_B (c : Dev nD) (t : Fin cfg2.N) (h0 : ¬t.val % 4 = 0) (h1 : ¬t.val % 4 = 3) (x0 : Vec F S1024x1024 .bf16) (x1 : Vec F S1024x1024 .bf16) (x2 : Vec F S1x1024 .f32) (x3 : Vec F S1x1024 .f32) (xs0 : Vec F S1024x1024 .f32) :=
  kernelRun2_B (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) x0 x1 x2 x3 xs0

/-- What case B leaves in output window 4's buffer (nothing is stored: a placeholder nothing consults). -/
def out2_B_4 (c : Dev nD) (t : Fin cfg2.N) (h0 : ¬t.val % 4 = 0) (h1 : ¬t.val % 4 = 3) (x0 : Vec F S1024x1024 .bf16) (x1 : Vec F S1024x1024 .bf16) (x2 : Vec F S1x1024 .f32) (x3 : Vec F S1x1024 .f32) (xs0 : Vec F S1024x1024 .f32) : Vec F S1024x1024 .f32 :=
  VO2_4.read (Elt F) (VO2_4.writes (Elt F) VO2_4.junk (run2_B c t h0 h1 x0 x1 x2 x3 xs0).1)

theorem scover2_B (c : Dev nD) (t : Fin cfg2.N) (h0 : ¬t.val % 4 = 0) (h1 : ¬t.val % 4 = 3) (x0 : Vec F S1024x1024 .bf16) (x1 : Vec F S1024x1024 .bf16) (x2 : Vec F S1x1024 .f32) (x3 : Vec F S1x1024 .f32) (xs0 : Vec F S1024x1024 .f32) (y : S1024x1024.Idx) :
    ∃ pc ∈ (run2_B c t h0 h1 x0 x1 x2 x3 xs0).2.1, y ∈ pc.1.set :=
  View.cover_of_tiledL _ S1024x1024.size (by sl_kernel_rfl) y

/-- What case B leaves in the accumulator. -/
def sout2_B (c : Dev nD) (t : Fin cfg2.N) (h0 : ¬t.val % 4 = 0) (h1 : ¬t.val % 4 = 3) (x0 : Vec F S1024x1024 .bf16) (x1 : Vec F S1024x1024 .bf16) (x2 : Vec F S1x1024 .f32) (x3 : Vec F S1x1024 .f32) (xs0 : Vec F S1024x1024 .f32) : Vec F S1024x1024 .f32 :=
  VS2_0.read (Elt F) (VS2_0.writes (Elt F) VS2_0.junk (run2_B c t h0 h1 x0 x1 x2 x3 xs0).2.1)

/-- The run of case C at point `t`. -/
abbrev run2_C (c : Dev nD) (t : Fin cfg2.N) (h0 : ¬t.val % 4 = 0) (h1 : t.val % 4 = 3) (x0 : Vec F S1024x1024 .bf16) (x1 : Vec F S1024x1024 .bf16) (x2 : Vec F S1x1024 .f32) (x3 : Vec F S1x1024 .f32) (xs0 : Vec F S1024x1024 .f32) :=
  kernelRun2_C (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) x0 x1 x2 x3 xs0

theorem cover2_C_4 (c : Dev nD) (t : Fin cfg2.N) (h0 : ¬t.val % 4 = 0) (h1 : t.val % 4 = 3) (x0 : Vec F S1024x1024 .bf16) (x1 : Vec F S1024x1024 .bf16) (x2 : Vec F S1x1024 .f32) (x3 : Vec F S1x1024 .f32) (xs0 : Vec F S1024x1024 .f32) (y : S1024x1024.Idx) :
    ∃ pc ∈ (run2_C c t h0 h1 x0 x1 x2 x3 xs0).1, y ∈ pc.1.set :=
  View.cover_of_tiledL _ S1024x1024.size (by sl_kernel_rfl) y

/-- What case C leaves in output window 4's buffer. -/
def out2_C_4 (c : Dev nD) (t : Fin cfg2.N) (h0 : ¬t.val % 4 = 0) (h1 : t.val % 4 = 3) (x0 : Vec F S1024x1024 .bf16) (x1 : Vec F S1024x1024 .bf16) (x2 : Vec F S1x1024 .f32) (x3 : Vec F S1x1024 .f32) (xs0 : Vec F S1024x1024 .f32) : Vec F S1024x1024 .f32 :=
  VO2_4.read (Elt F) (VO2_4.writes (Elt F) VO2_4.junk (run2_C c t h0 h1 x0 x1 x2 x3 xs0).1)

theorem scover2_C (c : Dev nD) (t : Fin cfg2.N) (h0 : ¬t.val % 4 = 0) (h1 : t.val % 4 = 3) (x0 : Vec F S1024x1024 .bf16) (x1 : Vec F S1024x1024 .bf16) (x2 : Vec F S1x1024 .f32) (x3 : Vec F S1x1024 .f32) (xs0 : Vec F S1024x1024 .f32) (y : S1024x1024.Idx) :
    ∃ pc ∈ (run2_C c t h0 h1 x0 x1 x2 x3 xs0).2.1, y ∈ pc.1.set :=
  View.cover_of_tiledL _ S1024x1024.size (by sl_kernel_rfl) y

/-- What case C leaves in the accumulator. -/
def sout2_C (c : Dev nD) (t : Fin cfg2.N) (h0 : ¬t.val % 4 = 0) (h1 : t.val % 4 = 3) (x0 : Vec F S1024x1024 .bf16) (x1 : Vec F S1024x1024 .bf16) (x2 : Vec F S1x1024 .f32) (x3 : Vec F S1x1024 .f32) (xs0 : Vec F S1024x1024 .f32) : Vec F S1024x1024 .f32 :=
  VS2_0.read (Elt F) (VS2_0.writes (Elt F) VS2_0.junk (run2_C c t h0 h1 x0 x1 x2 x3 xs0).2.1)

/-! ## Point by point -/

/-- What the outputs' buffers and the accumulator hold after the body at point `t`, given what the accumulator held before it. -/
def step2 (c : Dev nD) (t : Fin cfg2.N) (prev : Vec F S1024x1024 .f32) : Vec F S1024x1024 .f32 × Vec F S1024x1024 .f32 :=
  if h0 : t.val % 4 = 0 then (out2_A_4 c t h0 (by omega) (iblk2 V c 0 t) (iblk2 V c 1 t) (iblk2 V c 2 t) (iblk2 V c 3 t), sout2_A c t h0 (by omega) (iblk2 V c 0 t) (iblk2 V c 1 t) (iblk2 V c 2 t) (iblk2 V c 3 t))
  else if h1 : t.val % 4 = 3 then (out2_C_4 c t h0 h1 (iblk2 V c 0 t) (iblk2 V c 1 t) (iblk2 V c 2 t) (iblk2 V c 3 t) prev, sout2_C c t h0 h1 (iblk2 V c 0 t) (iblk2 V c 1 t) (iblk2 V c 2 t) (iblk2 V c 3 t) prev)
  else (out2_B_4 c t h0 h1 (iblk2 V c 0 t) (iblk2 V c 1 t) (iblk2 V c 2 t) (iblk2 V c 3 t) prev, sout2_B c t h0 h1 (iblk2 V c 0 t) (iblk2 V c 1 t) (iblk2 V c 2 t) (iblk2 V c 3 t) prev)

theorem step2_A (c : Dev nD) (t : Fin cfg2.N) (prev) (h0 : t.val % 4 = 0) (h1 : ¬t.val % 4 = 3) :
    step2 V c t prev = (out2_A_4 c t h0 h1 (iblk2 V c 0 t) (iblk2 V c 1 t) (iblk2 V c 2 t) (iblk2 V c 3 t), sout2_A c t h0 h1 (iblk2 V c 0 t) (iblk2 V c 1 t) (iblk2 V c 2 t) (iblk2 V c 3 t)) := dif_pos h0
theorem step2_B (c : Dev nD) (t : Fin cfg2.N) (prev) (h0 : ¬t.val % 4 = 0) (h1 : ¬t.val % 4 = 3) :
    step2 V c t prev = (out2_B_4 c t h0 h1 (iblk2 V c 0 t) (iblk2 V c 1 t) (iblk2 V c 2 t) (iblk2 V c 3 t) prev, sout2_B c t h0 h1 (iblk2 V c 0 t) (iblk2 V c 1 t) (iblk2 V c 2 t) (iblk2 V c 3 t) prev) := (dif_neg h0).trans (dif_neg h1)
theorem step2_C (c : Dev nD) (t : Fin cfg2.N) (prev) (h0 : ¬t.val % 4 = 0) (h1 : t.val % 4 = 3) :
    step2 V c t prev = (out2_C_4 c t h0 h1 (iblk2 V c 0 t) (iblk2 V c 1 t) (iblk2 V c 2 t) (iblk2 V c 3 t) prev, sout2_C c t h0 h1 (iblk2 V c 0 t) (iblk2 V c 1 t) (iblk2 V c 2 t) (iblk2 V c 3 t) prev) := (dif_neg h0).trans (dif_pos h1)

/-- Contents standing for "anything" before the first point (never consulted: the first point resets). -/
abbrev anyS2 : Vec F S1024x1024 .f32 := VS2_0.read (Elt F) VS2_0.junk

/-- The accumulator after point `n`, by recursion on the point. -/
def scrAt2 (c : Dev nD) : (n : ℕ) → n < cfg2.N → Vec F S1024x1024 .f32
  | 0, hn => (step2 V c ⟨0, hn⟩ anyS2).2
  | n + 1, hn => (step2 V c ⟨n + 1, hn⟩ (scrAt2 c n (Nat.lt_of_succ_lt hn))).2

/-- The accumulator before point `t`. -/
def prevAt2 (c : Dev nD) (t : Fin cfg2.N) : Vec F S1024x1024 .f32 :=
  if hz : t.val = 0 then anyS2 else scrAt2 V c (t.val - 1) (Nat.lt_of_le_of_lt (Nat.sub_le _ _) t.isLt)

/-- The outputs' buffers and the accumulator after point `t`. -/
def outsAt2 (c : Dev nD) (t : Fin cfg2.N) : Vec F S1024x1024 .f32 × Vec F S1024x1024 .f32 := step2 V c t (prevAt2 V c t)

theorem scrAt2_eq (c : Dev nD) (t : Fin cfg2.N) : scrAt2 V c t.val t.isLt = (outsAt2 V c t).2 := by
  obtain ⟨n, hn⟩ := t
  cases n with
  | zero => rfl
  | succ n => rfl

theorem prevAt2_pos (c : Dev nD) (t : Fin cfg2.N) (hz : t.val ≠ 0) :
    prevAt2 V c t = scrAt2 V c (t.val - 1) (Nat.lt_of_le_of_lt (Nat.sub_le _ _) t.isLt) := dif_neg hz

/-- The region's invariant before position `n`: the class invariant before the first point; afterwards the accumulator at what the point before left, the other scoped buffers and the generator register at anything. -/
def PhiS2 (c : Dev nD) : (n : ℕ) → n ≤ cfg2.N → sProp 𝕄
  | 0, _ => Pipeline.ΦA spec2 c
  | n + 1, hn => iprop(iprop(owns (c : Thread nD τ) scM2_0 fullShare (scrAt2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare (scrAt2 V c n hn) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare (scrAt2 V c (n - 1) (by omega)) ∗ others2 c) ∗ (∃ r, prngReg c r)) := by
  cases n with
  | zero => exact absurd rfl hz
  | succ n => rfl

/-! ## The proof data -/

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  have hN : t.val < 32 := lt_of_lt_of_eq t.isLt (show cfg2.N = 32 from N_2)
  by_cases h0 : t.val % 4 = 0
  · have h1 : ¬t.val % 4 = 3 := by omega
    rw [show (dat2 V c).leavesExact 0 t = owns (c : Thread nD τ) (ms2_0 t) fullShare ((dat2 V c).after 0 t) from by
            unfold Dat.leavesExact; rw [liveAt2_0 t], after2_0]
    rw [show (dat2 V c).leavesExact 1 t = owns (c : Thread nD τ) (ms2_1 t) fullShare ((dat2 V c).after 1 t) from by
            unfold Dat.leavesExact; rw [liveAt2_1 t], after2_1]
    rw [show (dat2 V c).leavesExact 2 t = owns (c : Thread nD τ) (ms2_2 t) fullShare ((dat2 V c).after 2 t) from by
            unfold Dat.leavesExact; rw [liveAt2_2 t], after2_2]
    rw [show (dat2 V c).leavesExact 3 t = owns (c : Thread nD τ) (ms2_3 t) fullShare ((dat2 V c).after 3 t) from by
            unfold Dat.leavesExact; rw [liveAt2_3 t], after2_3]
    rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
    rw [show (dat2 V c).Φ t.succ = PhiS2 V c (t.val + 1) t.isLt from rfl, PhiS2_succ, scrAt2_eq V c t]
    unfold outsAt2
    rw [step2_A V c t _ h0 h1]
    unfold sout2_A; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩⟩
      iapply ((run2_A c t h0 h1 (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c t h0 h1 _ _ _ _)
          iexact HR
        iexact Hg
      isplitl [Ho]; · iexact Ho
      isplitl [H0]
      · iexact H0
      isplitl [H1]
      · iexact H1
      isplitl [H2]
      · iexact H2
      isplitl [H3]
      · iexact H3
      iexists _; iexact H4

    · rw [PhiS2_castSucc V c t, PhiS2_pos V c _ _ hz, ← prevAt2_pos V c t hz]
      iintro ⟨⟨⟨HS0, HR⟩, Hg⟩, Ho, ⟨%d0, H0⟩, ⟨%d1, H1⟩, ⟨%d2, H2⟩, ⟨%d3, H3⟩, ⟨%d4, H4⟩⟩
      iapply ((run2_A c t h0 h1 (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c t h0 h1 _ _ _ _)
          iexact HR
        iexact Hg
      isplitl [Ho]; · iexact Ho
      isplitl [H0]
      · iexact H0
      isplitl [H1]
      · iexact H1
      isplitl [H2]
      · iexact H2
      isplitl [H3]
      · iexact H3
      iexists _; iexact H4

  · have hz : t.val ≠ 0 := fun e => h0 (by rw [e])
    by_cases h1 : t.val % 4 = 3
    · rw [show (dat2 V c).leavesExact 0 t = owns (c : Thread nD τ) (ms2_0 t) fullShare ((dat2 V c).after 0 t) from by
              unfold Dat.leavesExact; rw [liveAt2_0 t], after2_0]
      rw [show (dat2 V c).leavesExact 1 t = owns (c : Thread nD τ) (ms2_1 t) fullShare ((dat2 V c).after 1 t) from by
              unfold Dat.leavesExact; rw [liveAt2_1 t], after2_1]
      rw [show (dat2 V c).leavesExact 2 t = owns (c : Thread nD τ) (ms2_2 t) fullShare ((dat2 V c).after 2 t) from by
              unfold Dat.leavesExact; rw [liveAt2_2 t], after2_2]
      rw [show (dat2 V c).leavesExact 3 t = owns (c : Thread nD τ) (ms2_3 t) fullShare ((dat2 V c).after 3 t) from by
              unfold Dat.leavesExact; rw [liveAt2_3 t], after2_3]
      rw [show (dat2 V c).leavesExact 4 t = owns (c : Thread nD τ) (ms2_4 t) fullShare ((dat2 V c).after 4 t) from by
              unfold Dat.leavesExact; rw [liveAt2_4_C t (fun h => h0 ((hcond2_0 t).mp h)) ((hcond2_1 t).mpr h1)], after2_4]
      rw [show (dat2 V c).Φ t.succ = PhiS2 V c (t.val + 1) t.isLt from rfl, PhiS2_succ, scrAt2_eq V c t]
      unfold outsAt2
      rw [step2_C V c t _ h0 h1]
      unfold out2_C_4 sout2_C; (try dsimp only)
      rw [PhiS2_castSucc V c t, PhiS2_pos V c _ _ hz, ← prevAt2_pos V c t hz]
      iintro ⟨⟨⟨HS0, HR⟩, Hg⟩, Ho, ⟨%d0, H0⟩, ⟨%d1, H1⟩, ⟨%d2, H2⟩, ⟨%d3, H3⟩, ⟨%d4, H4⟩⟩
      iapply ((run2_C c t h0 h1 (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C c t h0 h1 _ _ _ _ _)
          iexact HR
        iexact Hg
      isplitl [Ho]; · iexact Ho
      isplitl [H0]
      · iexact H0
      isplitl [H1]
      · iexact H1
      isplitl [H2]
      · iexact H2
      isplitl [H3]
      · iexact H3
      unfold owns; iexists _; isplitr
      swap; · iexact H4
      ipureintro; exact View.read_writes_of_cover _ _ _ _ _ (cover2_C_4 c t h0 h1 _ _ _ _ _)

    · rw [show (dat2 V c).leavesExact 0 t = owns (c : Thread nD τ) (ms2_0 t) fullShare ((dat2 V c).after 0 t) from by
              unfold Dat.leavesExact; rw [liveAt2_0 t], after2_0]
      rw [show (dat2 V c).leavesExact 1 t = owns (c : Thread nD τ) (ms2_1 t) fullShare ((dat2 V c).after 1 t) from by
              unfold Dat.leavesExact; rw [liveAt2_1 t], after2_1]
      rw [show (dat2 V c).leavesExact 2 t = owns (c : Thread nD τ) (ms2_2 t) fullShare ((dat2 V c).after 2 t) from by
              unfold Dat.leavesExact; rw [liveAt2_2 t], after2_2]
      rw [show (dat2 V c).leavesExact 3 t = owns (c : Thread nD τ) (ms2_3 t) fullShare ((dat2 V c).after 3 t) from by
              unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [show (dat2 V c).Φ t.succ = PhiS2 V c (t.val + 1) t.isLt from rfl, PhiS2_succ, scrAt2_eq V c t]
      unfold outsAt2
      rw [step2_B V c t _ h0 h1]
      unfold sout2_B; (try dsimp only)
      rw [PhiS2_castSucc V c t, PhiS2_pos V c _ _ hz, ← prevAt2_pos V c t hz]
      iintro ⟨⟨⟨HS0, HR⟩, Hg⟩, Ho, ⟨%d0, H0⟩, ⟨%d1, H1⟩, ⟨%d2, H2⟩, ⟨%d3, H3⟩, ⟨%d4, H4⟩⟩
      iapply ((run2_B c t h0 h1 (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c t h0 h1 _ _ _ _ _)
          iexact HR
        iexact Hg
      isplitl [Ho]; · iexact Ho
      isplitl [H0]
      · iexact H0
      isplitl [H1]
      · iexact H1
      isplitl [H2]
      · iexact H2
      isplitl [H3]
      · iexact H3
      iexists _; iexact H4

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS0, HR⟩, Hg⟩
  isplitl [HS0 HR]
  · isplitl [HS0]
    · iexists _; iexact HS0
    iexact HR
  iexact Hg

end

end Cert.Kernel.Fr

end
-- ==== Proof.KBFrame.lean ====
/-
  The run of the program over its three kernel regions.
  Between regions every core holds each of its unscoped buffers whole: at the launch contents before region 0, and
  after region K at what region K's write-backs leave in its windows' arrays, every other buffer as before.
  Each region is a segment entered from those buffers and the generator register and left at the next contents; the
  three segments are the program, so every weakly fair execution terminates with every unscoped buffer at the last
  contents. The argument arrays are read by the regions only through input windows or not at all, so the last
  contents at an argument are its launch contents.
-/
import proofs.«139255_j55740085568003_2_alg».proof.Proof.KB0
import proofs.«139255_j55740085568003_2_alg».proof.Proof.KB1
import proofs.«139255_j55740085568003_2_alg».proof.Proof.KB2

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit: its arrays at what the pipeline leaves (the inputs as entered, each output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
/-- At region 1's exit each of its arrays holds what the pipeline leaves and every other buffer what it held at entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the inputs as entered, each output's write-backs
    folded), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
/-- At region 2's exit each of its arrays holds what the pipeline leaves and every other buffer what it held at entry. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The contents named: the arguments walk back to the launch, the intermediate arrays to the region that wrote them -/

theorem V1_main_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_main_arg2 (c : Dev nD) : V1 m ρ c main_arg2 = m ((c : Thread nD τ).loc main_arg2) :=
  W1_of_ne m ρ c main_arg2 (by decide)

theorem V2_main_v0_0 (c : Dev nD) : V2 m ρ c main_v0_0 = (dat0 (V0 m ρ) c).arrAt 2 cfg0.N :=
  (W2_of_ne m ρ c main_v0_0 (by decide)).trans (W1_arr m ρ c 2)
theorem V2_main_v0_1 (c : Dev nD) : V2 m ρ c main_v0_1 = (dat0 (V0 m ρ) c).arrAt 3 cfg0.N :=
  (W2_of_ne m ρ c main_v0_1 (by decide)).trans (W1_arr m ρ c 3)
theorem V2_main_v1_0 (c : Dev nD) : V2 m ρ c main_v1_0 = (dat1 (V1 m ρ) c).arrAt 2 cfg1.N := W2_arr m ρ c 2
theorem V2_main_v1_1 (c : Dev nD) : V2 m ρ c main_v1_1 = (dat1 (V1 m ρ) c).arrAt 3 cfg1.N := W2_arr m ρ c 3

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := W1_of_ne m ρ c main_arg2 (by decide)
    _ = m ((c : Thread nD τ).loc main_arg2) := rfl
theorem W3_main_v2 (c : Dev nD) : W3 m ρ c (Proc.devRef .tc main_v2) = (dat2 (V2 m ρ) c).arrAt 4 cfg2.N := W3_arr m ρ c 4

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 as a segment over the thread state: entered with every unscoped buffer at `W0`, left with them at
    `W1`. Its windows' arrays are split out of the unscoped buffers and put back at what the write-backs leave;
    the generator register goes into the region's invariant and comes back; nothing is owed; the kernel has no
    semaphore of its own. The invariant before the first point and after the last is the class invariant up to
    the two entailments the region's proof data come with. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    refine BIBase.Entails.trans ?_ (hin0 (V0 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V0 m ρ) c).Φ (Fin.last cfg0.N) from rfl]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state: entered with every unscoped buffer at `W1`, left with them at
    `W2`. Its windows' arrays are split out of the unscoped buffers and put back at what the write-backs leave;
    the generator register goes into the region's invariant and comes back; nothing is owed; the kernel has no
    semaphore of its own. The invariant before the first point and after the last is the class invariant up to
    the two entailments the region's proof data come with. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    refine BIBase.Entails.trans ?_ (hin1 (V1 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V1 m ρ) c).Φ (Fin.last cfg1.N) from rfl]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment over the thread state: entered with every unscoped buffer at `W2`, left with them at
    `W3`. Its windows' arrays are split out of the unscoped buffers and put back at what the write-backs leave;
    the generator register goes into the region's invariant and comes back; nothing is owed; the kernel has no
    semaphore of its own. The invariant before the first point and after the last is the class invariant up to
    the two entailments the region's proof data come with. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V2 m ρ) c).Φ 0 from rfl]
    refine BIBase.Entails.trans ?_ (hin2 (V2 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V2 m ρ) c).Φ (Fin.last cfg2.N) from rfl]
    refine BIBase.Entails.trans (hout2 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: one region per kernel call. -/
abbrev segs : List (Pipeline.Seg (pcfgs (F := F)) adm (pdats m ρ) () defs₀ 𝒱₀ L lv) :=
  [ .region (reg0 m ρ),
    .region (reg1 m ρ),
    .region (reg2 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and in every final state each core's unscoped buffers hold the last contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- The program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Fr

end
-- ==== Proof.KI0Runs.lean ====
/-
  Region 0 of the program: what its three control cases share. The body is entered at every grid point with the
  windows' staging buffers and one scratch accumulator; the accumulator is reset where the last grid coordinate is 0,
  added to at every point, and copied out where that coordinate is 7. Here: each window's block read off the
  array the region finds, the two conditions in closed form over the grid's points, where the late output is idle,
  and the region's invariant with the accumulator split off the other scoped buffers.
-/
import proofs.«139255_j55740085568003_2_alg».proof.Proof.Gen.KernelIdeal.Launch
import proofs.«139255_j55740085568003_2_alg».proof.Proof.Gen.KernelIdeal.Skeleton
import proofs.«139255_j55740085568003_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (where it is not fetched its block index has not moved). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (where it is not fetched its block index has not moved). -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-- The reset condition: the grid's last coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The copy-out condition: the grid's last coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-- One staging buffer of output window 2, through which its contents are stated. -/
abbrev VO0_2 : View sig .tc .vmem S512x2048 .bf16 := (Memref.whole cc0_stg2_0 : Memref sig .tc .vmem S512x2048 .bf16).view
/-- One staging buffer of output window 3, through which its contents are stated. -/
abbrev VO0_3 : View sig .tc .vmem S1x2048 .f32 := (Memref.whole cc0_stg3_0 : Memref sig .tc .vmem S1x2048 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
/-- The scratch accumulator, a whole scoped buffer of the kernel's own, and the view its contents are stated through. -/
abbrev scM0_0 : Memref sig .tc .vmem S1x2048 .f32 := Memref.whole cc0_scratch0
abbrev VS0_0 : View sig .tc .vmem S1x2048 .f32 := scM0_0.view

/-- The other scoped buffers of the core (the other regions' staging buffers and accumulators), at anything: they ride along unopened. -/
abbrev others0 (c : Dev nD) : sProp 𝕄 :=
  Pipeline.scopedRestBut (Ix := Unit) (Name := ℕ) (U := Pipeline.UD sig nD τ) (Lvl := ℕ) (Val := Elt F) spec0 c [cc0_scratch0]

/-- The class invariant with the accumulator split off: the accumulator at some contents, the other scoped buffers, the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [scM0_0, owns_whole, Idealize.SL.BI.bigSepL_singleton]; try rfl

end Cert.KernelIdeal.Fr

end
-- ==== Proof.KI0RunA.lean ====
/-
  Region 0, the body's run in case A (the accumulator is reset, nothing is copied out):
  on whole staging buffers, the inputs at their blocks, the accumulator at anything, the body runs to the end, leaving
  the inputs as they were and in every buffer it stores into the pieces this run finds.
-/
import proofs.«139255_j55740085568003_2_alg».proof.Proof.KI0Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun0_A (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (hc0 : cond0_0 i) (hc1 : ¬cond0_1 i)
    (x0 : Vec F S512x512 .f32) (x1 : Vec F S512x2048 .f32) :
    Σ' (L2 : List (View.Piece (Elt F) S512x2048 .bf16)) (L3 : List (View.Piece (Elt F) S1x2048 .f32)), { LS0 : List (View.Piece (Elt F) S1x2048 .f32) //
      ∀ (xi3 : Vec F S1x2048 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__xm_kernel i arg2 harg2 arg3 harg3 arg4 harg4 arg5 harg5 arg6 harg6) K } := by
  refine ⟨?_, [], ?_, fun xi3 E K => ?run⟩
  case run =>
    simp only [cc0__xm_kernel_eq_skeleton]; unfold cc0__xm_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Fr

end
-- ==== Proof.KI0RunB.lean ====
/-
  Region 0, the body's run in case B (no reset, nothing copied out):
  on whole staging buffers, the inputs at their blocks, the accumulator at what the point before left, the body runs to the end, leaving
  the inputs as they were and in every buffer it stores into the pieces this run finds.
-/
import proofs.«139255_j55740085568003_2_alg».proof.Proof.KI0RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun0_B (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (hc0 : ¬cond0_0 i) (hc1 : ¬cond0_1 i)
    (x0 : Vec F S512x512 .f32) (x1 : Vec F S512x2048 .f32) (xs0 : Vec F S1x2048 .f32) :
    Σ' (L2 : List (View.Piece (Elt F) S512x2048 .bf16)) (L3 : List (View.Piece (Elt F) S1x2048 .f32)), { LS0 : List (View.Piece (Elt F) S1x2048 .f32) //
      ∀ (xi3 : Vec F S1x2048 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__xm_kernel i arg2 harg2 arg3 harg3 arg4 harg4 arg5 harg5 arg6 harg6) K } := by
  refine ⟨?_, [], ?_, fun xi3 E K => ?run⟩
  case run =>
    simp only [cc0__xm_kernel_eq_skeleton]; unfold cc0__xm_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Fr

end
-- ==== Proof.KI0RunC.lean ====
/-
  Region 0, the body's run in case C (no reset, the accumulator is copied out):
  on whole staging buffers, the inputs at their blocks, the accumulator at what the point before left, the body runs to the end, leaving
  the inputs as they were and in every buffer it stores into the pieces this run finds.
-/
import proofs.«139255_j55740085568003_2_alg».proof.Proof.KI0RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun0_C (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (hc0 : ¬cond0_0 i) (hc1 : cond0_1 i)
    (x0 : Vec F S512x512 .f32) (x1 : Vec F S512x2048 .f32) (xs0 : Vec F S1x2048 .f32) :
    Σ' (L2 : List (View.Piece (Elt F) S512x2048 .bf16)) (L3 : List (View.Piece (Elt F) S1x2048 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__xm_kernel i arg2 harg2 arg3 harg3 arg4 harg4 arg5 harg5 arg6 harg6) K } := by
  refine ⟨?_, ?_, ?_, fun E K => ?run⟩
  case run =>
    simp only [cc0__xm_kernel_eq_skeleton]; unfold cc0__xm_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Fr

end
-- ==== Proof.KI0.lean ====
/-
  Region 0: what its buffers hold point by point, its proof data, and the body's obligation at every point.
  After the body at a point each input window's buffer holds its block; the outputs' buffers and the accumulator hold
  what the point's case leaves, the accumulator's contents going into the next point's case. Between points the
  region's invariant names the accumulator's contents; before the first point and after the last it is the
  class invariant (every scoped buffer at anything).
-/
import proofs.«139255_j55740085568003_2_alg».proof.Proof.KI0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The run of case A at point `t`. -/
abbrev run0_A (c : Dev nD) (t : Fin cfg0.N) (h0 : t.val % 8 = 0) (h1 : ¬t.val % 8 = 7) (x0 : Vec F S512x512 .f32) (x1 : Vec F S512x2048 .f32) :=
  kernelRun0_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) x0 x1

theorem cover0_A_2 (c : Dev nD) (t : Fin cfg0.N) (h0 : t.val % 8 = 0) (h1 : ¬t.val % 8 = 7) (x0 : Vec F S512x512 .f32) (x1 : Vec F S512x2048 .f32) (y : S512x2048.Idx) :
    ∃ pc ∈ (run0_A c t h0 h1 x0 x1).1, y ∈ pc.1.set :=
  View.cover_of_tiledL _ S512x2048.size (by sl_kernel_rfl) y

/-- What case A leaves in output window 2's buffer. -/
def out0_A_2 (c : Dev nD) (t : Fin cfg0.N) (h0 : t.val % 8 = 0) (h1 : ¬t.val % 8 = 7) (x0 : Vec F S512x512 .f32) (x1 : Vec F S512x2048 .f32) : Vec F S512x2048 .bf16 :=
  VO0_2.read (Elt F) (VO0_2.writes (Elt F) VO0_2.junk (run0_A c t h0 h1 x0 x1).1)

/-- What case A leaves in output window 3's buffer (nothing is stored: a placeholder nothing consults). -/
def out0_A_3 (c : Dev nD) (t : Fin cfg0.N) (h0 : t.val % 8 = 0) (h1 : ¬t.val % 8 = 7) (x0 : Vec F S512x512 .f32) (x1 : Vec F S512x2048 .f32) : Vec F S1x2048 .f32 :=
  VO0_3.read (Elt F) (VO0_3.writes (Elt F) VO0_3.junk (run0_A c t h0 h1 x0 x1).2.1)

theorem scover0_A (c : Dev nD) (t : Fin cfg0.N) (h0 : t.val % 8 = 0) (h1 : ¬t.val % 8 = 7) (x0 : Vec F S512x512 .f32) (x1 : Vec F S512x2048 .f32) (y : S1x2048.Idx) :
    ∃ pc ∈ (run0_A c t h0 h1 x0 x1).2.2.1, y ∈ pc.1.set :=
  View.cover_of_tiledL _ S1x2048.size (by sl_kernel_rfl) y

/-- What case A leaves in the accumulator. -/
def sout0_A (c : Dev nD) (t : Fin cfg0.N) (h0 : t.val % 8 = 0) (h1 : ¬t.val % 8 = 7) (x0 : Vec F S512x512 .f32) (x1 : Vec F S512x2048 .f32) : Vec F S1x2048 .f32 :=
  VS0_0.read (Elt F) (VS0_0.writes (Elt F) VS0_0.junk (run0_A c t h0 h1 x0 x1).2.2.1)

/-- The run of case B at point `t`. -/
abbrev run0_B (c : Dev nD) (t : Fin cfg0.N) (h0 : ¬t.val % 8 = 0) (h1 : ¬t.val % 8 = 7) (x0 : Vec F S512x512 .f32) (x1 : Vec F S512x2048 .f32) (xs0 : Vec F S1x2048 .f32) :=
  kernelRun0_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) x0 x1 xs0

theorem cover0_B_2 (c : Dev nD) (t : Fin cfg0.N) (h0 : ¬t.val % 8 = 0) (h1 : ¬t.val % 8 = 7) (x0 : Vec F S512x512 .f32) (x1 : Vec F S512x2048 .f32) (xs0 : Vec F S1x2048 .f32) (y : S512x2048.Idx) :
    ∃ pc ∈ (run0_B c t h0 h1 x0 x1 xs0).1, y ∈ pc.1.set :=
  View.cover_of_tiledL _ S512x2048.size (by sl_kernel_rfl) y

/-- What case B leaves in output window 2's buffer. -/
def out0_B_2 (c : Dev nD) (t : Fin cfg0.N) (h0 : ¬t.val % 8 = 0) (h1 : ¬t.val % 8 = 7) (x0 : Vec F S512x512 .f32) (x1 : Vec F S512x2048 .f32) (xs0 : Vec F S1x2048 .f32) : Vec F S512x2048 .bf16 :=
  VO0_2.read (Elt F) (VO0_2.writes (Elt F) VO0_2.junk (run0_B c t h0 h1 x0 x1 xs0).1)

/-- What case B leaves in output window 3's buffer (nothing is stored: a placeholder nothing consults). -/
def out0_B_3 (c : Dev nD) (t : Fin cfg0.N) (h0 : ¬t.val % 8 = 0) (h1 : ¬t.val % 8 = 7) (x0 : Vec F S512x512 .f32) (x1 : Vec F S512x2048 .f32) (xs0 : Vec F S1x2048 .f32) : Vec F S1x2048 .f32 :=
  VO0_3.read (Elt F) (VO0_3.writes (Elt F) VO0_3.junk (run0_B c t h0 h1 x0 x1 xs0).2.1)

theorem scover0_B (c : Dev nD) (t : Fin cfg0.N) (h0 : ¬t.val % 8 = 0) (h1 : ¬t.val % 8 = 7) (x0 : Vec F S512x512 .f32) (x1 : Vec F S512x2048 .f32) (xs0 : Vec F S1x2048 .f32) (y : S1x2048.Idx) :
    ∃ pc ∈ (run0_B c t h0 h1 x0 x1 xs0).2.2.1, y ∈ pc.1.set :=
  View.cover_of_tiledL _ S1x2048.size (by sl_kernel_rfl) y

/-- What case B leaves in the accumulator. -/
def sout0_B (c : Dev nD) (t : Fin cfg0.N) (h0 : ¬t.val % 8 = 0) (h1 : ¬t.val % 8 = 7) (x0 : Vec F S512x512 .f32) (x1 : Vec F S512x2048 .f32) (xs0 : Vec F S1x2048 .f32) : Vec F S1x2048 .f32 :=
  VS0_0.read (Elt F) (VS0_0.writes (Elt F) VS0_0.junk (run0_B c t h0 h1 x0 x1 xs0).2.2.1)

/-- The run of case C at point `t`. -/
abbrev run0_C (c : Dev nD) (t : Fin cfg0.N) (h0 : ¬t.val % 8 = 0) (h1 : t.val % 8 = 7) (x0 : Vec F S512x512 .f32) (x1 : Vec F S512x2048 .f32) (xs0 : Vec F S1x2048 .f32) :=
  kernelRun0_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) x0 x1 xs0

theorem cover0_C_2 (c : Dev nD) (t : Fin cfg0.N) (h0 : ¬t.val % 8 = 0) (h1 : t.val % 8 = 7) (x0 : Vec F S512x512 .f32) (x1 : Vec F S512x2048 .f32) (xs0 : Vec F S1x2048 .f32) (y : S512x2048.Idx) :
    ∃ pc ∈ (run0_C c t h0 h1 x0 x1 xs0).1, y ∈ pc.1.set :=
  View.cover_of_tiledL _ S512x2048.size (by sl_kernel_rfl) y

/-- What case C leaves in output window 2's buffer. -/
def out0_C_2 (c : Dev nD) (t : Fin cfg0.N) (h0 : ¬t.val % 8 = 0) (h1 : t.val % 8 = 7) (x0 : Vec F S512x512 .f32) (x1 : Vec F S512x2048 .f32) (xs0 : Vec F S1x2048 .f32) : Vec F S512x2048 .bf16 :=
  VO0_2.read (Elt F) (VO0_2.writes (Elt F) VO0_2.junk (run0_C c t h0 h1 x0 x1 xs0).1)

theorem cover0_C_3 (c : Dev nD) (t : Fin cfg0.N) (h0 : ¬t.val % 8 = 0) (h1 : t.val % 8 = 7) (x0 : Vec F S512x512 .f32) (x1 : Vec F S512x2048 .f32) (xs0 : Vec F S1x2048 .f32) (y : S1x2048.Idx) :
    ∃ pc ∈ (run0_C c t h0 h1 x0 x1 xs0).2.1, y ∈ pc.1.set :=
  View.cover_of_tiledL _ S1x2048.size (by sl_kernel_rfl) y

/-- What case C leaves in output window 3's buffer. -/
def out0_C_3 (c : Dev nD) (t : Fin cfg0.N) (h0 : ¬t.val % 8 = 0) (h1 : t.val % 8 = 7) (x0 : Vec F S512x512 .f32) (x1 : Vec F S512x2048 .f32) (xs0 : Vec F S1x2048 .f32) : Vec F S1x2048 .f32 :=
  VO0_3.read (Elt F) (VO0_3.writes (Elt F) VO0_3.junk (run0_C c t h0 h1 x0 x1 xs0).2.1)

theorem scover0_C (c : Dev nD) (t : Fin cfg0.N) (h0 : ¬t.val % 8 = 0) (h1 : t.val % 8 = 7) (x0 : Vec F S512x512 .f32) (x1 : Vec F S512x2048 .f32) (xs0 : Vec F S1x2048 .f32) (y : S1x2048.Idx) :
    ∃ pc ∈ (run0_C c t h0 h1 x0 x1 xs0).2.2.1, y ∈ pc.1.set :=
  View.cover_of_tiledL _ S1x2048.size (by sl_kernel_rfl) y

/-- What case C leaves in the accumulator. -/
def sout0_C (c : Dev nD) (t : Fin cfg0.N) (h0 : ¬t.val % 8 = 0) (h1 : t.val % 8 = 7) (x0 : Vec F S512x512 .f32) (x1 : Vec F S512x2048 .f32) (xs0 : Vec F S1x2048 .f32) : Vec F S1x2048 .f32 :=
  VS0_0.read (Elt F) (VS0_0.writes (Elt F) VS0_0.junk (run0_C c t h0 h1 x0 x1 xs0).2.2.1)

/-! ## Point by point -/

/-- What the outputs' buffers and the accumulator hold after the body at point `t`, given what the accumulator held before it. -/
def step0 (c : Dev nD) (t : Fin cfg0.N) (prev : Vec F S1x2048 .f32) : Vec F S512x2048 .bf16 × Vec F S1x2048 .f32 × Vec F S1x2048 .f32 :=
  if h0 : t.val % 8 = 0 then (out0_A_2 c t h0 (by omega) (iblk0 V c 0 t) (iblk0 V c 1 t), out0_A_3 c t h0 (by omega) (iblk0 V c 0 t) (iblk0 V c 1 t), sout0_A c t h0 (by omega) (iblk0 V c 0 t) (iblk0 V c 1 t))
  else if h1 : t.val % 8 = 7 then (out0_C_2 c t h0 h1 (iblk0 V c 0 t) (iblk0 V c 1 t) prev, out0_C_3 c t h0 h1 (iblk0 V c 0 t) (iblk0 V c 1 t) prev, sout0_C c t h0 h1 (iblk0 V c 0 t) (iblk0 V c 1 t) prev)
  else (out0_B_2 c t h0 h1 (iblk0 V c 0 t) (iblk0 V c 1 t) prev, out0_B_3 c t h0 h1 (iblk0 V c 0 t) (iblk0 V c 1 t) prev, sout0_B c t h0 h1 (iblk0 V c 0 t) (iblk0 V c 1 t) prev)

theorem step0_A (c : Dev nD) (t : Fin cfg0.N) (prev) (h0 : t.val % 8 = 0) (h1 : ¬t.val % 8 = 7) :
    step0 V c t prev = (out0_A_2 c t h0 h1 (iblk0 V c 0 t) (iblk0 V c 1 t), out0_A_3 c t h0 h1 (iblk0 V c 0 t) (iblk0 V c 1 t), sout0_A c t h0 h1 (iblk0 V c 0 t) (iblk0 V c 1 t)) := dif_pos h0
theorem step0_B (c : Dev nD) (t : Fin cfg0.N) (prev) (h0 : ¬t.val % 8 = 0) (h1 : ¬t.val % 8 = 7) :
    step0 V c t prev = (out0_B_2 c t h0 h1 (iblk0 V c 0 t) (iblk0 V c 1 t) prev, out0_B_3 c t h0 h1 (iblk0 V c 0 t) (iblk0 V c 1 t) prev, sout0_B c t h0 h1 (iblk0 V c 0 t) (iblk0 V c 1 t) prev) := (dif_neg h0).trans (dif_neg h1)
theorem step0_C (c : Dev nD) (t : Fin cfg0.N) (prev) (h0 : ¬t.val % 8 = 0) (h1 : t.val % 8 = 7) :
    step0 V c t prev = (out0_C_2 c t h0 h1 (iblk0 V c 0 t) (iblk0 V c 1 t) prev, out0_C_3 c t h0 h1 (iblk0 V c 0 t) (iblk0 V c 1 t) prev, sout0_C c t h0 h1 (iblk0 V c 0 t) (iblk0 V c 1 t) prev) := (dif_neg h0).trans (dif_pos h1)

/-- Contents standing for "anything" before the first point (never consulted: the first point resets). -/
abbrev anyS0 : Vec F S1x2048 .f32 := VS0_0.read (Elt F) VS0_0.junk

/-- The accumulator after point `n`, by recursion on the point. -/
def scrAt0 (c : Dev nD) : (n : ℕ) → n < cfg0.N → Vec F S1x2048 .f32
  | 0, hn => (step0 V c ⟨0, hn⟩ anyS0).2.2
  | n + 1, hn => (step0 V c ⟨n + 1, hn⟩ (scrAt0 c n (Nat.lt_of_succ_lt hn))).2.2

/-- The accumulator before point `t`. -/
def prevAt0 (c : Dev nD) (t : Fin cfg0.N) : Vec F S1x2048 .f32 :=
  if hz : t.val = 0 then anyS0 else scrAt0 V c (t.val - 1) (Nat.lt_of_le_of_lt (Nat.sub_le _ _) t.isLt)

/-- The outputs' buffers and the accumulator after point `t`. -/
def outsAt0 (c : Dev nD) (t : Fin cfg0.N) : Vec F S512x2048 .bf16 × Vec F S1x2048 .f32 × Vec F S1x2048 .f32 := step0 V c t (prevAt0 V c t)

theorem scrAt0_eq (c : Dev nD) (t : Fin cfg0.N) : scrAt0 V c t.val t.isLt = (outsAt0 V c t).2.2 := by
  obtain ⟨n, hn⟩ := t
  cases n with
  | zero => rfl
  | succ n => rfl

theorem prevAt0_pos (c : Dev nD) (t : Fin cfg0.N) (hz : t.val ≠ 0) :
    prevAt0 V c t = scrAt0 V c (t.val - 1) (Nat.lt_of_le_of_lt (Nat.sub_le _ _) t.isLt) := dif_neg hz

/-- The region's invariant before position `n`: the class invariant before the first point; afterwards the accumulator at what the point before left, the other scoped buffers and the generator register at anything. -/
def PhiS0 (c : Dev nD) : (n : ℕ) → n ≤ cfg0.N → sProp 𝕄
  | 0, _ => Pipeline.ΦA spec0 c
  | n + 1, hn => iprop(iprop(owns (c : Thread nD τ) scM0_0 fullShare (scrAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (scrAt0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (scrAt0 V c (n - 1) (by omega)) ∗ others0 c) ∗ (∃ r, prngReg c r)) := by
  cases n with
  | zero => exact absurd rfl hz
  | succ n => rfl

/-! ## The proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  have hN : t.val < 16 := lt_of_lt_of_eq t.isLt (show cfg0.N = 16 from N_0)
  by_cases h0 : t.val % 8 = 0
  · have h1 : ¬t.val % 8 = 7 := by omega
    rw [show (dat0 V c).leavesExact 0 t = owns (c : Thread nD τ) (ms0_0 t) fullShare ((dat0 V c).after 0 t) from by
            unfold Dat.leavesExact; rw [liveAt0_0 t], after0_0]
    rw [show (dat0 V c).leavesExact 1 t = owns (c : Thread nD τ) (ms0_1 t) fullShare ((dat0 V c).after 1 t) from by
            unfold Dat.leavesExact; rw [liveAt0_1 t], after0_1]
    rw [show (dat0 V c).leavesExact 2 t = owns (c : Thread nD τ) (ms0_2 t) fullShare ((dat0 V c).after 2 t) from by
            unfold Dat.leavesExact; rw [liveAt0_2 t], after0_2]
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [show (dat0 V c).Φ t.succ = PhiS0 V c (t.val + 1) t.isLt from rfl, PhiS0_succ, scrAt0_eq V c t]
    unfold outsAt0
    rw [step0_A V c t _ h0 h1]
    unfold out0_A_2 sout0_A; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((run0_A c t h0 h1 (iblk0 V c 0 t) (iblk0 V c 1 t)).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c t h0 h1 _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover0_A_2 c t h0 h1 _ _)
      iexists _; iexact H3

    · rw [PhiS0_castSucc V c t, PhiS0_pos V c _ _ hz, ← prevAt0_pos V c t hz]
      iintro ⟨⟨⟨HS0, HR⟩, Hg⟩, Ho, ⟨%d0, H0⟩, ⟨%d1, H1⟩, ⟨%d2, H2⟩, ⟨%d3, H3⟩⟩
      iapply ((run0_A c t h0 h1 (iblk0 V c 0 t) (iblk0 V c 1 t)).2.2.2 _ Set.univ _)
      isplitl [H0]; · iexact H0
      isplitl [H1]; · iexact H1
      isplitl [H2]; · iexists _; iexact H2
      isplitl [H3]; · iexact H3
      isplitl [HS0]; · iexists _; iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c t h0 h1 _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover0_A_2 c t h0 h1 _ _)
      iexists _; iexact H3

  · have hz : t.val ≠ 0 := fun e => h0 (by rw [e])
    by_cases h1 : t.val % 8 = 7
    · rw [show (dat0 V c).leavesExact 0 t = owns (c : Thread nD τ) (ms0_0 t) fullShare ((dat0 V c).after 0 t) from by
              unfold Dat.leavesExact; rw [liveAt0_0 t], after0_0]
      rw [show (dat0 V c).leavesExact 1 t = owns (c : Thread nD τ) (ms0_1 t) fullShare ((dat0 V c).after 1 t) from by
              unfold Dat.leavesExact; rw [liveAt0_1 t], after0_1]
      rw [show (dat0 V c).leavesExact 2 t = owns (c : Thread nD τ) (ms0_2 t) fullShare ((dat0 V c).after 2 t) from by
              unfold Dat.leavesExact; rw [liveAt0_2 t], after0_2]
      rw [show (dat0 V c).leavesExact 3 t = owns (c : Thread nD τ) (ms0_3 t) fullShare ((dat0 V c).after 3 t) from by
              unfold Dat.leavesExact; rw [liveAt0_3_C t (fun h => h0 ((hcond0_0 t).mp h)) ((hcond0_1 t).mpr h1)], after0_3]
      rw [show (dat0 V c).Φ t.succ = PhiS0 V c (t.val + 1) t.isLt from rfl, PhiS0_succ, scrAt0_eq V c t]
      unfold outsAt0
      rw [step0_C V c t _ h0 h1]
      unfold out0_C_2 out0_C_3 sout0_C; (try dsimp only)
      rw [PhiS0_castSucc V c t, PhiS0_pos V c _ _ hz, ← prevAt0_pos V c t hz]
      iintro ⟨⟨⟨HS0, HR⟩, Hg⟩, Ho, ⟨%d0, H0⟩, ⟨%d1, H1⟩, ⟨%d2, H2⟩, ⟨%d3, H3⟩⟩
      iapply ((run0_C c t h0 h1 (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c t h0 h1 _ _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover0_C_2 c t h0 h1 _ _ _)
      unfold owns; iexists _; isplitr
      swap; · iexact H3
      ipureintro; exact View.read_writes_of_cover _ _ _ _ _ (cover0_C_3 c t h0 h1 _ _ _)

    · rw [show (dat0 V c).leavesExact 0 t = owns (c : Thread nD τ) (ms0_0 t) fullShare ((dat0 V c).after 0 t) from by
              unfold Dat.leavesExact; rw [liveAt0_0 t], after0_0]
      rw [show (dat0 V c).leavesExact 1 t = owns (c : Thread nD τ) (ms0_1 t) fullShare ((dat0 V c).after 1 t) from by
              unfold Dat.leavesExact; rw [liveAt0_1 t], after0_1]
      rw [show (dat0 V c).leavesExact 2 t = owns (c : Thread nD τ) (ms0_2 t) fullShare ((dat0 V c).after 2 t) from by
              unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [show (dat0 V c).Φ t.succ = PhiS0 V c (t.val + 1) t.isLt from rfl, PhiS0_succ, scrAt0_eq V c t]
      unfold outsAt0
      rw [step0_B V c t _ h0 h1]
      unfold out0_B_2 sout0_B; (try dsimp only)
      rw [PhiS0_castSucc V c t, PhiS0_pos V c _ _ hz, ← prevAt0_pos V c t hz]
      iintro ⟨⟨⟨HS0, HR⟩, Hg⟩, Ho, ⟨%d0, H0⟩, ⟨%d1, H1⟩, ⟨%d2, H2⟩, ⟨%d3, H3⟩⟩
      iapply ((run0_B c t h0 h1 (iblk0 V c 0 t) (iblk0 V c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c t h0 h1 _ _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover0_B_2 c t h0 h1 _ _ _)
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS0, HR⟩, Hg⟩
  isplitl [HS0 HR]
  · isplitl [HS0]
    · iexists _; iexact HS0
    iexact HR
  iexact Hg

end

end Cert.KernelIdeal.Fr

end
-- ==== Proof.KI1Runs.lean ====
/-
  Region 1 of the program: what its three control cases share. The body is entered at every grid point with the
  windows' staging buffers and one scratch accumulator; the accumulator is reset where the last grid coordinate is 0,
  added to at every point, and copied out where that coordinate is 3. Here: each window's block read off the
  array the region finds, the two conditions in closed form over the grid's points, where the late output is idle,
  and the region's invariant with the accumulator split off the other scoped buffers.
-/
import proofs.«139255_j55740085568003_2_alg».proof.Proof.Gen.KernelIdeal.Launch
import proofs.«139255_j55740085568003_2_alg».proof.Proof.Gen.KernelIdeal.Skeleton
import proofs.«139255_j55740085568003_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (where it is not fetched its block index has not moved). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (where it is not fetched its block index has not moved). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The reset condition: the grid's last coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The copy-out condition: the grid's last coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One staging buffer of output window 2, through which its contents are stated. -/
abbrev VO1_2 : View sig .tc .vmem S1024x1024 .bf16 := (Memref.whole cc1_stg2_0 : Memref sig .tc .vmem S1024x1024 .bf16).view
/-- One staging buffer of output window 3, through which its contents are stated. -/
abbrev VO1_3 : View sig .tc .vmem S1x1024 .f32 := (Memref.whole cc1_stg3_0 : Memref sig .tc .vmem S1x1024 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
/-- The scratch accumulator, a whole scoped buffer of the kernel's own, and the view its contents are stated through. -/
abbrev scM1_0 : Memref sig .tc .vmem S1x1024 .f32 := Memref.whole cc1_scratch0
abbrev VS1_0 : View sig .tc .vmem S1x1024 .f32 := scM1_0.view

/-- The other scoped buffers of the core (the other regions' staging buffers and accumulators), at anything: they ride along unopened. -/
abbrev others1 (c : Dev nD) : sProp 𝕄 :=
  Pipeline.scopedRestBut (Ix := Unit) (Name := ℕ) (U := Pipeline.UD sig nD τ) (Lvl := ℕ) (Val := Elt F) spec1 c [cc1_scratch0]

/-- The class invariant with the accumulator split off: the accumulator at some contents, the other scoped buffers, the generator register at some state. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole, Idealize.SL.BI.bigSepL_singleton]; try rfl

end Cert.KernelIdeal.Fr

end
-- ==== Proof.KI1RunA.lean ====
/-
  Region 1, the body's run in case A (the accumulator is reset, nothing is copied out):
  on whole staging buffers, the inputs at their blocks, the accumulator at anything, the body runs to the end, leaving
  the inputs as they were and in every buffer it stores into the pieces this run finds.
-/
import proofs.«139255_j55740085568003_2_alg».proof.Proof.KI1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun1_A (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (hc0 : cond1_0 i) (hc1 : ¬cond1_1 i)
    (x0 : Vec F S1024x512 .f32) (x1 : Vec F S1024x512 .f32) :
    Σ' (L2 : List (View.Piece (Elt F) S1024x1024 .bf16)) (L3 : List (View.Piece (Elt F) S1x1024 .f32)), { LS0 : List (View.Piece (Elt F) S1x1024 .f32) //
      ∀ (xi3 : Vec F S1x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__xc_kernel i arg2 harg2 arg3 harg3 arg4 harg4 arg5 harg5 arg6 harg6) K } := by
  refine ⟨?_, [], ?_, fun xi3 E K => ?run⟩
  case run =>
    simp only [cc1__xc_kernel_eq_skeleton]; unfold cc1__xc_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Fr

end
-- ==== Proof.KI1RunB.lean ====
/-
  Region 1, the body's run in case B (no reset, nothing copied out):
  on whole staging buffers, the inputs at their blocks, the accumulator at what the point before left, the body runs to the end, leaving
  the inputs as they were and in every buffer it stores into the pieces this run finds.
-/
import proofs.«139255_j55740085568003_2_alg».proof.Proof.KI1RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun1_B (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (hc0 : ¬cond1_0 i) (hc1 : ¬cond1_1 i)
    (x0 : Vec F S1024x512 .f32) (x1 : Vec F S1024x512 .f32) (xs0 : Vec F S1x1024 .f32) :
    Σ' (L2 : List (View.Piece (Elt F) S1024x1024 .bf16)) (L3 : List (View.Piece (Elt F) S1x1024 .f32)), { LS0 : List (View.Piece (Elt F) S1x1024 .f32) //
      ∀ (xi3 : Vec F S1x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__xc_kernel i arg2 harg2 arg3 harg3 arg4 harg4 arg5 harg5 arg6 harg6) K } := by
  refine ⟨?_, [], ?_, fun xi3 E K => ?run⟩
  case run =>
    simp only [cc1__xc_kernel_eq_skeleton]; unfold cc1__xc_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Fr

end
-- ==== Proof.KI1RunC.lean ====
/-
  Region 1, the body's run in case C (no reset, the accumulator is copied out):
  on whole staging buffers, the inputs at their blocks, the accumulator at what the point before left, the body runs to the end, leaving
  the inputs as they were and in every buffer it stores into the pieces this run finds.
-/
import proofs.«139255_j55740085568003_2_alg».proof.Proof.KI1RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun1_C (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (hc0 : ¬cond1_0 i) (hc1 : cond1_1 i)
    (x0 : Vec F S1024x512 .f32) (x1 : Vec F S1024x512 .f32) (xs0 : Vec F S1x1024 .f32) :
    Σ' (L2 : List (View.Piece (Elt F) S1024x1024 .bf16)) (L3 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__xc_kernel i arg2 harg2 arg3 harg3 arg4 harg4 arg5 harg5 arg6 harg6) K } := by
  refine ⟨?_, ?_, ?_, fun E K => ?run⟩
  case run =>
    simp only [cc1__xc_kernel_eq_skeleton]; unfold cc1__xc_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Fr

end
-- ==== Proof.KI1.lean ====
/-
  Region 1: what its buffers hold point by point, its proof data, and the body's obligation at every point.
  After the body at a point each input window's buffer holds its block; the outputs' buffers and the accumulator hold
  what the point's case leaves, the accumulator's contents going into the next point's case. Between points the
  region's invariant names the accumulator's contents; before the first point and after the last it is the
  class invariant (every scoped buffer at anything).
-/
import proofs.«139255_j55740085568003_2_alg».proof.Proof.KI1RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The run of case A at point `t`. -/
abbrev run1_A (c : Dev nD) (t : Fin cfg1.N) (h0 : t.val % 4 = 0) (h1 : ¬t.val % 4 = 3) (x0 : Vec F S1024x512 .f32) (x1 : Vec F S1024x512 .f32) :=
  kernelRun1_A (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) x0 x1

theorem cover1_A_2 (c : Dev nD) (t : Fin cfg1.N) (h0 : t.val % 4 = 0) (h1 : ¬t.val % 4 = 3) (x0 : Vec F S1024x512 .f32) (x1 : Vec F S1024x512 .f32) (y : S1024x1024.Idx) :
    ∃ pc ∈ (run1_A c t h0 h1 x0 x1).1, y ∈ pc.1.set :=
  View.cover_of_tiledL _ S1024x1024.size (by sl_kernel_rfl) y

/-- What case A leaves in output window 2's buffer. -/
def out1_A_2 (c : Dev nD) (t : Fin cfg1.N) (h0 : t.val % 4 = 0) (h1 : ¬t.val % 4 = 3) (x0 : Vec F S1024x512 .f32) (x1 : Vec F S1024x512 .f32) : Vec F S1024x1024 .bf16 :=
  VO1_2.read (Elt F) (VO1_2.writes (Elt F) VO1_2.junk (run1_A c t h0 h1 x0 x1).1)

/-- What case A leaves in output window 3's buffer (nothing is stored: a placeholder nothing consults). -/
def out1_A_3 (c : Dev nD) (t : Fin cfg1.N) (h0 : t.val % 4 = 0) (h1 : ¬t.val % 4 = 3) (x0 : Vec F S1024x512 .f32) (x1 : Vec F S1024x512 .f32) : Vec F S1x1024 .f32 :=
  VO1_3.read (Elt F) (VO1_3.writes (Elt F) VO1_3.junk (run1_A c t h0 h1 x0 x1).2.1)

theorem scover1_A (c : Dev nD) (t : Fin cfg1.N) (h0 : t.val % 4 = 0) (h1 : ¬t.val % 4 = 3) (x0 : Vec F S1024x512 .f32) (x1 : Vec F S1024x512 .f32) (y : S1x1024.Idx) :
    ∃ pc ∈ (run1_A c t h0 h1 x0 x1).2.2.1, y ∈ pc.1.set :=
  View.cover_of_tiledL _ S1x1024.size (by sl_kernel_rfl) y

/-- What case A leaves in the accumulator. -/
def sout1_A (c : Dev nD) (t : Fin cfg1.N) (h0 : t.val % 4 = 0) (h1 : ¬t.val % 4 = 3) (x0 : Vec F S1024x512 .f32) (x1 : Vec F S1024x512 .f32) : Vec F S1x1024 .f32 :=
  VS1_0.read (Elt F) (VS1_0.writes (Elt F) VS1_0.junk (run1_A c t h0 h1 x0 x1).2.2.1)

/-- The run of case B at point `t`. -/
abbrev run1_B (c : Dev nD) (t : Fin cfg1.N) (h0 : ¬t.val % 4 = 0) (h1 : ¬t.val % 4 = 3) (x0 : Vec F S1024x512 .f32) (x1 : Vec F S1024x512 .f32) (xs0 : Vec F S1x1024 .f32) :=
  kernelRun1_B (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) x0 x1 xs0

theorem cover1_B_2 (c : Dev nD) (t : Fin cfg1.N) (h0 : ¬t.val % 4 = 0) (h1 : ¬t.val % 4 = 3) (x0 : Vec F S1024x512 .f32) (x1 : Vec F S1024x512 .f32) (xs0 : Vec F S1x1024 .f32) (y : S1024x1024.Idx) :
    ∃ pc ∈ (run1_B c t h0 h1 x0 x1 xs0).1, y ∈ pc.1.set :=
  View.cover_of_tiledL _ S1024x1024.size (by sl_kernel_rfl) y

/-- What case B leaves in output window 2's buffer. -/
def out1_B_2 (c : Dev nD) (t : Fin cfg1.N) (h0 : ¬t.val % 4 = 0) (h1 : ¬t.val % 4 = 3) (x0 : Vec F S1024x512 .f32) (x1 : Vec F S1024x512 .f32) (xs0 : Vec F S1x1024 .f32) : Vec F S1024x1024 .bf16 :=
  VO1_2.read (Elt F) (VO1_2.writes (Elt F) VO1_2.junk (run1_B c t h0 h1 x0 x1 xs0).1)

/-- What case B leaves in output window 3's buffer (nothing is stored: a placeholder nothing consults). -/
def out1_B_3 (c : Dev nD) (t : Fin cfg1.N) (h0 : ¬t.val % 4 = 0) (h1 : ¬t.val % 4 = 3) (x0 : Vec F S1024x512 .f32) (x1 : Vec F S1024x512 .f32) (xs0 : Vec F S1x1024 .f32) : Vec F S1x1024 .f32 :=
  VO1_3.read (Elt F) (VO1_3.writes (Elt F) VO1_3.junk (run1_B c t h0 h1 x0 x1 xs0).2.1)

theorem scover1_B (c : Dev nD) (t : Fin cfg1.N) (h0 : ¬t.val % 4 = 0) (h1 : ¬t.val % 4 = 3) (x0 : Vec F S1024x512 .f32) (x1 : Vec F S1024x512 .f32) (xs0 : Vec F S1x1024 .f32) (y : S1x1024.Idx) :
    ∃ pc ∈ (run1_B c t h0 h1 x0 x1 xs0).2.2.1, y ∈ pc.1.set :=
  View.cover_of_tiledL _ S1x1024.size (by sl_kernel_rfl) y

/-- What case B leaves in the accumulator. -/
def sout1_B (c : Dev nD) (t : Fin cfg1.N) (h0 : ¬t.val % 4 = 0) (h1 : ¬t.val % 4 = 3) (x0 : Vec F S1024x512 .f32) (x1 : Vec F S1024x512 .f32) (xs0 : Vec F S1x1024 .f32) : Vec F S1x1024 .f32 :=
  VS1_0.read (Elt F) (VS1_0.writes (Elt F) VS1_0.junk (run1_B c t h0 h1 x0 x1 xs0).2.2.1)

/-- The run of case C at point `t`. -/
abbrev run1_C (c : Dev nD) (t : Fin cfg1.N) (h0 : ¬t.val % 4 = 0) (h1 : t.val % 4 = 3) (x0 : Vec F S1024x512 .f32) (x1 : Vec F S1024x512 .f32) (xs0 : Vec F S1x1024 .f32) :=
  kernelRun1_C (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) x0 x1 xs0

theorem cover1_C_2 (c : Dev nD) (t : Fin cfg1.N) (h0 : ¬t.val % 4 = 0) (h1 : t.val % 4 = 3) (x0 : Vec F S1024x512 .f32) (x1 : Vec F S1024x512 .f32) (xs0 : Vec F S1x1024 .f32) (y : S1024x1024.Idx) :
    ∃ pc ∈ (run1_C c t h0 h1 x0 x1 xs0).1, y ∈ pc.1.set :=
  View.cover_of_tiledL _ S1024x1024.size (by sl_kernel_rfl) y

/-- What case C leaves in output window 2's buffer. -/
def out1_C_2 (c : Dev nD) (t : Fin cfg1.N) (h0 : ¬t.val % 4 = 0) (h1 : t.val % 4 = 3) (x0 : Vec F S1024x512 .f32) (x1 : Vec F S1024x512 .f32) (xs0 : Vec F S1x1024 .f32) : Vec F S1024x1024 .bf16 :=
  VO1_2.read (Elt F) (VO1_2.writes (Elt F) VO1_2.junk (run1_C c t h0 h1 x0 x1 xs0).1)

theorem cover1_C_3 (c : Dev nD) (t : Fin cfg1.N) (h0 : ¬t.val % 4 = 0) (h1 : t.val % 4 = 3) (x0 : Vec F S1024x512 .f32) (x1 : Vec F S1024x512 .f32) (xs0 : Vec F S1x1024 .f32) (y : S1x1024.Idx) :
    ∃ pc ∈ (run1_C c t h0 h1 x0 x1 xs0).2.1, y ∈ pc.1.set :=
  View.cover_of_tiledL _ S1x1024.size (by sl_kernel_rfl) y

/-- What case C leaves in output window 3's buffer. -/
def out1_C_3 (c : Dev nD) (t : Fin cfg1.N) (h0 : ¬t.val % 4 = 0) (h1 : t.val % 4 = 3) (x0 : Vec F S1024x512 .f32) (x1 : Vec F S1024x512 .f32) (xs0 : Vec F S1x1024 .f32) : Vec F S1x1024 .f32 :=
  VO1_3.read (Elt F) (VO1_3.writes (Elt F) VO1_3.junk (run1_C c t h0 h1 x0 x1 xs0).2.1)

theorem scover1_C (c : Dev nD) (t : Fin cfg1.N) (h0 : ¬t.val % 4 = 0) (h1 : t.val % 4 = 3) (x0 : Vec F S1024x512 .f32) (x1 : Vec F S1024x512 .f32) (xs0 : Vec F S1x1024 .f32) (y : S1x1024.Idx) :
    ∃ pc ∈ (run1_C c t h0 h1 x0 x1 xs0).2.2.1, y ∈ pc.1.set :=
  View.cover_of_tiledL _ S1x1024.size (by sl_kernel_rfl) y

/-- What case C leaves in the accumulator. -/
def sout1_C (c : Dev nD) (t : Fin cfg1.N) (h0 : ¬t.val % 4 = 0) (h1 : t.val % 4 = 3) (x0 : Vec F S1024x512 .f32) (x1 : Vec F S1024x512 .f32) (xs0 : Vec F S1x1024 .f32) : Vec F S1x1024 .f32 :=
  VS1_0.read (Elt F) (VS1_0.writes (Elt F) VS1_0.junk (run1_C c t h0 h1 x0 x1 xs0).2.2.1)

/-! ## Point by point -/

/-- What the outputs' buffers and the accumulator hold after the body at point `t`, given what the accumulator held before it. -/
def step1 (c : Dev nD) (t : Fin cfg1.N) (prev : Vec F S1x1024 .f32) : Vec F S1024x1024 .bf16 × Vec F S1x1024 .f32 × Vec F S1x1024 .f32 :=
  if h0 : t.val % 4 = 0 then (out1_A_2 c t h0 (by omega) (iblk1 V c 0 t) (iblk1 V c 1 t), out1_A_3 c t h0 (by omega) (iblk1 V c 0 t) (iblk1 V c 1 t), sout1_A c t h0 (by omega) (iblk1 V c 0 t) (iblk1 V c 1 t))
  else if h1 : t.val % 4 = 3 then (out1_C_2 c t h0 h1 (iblk1 V c 0 t) (iblk1 V c 1 t) prev, out1_C_3 c t h0 h1 (iblk1 V c 0 t) (iblk1 V c 1 t) prev, sout1_C c t h0 h1 (iblk1 V c 0 t) (iblk1 V c 1 t) prev)
  else (out1_B_2 c t h0 h1 (iblk1 V c 0 t) (iblk1 V c 1 t) prev, out1_B_3 c t h0 h1 (iblk1 V c 0 t) (iblk1 V c 1 t) prev, sout1_B c t h0 h1 (iblk1 V c 0 t) (iblk1 V c 1 t) prev)

theorem step1_A (c : Dev nD) (t : Fin cfg1.N) (prev) (h0 : t.val % 4 = 0) (h1 : ¬t.val % 4 = 3) :
    step1 V c t prev = (out1_A_2 c t h0 h1 (iblk1 V c 0 t) (iblk1 V c 1 t), out1_A_3 c t h0 h1 (iblk1 V c 0 t) (iblk1 V c 1 t), sout1_A c t h0 h1 (iblk1 V c 0 t) (iblk1 V c 1 t)) := dif_pos h0
theorem step1_B (c : Dev nD) (t : Fin cfg1.N) (prev) (h0 : ¬t.val % 4 = 0) (h1 : ¬t.val % 4 = 3) :
    step1 V c t prev = (out1_B_2 c t h0 h1 (iblk1 V c 0 t) (iblk1 V c 1 t) prev, out1_B_3 c t h0 h1 (iblk1 V c 0 t) (iblk1 V c 1 t) prev, sout1_B c t h0 h1 (iblk1 V c 0 t) (iblk1 V c 1 t) prev) := (dif_neg h0).trans (dif_neg h1)
theorem step1_C (c : Dev nD) (t : Fin cfg1.N) (prev) (h0 : ¬t.val % 4 = 0) (h1 : t.val % 4 = 3) :
    step1 V c t prev = (out1_C_2 c t h0 h1 (iblk1 V c 0 t) (iblk1 V c 1 t) prev, out1_C_3 c t h0 h1 (iblk1 V c 0 t) (iblk1 V c 1 t) prev, sout1_C c t h0 h1 (iblk1 V c 0 t) (iblk1 V c 1 t) prev) := (dif_neg h0).trans (dif_pos h1)

/-- Contents standing for "anything" before the first point (never consulted: the first point resets). -/
abbrev anyS1 : Vec F S1x1024 .f32 := VS1_0.read (Elt F) VS1_0.junk

/-- The accumulator after point `n`, by recursion on the point. -/
def scrAt1 (c : Dev nD) : (n : ℕ) → n < cfg1.N → Vec F S1x1024 .f32
  | 0, hn => (step1 V c ⟨0, hn⟩ anyS1).2.2
  | n + 1, hn => (step1 V c ⟨n + 1, hn⟩ (scrAt1 c n (Nat.lt_of_succ_lt hn))).2.2

/-- The accumulator before point `t`. -/
def prevAt1 (c : Dev nD) (t : Fin cfg1.N) : Vec F S1x1024 .f32 :=
  if hz : t.val = 0 then anyS1 else scrAt1 V c (t.val - 1) (Nat.lt_of_le_of_lt (Nat.sub_le _ _) t.isLt)

/-- The outputs' buffers and the accumulator after point `t`. -/
def outsAt1 (c : Dev nD) (t : Fin cfg1.N) : Vec F S1024x1024 .bf16 × Vec F S1x1024 .f32 × Vec F S1x1024 .f32 := step1 V c t (prevAt1 V c t)

theorem scrAt1_eq (c : Dev nD) (t : Fin cfg1.N) : scrAt1 V c t.val t.isLt = (outsAt1 V c t).2.2 := by
  obtain ⟨n, hn⟩ := t
  cases n with
  | zero => rfl
  | succ n => rfl

theorem prevAt1_pos (c : Dev nD) (t : Fin cfg1.N) (hz : t.val ≠ 0) :
    prevAt1 V c t = scrAt1 V c (t.val - 1) (Nat.lt_of_le_of_lt (Nat.sub_le _ _) t.isLt) := dif_neg hz

/-- The region's invariant before position `n`: the class invariant before the first point; afterwards the accumulator at what the point before left, the other scoped buffers and the generator register at anything. -/
def PhiS1 (c : Dev nD) : (n : ℕ) → n ≤ cfg1.N → sProp 𝕄
  | 0, _ => Pipeline.ΦA spec1 c
  | n + 1, hn => iprop(iprop(owns (c : Thread nD τ) scM1_0 fullShare (scrAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (scrAt1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (scrAt1 V c (n - 1) (by omega)) ∗ others1 c) ∗ (∃ r, prngReg c r)) := by
  cases n with
  | zero => exact absurd rfl hz
  | succ n => rfl

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t).1 := by dsimp only [dat1]
theorem after1_3 (c : Dev nD) (t : Fin cfg1.N) : (dat1 V c).after 3 t = (outsAt1 V c t).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  have hN : t.val < 8 := lt_of_lt_of_eq t.isLt (show cfg1.N = 8 from N_1)
  by_cases h0 : t.val % 4 = 0
  · have h1 : ¬t.val % 4 = 3 := by omega
    rw [show (dat1 V c).leavesExact 0 t = owns (c : Thread nD τ) (ms1_0 t) fullShare ((dat1 V c).after 0 t) from by
            unfold Dat.leavesExact; rw [liveAt1_0 t], after1_0]
    rw [show (dat1 V c).leavesExact 1 t = owns (c : Thread nD τ) (ms1_1 t) fullShare ((dat1 V c).after 1 t) from by
            unfold Dat.leavesExact; rw [liveAt1_1 t], after1_1]
    rw [show (dat1 V c).leavesExact 2 t = owns (c : Thread nD τ) (ms1_2 t) fullShare ((dat1 V c).after 2 t) from by
            unfold Dat.leavesExact; rw [liveAt1_2 t], after1_2]
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [show (dat1 V c).Φ t.succ = PhiS1 V c (t.val + 1) t.isLt from rfl, PhiS1_succ, scrAt1_eq V c t]
    unfold outsAt1
    rw [step1_A V c t _ h0 h1]
    unfold out1_A_2 sout1_A; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩⟩
      iapply ((run1_A c t h0 h1 (iblk1 V c 0 t) (iblk1 V c 1 t)).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c t h0 h1 _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover1_A_2 c t h0 h1 _ _)
      iexists _; iexact H3

    · rw [PhiS1_castSucc V c t, PhiS1_pos V c _ _ hz, ← prevAt1_pos V c t hz]
      iintro ⟨⟨⟨HS0, HR⟩, Hg⟩, Ho, ⟨%d0, H0⟩, ⟨%d1, H1⟩, ⟨%d2, H2⟩, ⟨%d3, H3⟩⟩
      iapply ((run1_A c t h0 h1 (iblk1 V c 0 t) (iblk1 V c 1 t)).2.2.2 _ Set.univ _)
      isplitl [H0]; · iexact H0
      isplitl [H1]; · iexact H1
      isplitl [H2]; · iexists _; iexact H2
      isplitl [H3]; · iexact H3
      isplitl [HS0]; · iexists _; iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c t h0 h1 _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover1_A_2 c t h0 h1 _ _)
      iexists _; iexact H3

  · have hz : t.val ≠ 0 := fun e => h0 (by rw [e])
    by_cases h1 : t.val % 4 = 3
    · rw [show (dat1 V c).leavesExact 0 t = owns (c : Thread nD τ) (ms1_0 t) fullShare ((dat1 V c).after 0 t) from by
              unfold Dat.leavesExact; rw [liveAt1_0 t], after1_0]
      rw [show (dat1 V c).leavesExact 1 t = owns (c : Thread nD τ) (ms1_1 t) fullShare ((dat1 V c).after 1 t) from by
              unfold Dat.leavesExact; rw [liveAt1_1 t], after1_1]
      rw [show (dat1 V c).leavesExact 2 t = owns (c : Thread nD τ) (ms1_2 t) fullShare ((dat1 V c).after 2 t) from by
              unfold Dat.leavesExact; rw [liveAt1_2 t], after1_2]
      rw [show (dat1 V c).leavesExact 3 t = owns (c : Thread nD τ) (ms1_3 t) fullShare ((dat1 V c).after 3 t) from by
              unfold Dat.leavesExact; rw [liveAt1_3_C t (fun h => h0 ((hcond1_0 t).mp h)) ((hcond1_1 t).mpr h1)], after1_3]
      rw [show (dat1 V c).Φ t.succ = PhiS1 V c (t.val + 1) t.isLt from rfl, PhiS1_succ, scrAt1_eq V c t]
      unfold outsAt1
      rw [step1_C V c t _ h0 h1]
      unfold out1_C_2 out1_C_3 sout1_C; (try dsimp only)
      rw [PhiS1_castSucc V c t, PhiS1_pos V c _ _ hz, ← prevAt1_pos V c t hz]
      iintro ⟨⟨⟨HS0, HR⟩, Hg⟩, Ho, ⟨%d0, H0⟩, ⟨%d1, H1⟩, ⟨%d2, H2⟩, ⟨%d3, H3⟩⟩
      iapply ((run1_C c t h0 h1 (iblk1 V c 0 t) (iblk1 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c t h0 h1 _ _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover1_C_2 c t h0 h1 _ _ _)
      unfold owns; iexists _; isplitr
      swap; · iexact H3
      ipureintro; exact View.read_writes_of_cover _ _ _ _ _ (cover1_C_3 c t h0 h1 _ _ _)

    · rw [show (dat1 V c).leavesExact 0 t = owns (c : Thread nD τ) (ms1_0 t) fullShare ((dat1 V c).after 0 t) from by
              unfold Dat.leavesExact; rw [liveAt1_0 t], after1_0]
      rw [show (dat1 V c).leavesExact 1 t = owns (c : Thread nD τ) (ms1_1 t) fullShare ((dat1 V c).after 1 t) from by
              unfold Dat.leavesExact; rw [liveAt1_1 t], after1_1]
      rw [show (dat1 V c).leavesExact 2 t = owns (c : Thread nD τ) (ms1_2 t) fullShare ((dat1 V c).after 2 t) from by
              unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [show (dat1 V c).Φ t.succ = PhiS1 V c (t.val + 1) t.isLt from rfl, PhiS1_succ, scrAt1_eq V c t]
      unfold outsAt1
      rw [step1_B V c t _ h0 h1]
      unfold out1_B_2 sout1_B; (try dsimp only)
      rw [PhiS1_castSucc V c t, PhiS1_pos V c _ _ hz, ← prevAt1_pos V c t hz]
      iintro ⟨⟨⟨HS0, HR⟩, Hg⟩, Ho, ⟨%d0, H0⟩, ⟨%d1, H1⟩, ⟨%d2, H2⟩, ⟨%d3, H3⟩⟩
      iapply ((run1_B c t h0 h1 (iblk1 V c 0 t) (iblk1 V c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c t h0 h1 _ _ _)
          iexact HR
        iexact Hg
      isplitl [Ho]; · iexact Ho
      isplitl [H0]
      · iexact H0
      isplitl [H1]
      · iexact H1
      isplitl [H2]
      · unfold owns; iexists _; isplitr
        swap; · iexact H2
        ipureintro; exact View.read_writes_of_cover _ _ _ _ _ (cover1_B_2 c t h0 h1 _ _ _)
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  iintro ⟨⟨HS0, HR⟩, Hg⟩
  isplitl [HS0 HR]
  · isplitl [HS0]
    · iexists _; iexact HS0
    iexact HR
  iexact Hg

end

end Cert.KernelIdeal.Fr

end
-- ==== Proof.KI2Runs.lean ====
/-
  Region 2 of the program: what its three control cases share. The body is entered at every grid point with the
  windows' staging buffers and one scratch accumulator; the accumulator is reset where the last grid coordinate is 0,
  added to at every point, and copied out where that coordinate is 3. Here: each window's block read off the
  array the region finds, the two conditions in closed form over the grid's points, where the late output is idle,
  and the region's invariant with the accumulator split off the other scoped buffers.
-/
import proofs.«139255_j55740085568003_2_alg».proof.Proof.Gen.KernelIdeal.Launch
import proofs.«139255_j55740085568003_2_alg».proof.Proof.Gen.KernelIdeal.Skeleton
import proofs.«139255_j55740085568003_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (where it is not fetched its block index has not moved). -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (where it is not fetched its block index has not moved). -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (where it is not fetched its block index has not moved). -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (where it is not fetched its block index has not moved). -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end

/-- The reset condition: the grid's last coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The copy-out condition: the grid's last coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
theorem liveAt2_4_C : ∀ t : Fin cfg2.N, ¬cond2_0 (grid2.coords t) → cond2_1 (grid2.coords t) → cfg2.idle 4 (grid2.coords t) = false := by decide +kernel

/-- One staging buffer of output window 4, through which its contents are stated. -/
abbrev VO2_4 : View sig .tc .vmem S1024x1024 .f32 := (Memref.whole cc2_stg4_0 : Memref sig .tc .vmem S1024x1024 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
/-- The scratch accumulator, a whole scoped buffer of the kernel's own, and the view its contents are stated through. -/
abbrev scM2_0 : Memref sig .tc .vmem S1024x1024 .f32 := Memref.whole cc2_scratch0
abbrev VS2_0 : View sig .tc .vmem S1024x1024 .f32 := scM2_0.view

/-- The other scoped buffers of the core (the other regions' staging buffers and accumulators), at anything: they ride along unopened. -/
abbrev others2 (c : Dev nD) : sProp 𝕄 :=
  Pipeline.scopedRestBut (Ix := Unit) (Name := ℕ) (U := Pipeline.UD sig nD τ) (Lvl := ℕ) (Val := Elt F) spec2 c [cc2_scratch0]

/-- The class invariant with the accumulator split off: the accumulator at some contents, the other scoped buffers, the generator register at some state. -/
theorem PhiA2_eq (c : Dev nD) :
    (Pipeline.ΦA spec2 c : sProp 𝕄)
      = iprop(iprop((∃ d, owns (c : Thread nD τ) scM2_0 fullShare d) ∗ others2 c) ∗ (∃ r, prngReg c r)) := by
  unfold Pipeline.ΦA
  rw [Pipeline.scopedRest_split_of_list spec2 c [cc2_scratch0] (by decide) (by decide)]
  simp only [scM2_0, owns_whole, Idealize.SL.BI.bigSepL_singleton]; try rfl

end Cert.KernelIdeal.Fr

end
-- ==== Proof.KI2RunA.lean ====
/-
  Region 2, the body's run in case A (the accumulator is reset, nothing is copied out):
  on whole staging buffers, the inputs at their blocks, the accumulator at anything, the body runs to the end, leaving
  the inputs as they were and in every buffer it stores into the pieces this run finds.
-/
import proofs.«139255_j55740085568003_2_alg».proof.Proof.KI2Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__dist_kernel i arg3 harg3 arg4 harg4 arg5 harg5 arg6 harg6 arg7 harg7 arg8 harg8) K } := by
  refine ⟨[], ?_, fun xi4 E K => ?run⟩
  case run =>
    simp only [cc2__dist_kernel_eq_skeleton]; unfold cc2__dist_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI2RunB.lean ====
/-
  Region 2, the body's run in case B (no reset, nothing copied out):
  on whole staging buffers, the inputs at their blocks, the accumulator at what the point before left, the body runs to the end, leaving
  the inputs as they were and in every buffer it stores into the pieces this run finds.
-/
import proofs.«139255_j55740085568003_2_alg».proof.Proof.KI2RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__dist_kernel i arg3 harg3 arg4 harg4 arg5 harg5 arg6 harg6 arg7 harg7 arg8 harg8) K } := by
  refine ⟨[], ?_, fun xi4 E K => ?run⟩
  case run =>
    simp only [cc2__dist_kernel_eq_skeleton]; unfold cc2__dist_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI2RunC.lean ====
/-
  Region 2, the body's run in case C (no reset, the accumulator is copied out):
  on whole staging buffers, the inputs at their blocks, the accumulator at what the point before left, the body runs to the end, leaving
  the inputs as they were and in every buffer it stores into the pieces this run finds.
-/
import proofs.«139255_j55740085568003_2_alg».proof.Proof.KI2RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__dist_kernel i arg3 harg3 arg4 harg4 arg5 harg5 arg6 harg6 arg7 harg7 arg8 harg8) K } := by
  refine ⟨?_, ?_, fun E K => ?run⟩
  case run =>
    simp only [cc2__dist_kernel_eq_skeleton]; unfold cc2__dist_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KI2.lean ====
/-
  Region 2: what its buffers hold point by point, its proof data, and the body's obligation at every point.
  After the body at a point each input window's buffer holds its block; the outputs' buffers and the accumulator hold
  what the point's case leaves, the accumulator's contents going into the next point's case. Between points the
  region's invariant names the accumulator's contents; before the first point and after the last it is the
  class invariant (every scoped buffer at anything).
-/
import proofs.«139255_j55740085568003_2_alg».proof.Proof.KI2RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The run of case A at point `t`. -/
abbrev run2_A (c : Dev nD) (t : Fin cfg2.N) (h0 : t.val % 4 = 0) (h1 : ¬t.val % 4 = 3) (x0 : Vec F S1024x1024 .bf16) (x1 : Vec F S1024x1024 .bf16) (x2 : Vec F S1x1024 .f32) (x3 : Vec F S1x1024 .f32) :=
  kernelRun2_A (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) x0 x1 x2 x3

/-- What case A leaves in output window 4's buffer (nothing is stored: a placeholder nothing consults). -/
def out2_A_4 (c : Dev nD) (t : Fin cfg2.N) (h0 : t.val % 4 = 0) (h1 : ¬t.val % 4 = 3) (x0 : Vec F S1024x1024 .bf16) (x1 : Vec F S1024x1024 .bf16) (x2 : Vec F S1x1024 .f32) (x3 : Vec F S1x1024 .f32) : Vec F S1024x1024 .f32 :=
  VO2_4.read (Elt F) (VO2_4.writes (Elt F) VO2_4.junk (run2_A c t h0 h1 x0 x1 x2 x3).1)

theorem scover2_A (c : Dev nD) (t : Fin cfg2.N) (h0 : t.val % 4 = 0) (h1 : ¬t.val % 4 = 3) (x0 : Vec F S1024x1024 .bf16) (x1 : Vec F S1024x1024 .bf16) (x2 : Vec F S1x1024 .f32) (x3 : Vec F S1x1024 .f32) (y : S1024x1024.Idx) :
    ∃ pc ∈ (run2_A c t h0 h1 x0 x1 x2 x3).2.1, y ∈ pc.1.set :=
  View.cover_of_tiledL _ S1024x1024.size (by sl_kernel_rfl) y

/-- What case A leaves in the accumulator. -/
def sout2_A (c : Dev nD) (t : Fin cfg2.N) (h0 : t.val % 4 = 0) (h1 : ¬t.val % 4 = 3) (x0 : Vec F S1024x1024 .bf16) (x1 : Vec F S1024x1024 .bf16) (x2 : Vec F S1x1024 .f32) (x3 : Vec F S1x1024 .f32) : Vec F S1024x1024 .f32 :=
  VS2_0.read (Elt F) (VS2_0.writes (Elt F) VS2_0.junk (run2_A c t h0 h1 x0 x1 x2 x3).2.1)

/-- The run of case B at point `t`. -/
abbrev run2_B (c : Dev nD) (t : Fin cfg2.N) (h0 : ¬t.val % 4 = 0) (h1 : ¬t.val % 4 = 3) (x0 : Vec F S1024x1024 .bf16) (x1 : Vec F S1024x1024 .bf16) (x2 : Vec F S1x1024 .f32) (x3 : Vec F S1x1024 .f32) (xs0 : Vec F S1024x1024 .f32) :=
  kernelRun2_B (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) x0 x1 x2 x3 xs0

/-- What case B leaves in output window 4's buffer (nothing is stored: a placeholder nothing consults). -/
def out2_B_4 (c : Dev nD) (t : Fin cfg2.N) (h0 : ¬t.val % 4 = 0) (h1 : ¬t.val % 4 = 3) (x0 : Vec F S1024x1024 .bf16) (x1 : Vec F S1024x1024 .bf16) (x2 : Vec F S1x1024 .f32) (x3 : Vec F S1x1024 .f32) (xs0 : Vec F S1024x1024 .f32) : Vec F S1024x1024 .f32 :=
  VO2_4.read (Elt F) (VO2_4.writes (Elt F) VO2_4.junk (run2_B c t h0 h1 x0 x1 x2 x3 xs0).1)

theorem scover2_B (c : Dev nD) (t : Fin cfg2.N) (h0 : ¬t.val % 4 = 0) (h1 : ¬t.val % 4 = 3) (x0 : Vec F S1024x1024 .bf16) (x1 : Vec F S1024x1024 .bf16) (x2 : Vec F S1x1024 .f32) (x3 : Vec F S1x1024 .f32) (xs0 : Vec F S1024x1024 .f32) (y : S1024x1024.Idx) :
    ∃ pc ∈ (run2_B c t h0 h1 x0 x1 x2 x3 xs0).2.1, y ∈ pc.1.set :=
  View.cover_of_tiledL _ S1024x1024.size (by sl_kernel_rfl) y

/-- What case B leaves in the accumulator. -/
def sout2_B (c : Dev nD) (t : Fin cfg2.N) (h0 : ¬t.val % 4 = 0) (h1 : ¬t.val % 4 = 3) (x0 : Vec F S1024x1024 .bf16) (x1 : Vec F S1024x1024 .bf16) (x2 : Vec F S1x1024 .f32) (x3 : Vec F S1x1024 .f32) (xs0 : Vec F S1024x1024 .f32) : Vec F S1024x1024 .f32 :=
  VS2_0.read (Elt F) (VS2_0.writes (Elt F) VS2_0.junk (run2_B c t h0 h1 x0 x1 x2 x3 xs0).2.1)

/-- The run of case C at point `t`. -/
abbrev run2_C (c : Dev nD) (t : Fin cfg2.N) (h0 : ¬t.val % 4 = 0) (h1 : t.val % 4 = 3) (x0 : Vec F S1024x1024 .bf16) (x1 : Vec F S1024x1024 .bf16) (x2 : Vec F S1x1024 .f32) (x3 : Vec F S1x1024 .f32) (xs0 : Vec F S1024x1024 .f32) :=
  kernelRun2_C (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) x0 x1 x2 x3 xs0

theorem cover2_C_4 (c : Dev nD) (t : Fin cfg2.N) (h0 : ¬t.val % 4 = 0) (h1 : t.val % 4 = 3) (x0 : Vec F S1024x1024 .bf16) (x1 : Vec F S1024x1024 .bf16) (x2 : Vec F S1x1024 .f32) (x3 : Vec F S1x1024 .f32) (xs0 : Vec F S1024x1024 .f32) (y : S1024x1024.Idx) :
    ∃ pc ∈ (run2_C c t h0 h1 x0 x1 x2 x3 xs0).1, y ∈ pc.1.set :=
  View.cover_of_tiledL _ S1024x1024.size (by sl_kernel_rfl) y

/-- What case C leaves in output window 4's buffer. -/
def out2_C_4 (c : Dev nD) (t : Fin cfg2.N) (h0 : ¬t.val % 4 = 0) (h1 : t.val % 4 = 3) (x0 : Vec F S1024x1024 .bf16) (x1 : Vec F S1024x1024 .bf16) (x2 : Vec F S1x1024 .f32) (x3 : Vec F S1x1024 .f32) (xs0 : Vec F S1024x1024 .f32) : Vec F S1024x1024 .f32 :=
  VO2_4.read (Elt F) (VO2_4.writes (Elt F) VO2_4.junk (run2_C c t h0 h1 x0 x1 x2 x3 xs0).1)

theorem scover2_C (c : Dev nD) (t : Fin cfg2.N) (h0 : ¬t.val % 4 = 0) (h1 : t.val % 4 = 3) (x0 : Vec F S1024x1024 .bf16) (x1 : Vec F S1024x1024 .bf16) (x2 : Vec F S1x1024 .f32) (x3 : Vec F S1x1024 .f32) (xs0 : Vec F S1024x1024 .f32) (y : S1024x1024.Idx) :
    ∃ pc ∈ (run2_C c t h0 h1 x0 x1 x2 x3 xs0).2.1, y ∈ pc.1.set :=
  View.cover_of_tiledL _ S1024x1024.size (by sl_kernel_rfl) y

/-- What case C leaves in the accumulator. -/
def sout2_C (c : Dev nD) (t : Fin cfg2.N) (h0 : ¬t.val % 4 = 0) (h1 : t.val % 4 = 3) (x0 : Vec F S1024x1024 .bf16) (x1 : Vec F S1024x1024 .bf16) (x2 : Vec F S1x1024 .f32) (x3 : Vec F S1x1024 .f32) (xs0 : Vec F S1024x1024 .f32) : Vec F S1024x1024 .f32 :=
  VS2_0.read (Elt F) (VS2_0.writes (Elt F) VS2_0.junk (run2_C c t h0 h1 x0 x1 x2 x3 xs0).2.1)

/-! ## Point by point -/

/-- What the outputs' buffers and the accumulator hold after the body at point `t`, given what the accumulator held before it. -/
def step2 (c : Dev nD) (t : Fin cfg2.N) (prev : Vec F S1024x1024 .f32) : Vec F S1024x1024 .f32 × Vec F S1024x1024 .f32 :=
  if h0 : t.val % 4 = 0 then (out2_A_4 c t h0 (by omega) (iblk2 V c 0 t) (iblk2 V c 1 t) (iblk2 V c 2 t) (iblk2 V c 3 t), sout2_A c t h0 (by omega) (iblk2 V c 0 t) (iblk2 V c 1 t) (iblk2 V c 2 t) (iblk2 V c 3 t))
  else if h1 : t.val % 4 = 3 then (out2_C_4 c t h0 h1 (iblk2 V c 0 t) (iblk2 V c 1 t) (iblk2 V c 2 t) (iblk2 V c 3 t) prev, sout2_C c t h0 h1 (iblk2 V c 0 t) (iblk2 V c 1 t) (iblk2 V c 2 t) (iblk2 V c 3 t) prev)
  else (out2_B_4 c t h0 h1 (iblk2 V c 0 t) (iblk2 V c 1 t) (iblk2 V c 2 t) (iblk2 V c 3 t) prev, sout2_B c t h0 h1 (iblk2 V c 0 t) (iblk2 V c 1 t) (iblk2 V c 2 t) (iblk2 V c 3 t) prev)

theorem step2_A (c : Dev nD) (t : Fin cfg2.N) (prev) (h0 : t.val % 4 = 0) (h1 : ¬t.val % 4 = 3) :
    step2 V c t prev = (out2_A_4 c t h0 h1 (iblk2 V c 0 t) (iblk2 V c 1 t) (iblk2 V c 2 t) (iblk2 V c 3 t), sout2_A c t h0 h1 (iblk2 V c 0 t) (iblk2 V c 1 t) (iblk2 V c 2 t) (iblk2 V c 3 t)) := dif_pos h0
theorem step2_B (c : Dev nD) (t : Fin cfg2.N) (prev) (h0 : ¬t.val % 4 = 0) (h1 : ¬t.val % 4 = 3) :
    step2 V c t prev = (out2_B_4 c t h0 h1 (iblk2 V c 0 t) (iblk2 V c 1 t) (iblk2 V c 2 t) (iblk2 V c 3 t) prev, sout2_B c t h0 h1 (iblk2 V c 0 t) (iblk2 V c 1 t) (iblk2 V c 2 t) (iblk2 V c 3 t) prev) := (dif_neg h0).trans (dif_neg h1)
theorem step2_C (c : Dev nD) (t : Fin cfg2.N) (prev) (h0 : ¬t.val % 4 = 0) (h1 : t.val % 4 = 3) :
    step2 V c t prev = (out2_C_4 c t h0 h1 (iblk2 V c 0 t) (iblk2 V c 1 t) (iblk2 V c 2 t) (iblk2 V c 3 t) prev, sout2_C c t h0 h1 (iblk2 V c 0 t) (iblk2 V c 1 t) (iblk2 V c 2 t) (iblk2 V c 3 t) prev) := (dif_neg h0).trans (dif_pos h1)

/-- Contents standing for "anything" before the first point (never consulted: the first point resets). -/
abbrev anyS2 : Vec F S1024x1024 .f32 := VS2_0.read (Elt F) VS2_0.junk

/-- The accumulator after point `n`, by recursion on the point. -/
def scrAt2 (c : Dev nD) : (n : ℕ) → n < cfg2.N → Vec F S1024x1024 .f32
  | 0, hn => (step2 V c ⟨0, hn⟩ anyS2).2
  | n + 1, hn => (step2 V c ⟨n + 1, hn⟩ (scrAt2 c n (Nat.lt_of_succ_lt hn))).2

/-- The accumulator before point `t`. -/
def prevAt2 (c : Dev nD) (t : Fin cfg2.N) : Vec F S1024x1024 .f32 :=
  if hz : t.val = 0 then anyS2 else scrAt2 V c (t.val - 1) (Nat.lt_of_le_of_lt (Nat.sub_le _ _) t.isLt)

/-- The outputs' buffers and the accumulator after point `t`. -/
def outsAt2 (c : Dev nD) (t : Fin cfg2.N) : Vec F S1024x1024 .f32 × Vec F S1024x1024 .f32 := step2 V c t (prevAt2 V c t)

theorem scrAt2_eq (c : Dev nD) (t : Fin cfg2.N) : scrAt2 V c t.val t.isLt = (outsAt2 V c t).2 := by
  obtain ⟨n, hn⟩ := t
  cases n with
  | zero => rfl
  | succ n => rfl

theorem prevAt2_pos (c : Dev nD) (t : Fin cfg2.N) (hz : t.val ≠ 0) :
    prevAt2 V c t = scrAt2 V c (t.val - 1) (Nat.lt_of_le_of_lt (Nat.sub_le _ _) t.isLt) := dif_neg hz

/-- The region's invariant before position `n`: the class invariant before the first point; afterwards the accumulator at what the point before left, the other scoped buffers and the generator register at anything. -/
def PhiS2 (c : Dev nD) : (n : ℕ) → n ≤ cfg2.N → sProp 𝕄
  | 0, _ => Pipeline.ΦA spec2 c
  | n + 1, hn => iprop(iprop(owns (c : Thread nD τ) scM2_0 fullShare (scrAt2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare (scrAt2 V c n hn) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare (scrAt2 V c (n - 1) (by omega)) ∗ others2 c) ∗ (∃ r, prngReg c r)) := by
  cases n with
  | zero => exact absurd rfl hz
  | succ n => rfl

/-! ## The proof data -/

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  have hN : t.val < 32 := lt_of_lt_of_eq t.isLt (show cfg2.N = 32 from N_2)
  by_cases h0 : t.val % 4 = 0
  · have h1 : ¬t.val % 4 = 3 := by omega
    rw [show (dat2 V c).leavesExact 0 t = owns (c : Thread nD τ) (ms2_0 t) fullShare ((dat2 V c).after 0 t) from by
            unfold Dat.leavesExact; rw [liveAt2_0 t], after2_0]
    rw [show (dat2 V c).leavesExact 1 t = owns (c : Thread nD τ) (ms2_1 t) fullShare ((dat2 V c).after 1 t) from by
            unfold Dat.leavesExact; rw [liveAt2_1 t], after2_1]
    rw [show (dat2 V c).leavesExact 2 t = owns (c : Thread nD τ) (ms2_2 t) fullShare ((dat2 V c).after 2 t) from by
            unfold Dat.leavesExact; rw [liveAt2_2 t], after2_2]
    rw [show (dat2 V c).leavesExact 3 t = owns (c : Thread nD τ) (ms2_3 t) fullShare ((dat2 V c).after 3 t) from by
            unfold Dat.leavesExact; rw [liveAt2_3 t], after2_3]
    rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
    rw [show (dat2 V c).Φ t.succ = PhiS2 V c (t.val + 1) t.isLt from rfl, PhiS2_succ, scrAt2_eq V c t]
    unfold outsAt2
    rw [step2_A V c t _ h0 h1]
    unfold sout2_A; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩⟩
      iapply ((run2_A c t h0 h1 (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c t h0 h1 _ _ _ _)
          iexact HR
        iexact Hg
      isplitl [Ho]; · iexact Ho
      isplitl [H0]
      · iexact H0
      isplitl [H1]
      · iexact H1
      isplitl [H2]
      · iexact H2
      isplitl [H3]
      · iexact H3
      iexists _; iexact H4

    · rw [PhiS2_castSucc V c t, PhiS2_pos V c _ _ hz, ← prevAt2_pos V c t hz]
      iintro ⟨⟨⟨HS0, HR⟩, Hg⟩, Ho, ⟨%d0, H0⟩, ⟨%d1, H1⟩, ⟨%d2, H2⟩, ⟨%d3, H3⟩, ⟨%d4, H4⟩⟩
      iapply ((run2_A c t h0 h1 (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c t h0 h1 _ _ _ _)
          iexact HR
        iexact Hg
      isplitl [Ho]; · iexact Ho
      isplitl [H0]
      · iexact H0
      isplitl [H1]
      · iexact H1
      isplitl [H2]
      · iexact H2
      isplitl [H3]
      · iexact H3
      iexists _; iexact H4

  · have hz : t.val ≠ 0 := fun e => h0 (by rw [e])
    by_cases h1 : t.val % 4 = 3
    · rw [show (dat2 V c).leavesExact 0 t = owns (c : Thread nD τ) (ms2_0 t) fullShare ((dat2 V c).after 0 t) from by
              unfold Dat.leavesExact; rw [liveAt2_0 t], after2_0]
      rw [show (dat2 V c).leavesExact 1 t = owns (c : Thread nD τ) (ms2_1 t) fullShare ((dat2 V c).after 1 t) from by
              unfold Dat.leavesExact; rw [liveAt2_1 t], after2_1]
      rw [show (dat2 V c).leavesExact 2 t = owns (c : Thread nD τ) (ms2_2 t) fullShare ((dat2 V c).after 2 t) from by
              unfold Dat.leavesExact; rw [liveAt2_2 t], after2_2]
      rw [show (dat2 V c).leavesExact 3 t = owns (c : Thread nD τ) (ms2_3 t) fullShare ((dat2 V c).after 3 t) from by
              unfold Dat.leavesExact; rw [liveAt2_3 t], after2_3]
      rw [show (dat2 V c).leavesExact 4 t = owns (c : Thread nD τ) (ms2_4 t) fullShare ((dat2 V c).after 4 t) from by
              unfold Dat.leavesExact; rw [liveAt2_4_C t (fun h => h0 ((hcond2_0 t).mp h)) ((hcond2_1 t).mpr h1)], after2_4]
      rw [show (dat2 V c).Φ t.succ = PhiS2 V c (t.val + 1) t.isLt from rfl, PhiS2_succ, scrAt2_eq V c t]
      unfold outsAt2
      rw [step2_C V c t _ h0 h1]
      unfold out2_C_4 sout2_C; (try dsimp only)
      rw [PhiS2_castSucc V c t, PhiS2_pos V c _ _ hz, ← prevAt2_pos V c t hz]
      iintro ⟨⟨⟨HS0, HR⟩, Hg⟩, Ho, ⟨%d0, H0⟩, ⟨%d1, H1⟩, ⟨%d2, H2⟩, ⟨%d3, H3⟩, ⟨%d4, H4⟩⟩
      iapply ((run2_C c t h0 h1 (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C c t h0 h1 _ _ _ _ _)
          iexact HR
        iexact Hg
      isplitl [Ho]; · iexact Ho
      isplitl [H0]
      · iexact H0
      isplitl [H1]
      · iexact H1
      isplitl [H2]
      · iexact H2
      isplitl [H3]
      · iexact H3
      unfold owns; iexists _; isplitr
      swap; · iexact H4
      ipureintro; exact View.read_writes_of_cover _ _ _ _ _ (cover2_C_4 c t h0 h1 _ _ _ _ _)

    · rw [show (dat2 V c).leavesExact 0 t = owns (c : Thread nD τ) (ms2_0 t) fullShare ((dat2 V c).after 0 t) from by
              unfold Dat.leavesExact; rw [liveAt2_0 t], after2_0]
      rw [show (dat2 V c).leavesExact 1 t = owns (c : Thread nD τ) (ms2_1 t) fullShare ((dat2 V c).after 1 t) from by
              unfold Dat.leavesExact; rw [liveAt2_1 t], after2_1]
      rw [show (dat2 V c).leavesExact 2 t = owns (c : Thread nD τ) (ms2_2 t) fullShare ((dat2 V c).after 2 t) from by
              unfold Dat.leavesExact; rw [liveAt2_2 t], after2_2]
      rw [show (dat2 V c).leavesExact 3 t = owns (c : Thread nD τ) (ms2_3 t) fullShare ((dat2 V c).after 3 t) from by
              unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [show (dat2 V c).Φ t.succ = PhiS2 V c (t.val + 1) t.isLt from rfl, PhiS2_succ, scrAt2_eq V c t]
      unfold outsAt2
      rw [step2_B V c t _ h0 h1]
      unfold sout2_B; (try dsimp only)
      rw [PhiS2_castSucc V c t, PhiS2_pos V c _ _ hz, ← prevAt2_pos V c t hz]
      iintro ⟨⟨⟨HS0, HR⟩, Hg⟩, Ho, ⟨%d0, H0⟩, ⟨%d1, H1⟩, ⟨%d2, H2⟩, ⟨%d3, H3⟩, ⟨%d4, H4⟩⟩
      iapply ((run2_B c t h0 h1 (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c t h0 h1 _ _ _ _ _)
          iexact HR
        iexact Hg
      isplitl [Ho]; · iexact Ho
      isplitl [H0]
      · iexact H0
      isplitl [H1]
      · iexact H1
      isplitl [H2]
      · iexact H2
      isplitl [H3]
      · iexact H3
      iexists _; iexact H4

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS0, HR⟩, Hg⟩
  isplitl [HS0 HR]
  · isplitl [HS0]
    · iexists _; iexact HS0
    iexact HR
  iexact Hg

end

end Cert.KernelIdeal.Fr

end
-- ==== Proof.KIFrame.lean ====
/-
  The run of the program over its three kernel regions.
  Between regions every core holds each of its unscoped buffers whole: at the launch contents before region 0, and
  after region K at what region K's write-backs leave in its windows' arrays, every other buffer as before.
  Each region is a segment entered from those buffers and the generator register and left at the next contents; the
  three segments are the program, so every weakly fair execution terminates with every unscoped buffer at the last
  contents. The argument arrays are read by the regions only through input windows or not at all, so the last
  contents at an argument are its launch contents.
-/
import proofs.«139255_j55740085568003_2_alg».proof.Proof.KI0
import proofs.«139255_j55740085568003_2_alg».proof.Proof.KI1
import proofs.«139255_j55740085568003_2_alg».proof.Proof.KI2

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit: its arrays at what the pipeline leaves (the inputs as entered, each output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
/-- At region 1's exit each of its arrays holds what the pipeline leaves and every other buffer what it held at entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the inputs as entered, each output's write-backs
    folded), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
/-- At region 2's exit each of its arrays holds what the pipeline leaves and every other buffer what it held at entry. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The contents named: the arguments walk back to the launch, the intermediate arrays to the region that wrote them -/

theorem V1_main_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_main_arg2 (c : Dev nD) : V1 m ρ c main_arg2 = m ((c : Thread nD τ).loc main_arg2) :=
  W1_of_ne m ρ c main_arg2 (by decide)

theorem V2_main_v0_0 (c : Dev nD) : V2 m ρ c main_v0_0 = (dat0 (V0 m ρ) c).arrAt 2 cfg0.N :=
  (W2_of_ne m ρ c main_v0_0 (by decide)).trans (W1_arr m ρ c 2)
theorem V2_main_v0_1 (c : Dev nD) : V2 m ρ c main_v0_1 = (dat0 (V0 m ρ) c).arrAt 3 cfg0.N :=
  (W2_of_ne m ρ c main_v0_1 (by decide)).trans (W1_arr m ρ c 3)
theorem V2_main_v1_0 (c : Dev nD) : V2 m ρ c main_v1_0 = (dat1 (V1 m ρ) c).arrAt 2 cfg1.N := W2_arr m ρ c 2
theorem V2_main_v1_1 (c : Dev nD) : V2 m ρ c main_v1_1 = (dat1 (V1 m ρ) c).arrAt 3 cfg1.N := W2_arr m ρ c 3

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := W1_of_ne m ρ c main_arg2 (by decide)
    _ = m ((c : Thread nD τ).loc main_arg2) := rfl
theorem W3_main_v2 (c : Dev nD) : W3 m ρ c (Proc.devRef .tc main_v2) = (dat2 (V2 m ρ) c).arrAt 4 cfg2.N := W3_arr m ρ c 4

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 as a segment over the thread state: entered with every unscoped buffer at `W0`, left with them at
    `W1`. Its windows' arrays are split out of the unscoped buffers and put back at what the write-backs leave;
    the generator register goes into the region's invariant and comes back; nothing is owed; the kernel has no
    semaphore of its own. The invariant before the first point and after the last is the class invariant up to
    the two entailments the region's proof data come with. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    refine BIBase.Entails.trans ?_ (hin0 (V0 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V0 m ρ) c).Φ (Fin.last cfg0.N) from rfl]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state: entered with every unscoped buffer at `W1`, left with them at
    `W2`. Its windows' arrays are split out of the unscoped buffers and put back at what the write-backs leave;
    the generator register goes into the region's invariant and comes back; nothing is owed; the kernel has no
    semaphore of its own. The invariant before the first point and after the last is the class invariant up to
    the two entailments the region's proof data come with. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    refine BIBase.Entails.trans ?_ (hin1 (V1 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V1 m ρ) c).Φ (Fin.last cfg1.N) from rfl]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment over the thread state: entered with every unscoped buffer at `W2`, left with them at
    `W3`. Its windows' arrays are split out of the unscoped buffers and put back at what the write-backs leave;
    the generator register goes into the region's invariant and comes back; nothing is owed; the kernel has no
    semaphore of its own. The invariant before the first point and after the last is the class invariant up to
    the two entailments the region's proof data come with. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V2 m ρ) c).Φ 0 from rfl]
    refine BIBase.Entails.trans ?_ (hin2 (V2 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V2 m ρ) c).Φ (Fin.last cfg2.N) from rfl]
    refine BIBase.Entails.trans (hout2 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: one region per kernel call. -/
abbrev segs : List (Pipeline.Seg (pcfgs (F := F)) adm (pdats m ρ) () defs₀ 𝒱₀ L lv) :=
  [ .region (reg0 m ρ),
    .region (reg1 m ρ),
    .region (reg2 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and in every final state each core's unscoped buffers hold the last contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- The program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Fr

end
-- ==== Proof.Spec.lean ====
/-
  The mathematics both programs compute, stated once over the argument arrays and importing neither program.
  With X the activations (4096 rows of 512 numbers), M the projection (512 by 4096) and C the centroids (2048 rows of 512):
  xm n j = (X M)[n, j],  xc n k = (X Cᵀ)[n, k],
  summ j = the sum over the rows n of xm n j squared,  sumc k = the sum over the rows n of xc n k squared,
  cross k j = the sum over the rows n of xc n k times xm n j,
  and the distance is the square root of the positive part of (summ j - 2 cross k j) + sumc k: the expansion of
  |a - b|^2 = |a|^2 - 2 a.b + |b|^2 with a = column j of X M and b = column k of X Cᵀ.
  Everything is over the extended reals, where sums and products are commutative and associative, so the way a
  sum is cut into tiles does not matter.
-/
import Idealize.ShloMosaic.PureOps.Ideal
import Idealize.ShloMosaic.Lib.ValueIdx

noncomputable section

open scoped BigOperators

namespace Cert.DistSpec

open Idealize.ShloMosaic Idealize.ShloMosaic.ValueIdx

/-- The shapes of the three arguments and of the result. -/
abbrev SX : Shape := ⟨2, ![4096, 512]⟩
abbrev SM : Shape := ⟨2, ![512, 4096]⟩
abbrev SC : Shape := ⟨2, ![2048, 512]⟩
abbrev SO : Shape := ⟨2, ![2048, 4096]⟩

/-- The literal 2 and the literal 0 as both programs spell them (the same words on both sides, never evaluated). -/
abbrev two : EReal := Ideal.ofBits .f32 0x40000000#32
abbrev zero : EReal := Ideal.ofBits .f32 0x00000000#32

/-- Entry (n, j) of the product of the activations with the projection. -/
def xm (X : SX.Idx → EReal) (M : SM.Idx → EReal) (n : Fin 4096) (j : Fin 4096) : EReal :=
  ∑ d : Fin 512, X (ix2 n d) * M (ix2 d j)

/-- Entry (n, k) of the product of the activations with the transposed centroids. -/
def xc (X : SX.Idx → EReal) (C : SC.Idx → EReal) (n : Fin 4096) (k : Fin 2048) : EReal :=
  ∑ d : Fin 512, X (ix2 n d) * C (ix2 k d)

/-- The squared length of column j of X M. -/
def summ (X : SX.Idx → EReal) (M : SM.Idx → EReal) (j : Fin 4096) : EReal :=
  ∑ n : Fin 4096, xm X M n j * xm X M n j

/-- The squared length of column k of X Cᵀ. -/
def sumc (X : SX.Idx → EReal) (C : SC.Idx → EReal) (k : Fin 2048) : EReal :=
  ∑ n : Fin 4096, xc X C n k * xc X C n k

/-- The inner product of column k of X Cᵀ with column j of X M. -/
def cross (X : SX.Idx → EReal) (M : SM.Idx → EReal) (C : SC.Idx → EReal) (k : Fin 2048) (j : Fin 4096) : EReal :=
  ∑ n : Fin 4096, xc X C n k * xm X M n j

/-- The last step, shared by both programs: from the two squared lengths and the inner product to the distance. -/
def finish (sm cr sc : EReal) : EReal := Ideal.sqrt (max ((sm - two * cr) + sc) zero)

/-- The distance between column j of X M and column k of X Cᵀ. -/
def distAt (X : SX.Idx → EReal) (M : SM.Idx → EReal) (C : SC.Idx → EReal) (k : Fin 2048) (j : Fin 4096) : EReal :=
  finish (summ X M j) (cross X M C k j) (sumc X C k)

/-- The whole result array. -/
def dist (X : SX.Idx → EReal) (M : SM.Idx → EReal) (C : SC.Idx → EReal) : SO.Idx → EReal :=
  fun i => distAt X M C (i 0) (i 1)

end Cert.DistSpec

end
-- ==== Proof.SpecCross.lean ====
/-
  The inner product of column k of one array with column j of another, over their 4096 common rows: what the third
  kernel accumulates tile by tile, stated over arrays whose entries are extended reals.
-/
import proofs.«139255_j55740085568003_2_alg».proof.Proof.Spec

noncomputable section

open scoped BigOperators

namespace Cert.DistSpec

open Idealize.ShloMosaic Idealize.ShloMosaic.ValueIdx

/-- The sum over the rows n of pc[n, k] * pm[n, j]. -/
def crossOf (pc : (⟨2, ![4096, 2048]⟩ : Shape).Idx → EReal) (pm : (⟨2, ![4096, 4096]⟩ : Shape).Idx → EReal)
    (k : Fin 2048) (j : Fin 4096) : EReal :=
  ∑ n : Fin 4096, pc (ix2 n k) * pm (ix2 n j)

/-- The distance entry from the four arrays the third kernel reads. -/
def distOf (pc : (⟨2, ![4096, 2048]⟩ : Shape).Idx → EReal) (pm : (⟨2, ![4096, 4096]⟩ : Shape).Idx → EReal)
    (sm : (⟨2, ![1, 4096]⟩ : Shape).Idx → EReal) (sc : (⟨2, ![1, 2048]⟩ : Shape).Idx → EReal)
    (k : Fin 2048) (j : Fin 4096) : EReal :=
  finish (sm (ix2 (0 : Fin 1) j)) (crossOf pc pm k j) (sc (ix2 (0 : Fin 1) k))

end Cert.DistSpec

end
-- ==== Proof.KIVal0a.lean ====
/-
  The first kernel, point by point: what each control case leaves in its buffers, as whole vectors.
  At every point the block product of the two input blocks goes to the product's window; the running total of squared
  products becomes what it was plus the block's contribution (at the first point of a row of the grid, what it was is
  the zero just stored); at the last point of a row the running total is also copied to the totals' window.
-/
import proofs.«139255_j55740085568003_2_alg».proof.Proof.KI0
import Idealize.ShloMosaic.Lib.Pipeline.Value
import Idealize.ShloMosaic.Lib.ValueIdx
import Idealize.ShloMosaic.Lib.Tactic

set_option maxRecDepth 16384

noncomputable section

open scoped BigOperators

namespace Cert.KernelIdeal.Val0

open Idealize.ShloMosaic Idealize.ShloMosaic.TcCoe Idealize.ShloMosaic.Tactic Idealize.SL.Sem
open Idealize.ShloMosaic.Pipeline (Dat Cfg Window)
open Idealize.ShloMosaic.ValueIdx
open Cert.KernelIdeal Cert.KernelIdeal.Gen Cert.KernelIdeal.Fr

variable {F : FTy → Type} [FloatOps F]

theorem hz : (![0, 0] : Fin 2 → Nat) = fun _ => 0 := funext fun a => by fin_cases a <;> rfl

/-- Case A stores the block product. -/
theorem out_A_2 (c : Dev nD) (t : Fin cfg0.N) (h0 : t.val % 8 = 0) (h1 : ¬t.val % 8 = 7) (x0 : Vec F S512x512 .f32) (x1 : Vec F S512x2048 .f32) :
    out0_A_2 c t h0 h1 x0 x1 = k0_pay3 x0 x1 := by
  unfold out0_A_2
  rw [View.read_writes_eq_canon _ _ _ (cover0_A_2 c t h0 h1 x0 x1)]
  unfold run0_A kernelRun0_A
  dsimp only
  sl_unfold_words
  rw [View.canon_unit_zero hz]
  simp only [View.readAt_eq_ld, (hs0_0 t).read_unread, (hs0_1 t).read_unread,
    View.ld_unit_zero (S := S512x512) hz, View.ld_unit_zero (S := S512x2048) hz]

/-- Case B stores the block product. -/
theorem out_B_2 (c : Dev nD) (t : Fin cfg0.N) (h0 : ¬t.val % 8 = 0) (h1 : ¬t.val % 8 = 7) (x0 : Vec F S512x512 .f32) (x1 : Vec F S512x2048 .f32) (xs0 : Vec F S1x2048 .f32) :
    out0_B_2 c t h0 h1 x0 x1 xs0 = k0_pay3 x0 x1 := by
  unfold out0_B_2
  rw [View.read_writes_eq_canon _ _ _ (cover0_B_2 c t h0 h1 x0 x1 xs0)]
  unfold run0_B kernelRun0_B
  dsimp only
  sl_unfold_words
  rw [View.canon_unit_zero hz]
  simp only [View.readAt_eq_ld, (hs0_0 t).read_unread, (hs0_1 t).read_unread,
    View.ld_unit_zero (S := S512x512) hz, View.ld_unit_zero (S := S512x2048) hz]

/-- Case C stores the block product. -/
theorem out_C_2 (c : Dev nD) (t : Fin cfg0.N) (h0 : ¬t.val % 8 = 0) (h1 : t.val % 8 = 7) (x0 : Vec F S512x512 .f32) (x1 : Vec F S512x2048 .f32) (xs0 : Vec F S1x2048 .f32) :
    out0_C_2 c t h0 h1 x0 x1 xs0 = k0_pay3 x0 x1 := by
  unfold out0_C_2
  rw [View.read_writes_eq_canon _ _ _ (cover0_C_2 c t h0 h1 x0 x1 xs0)]
  unfold run0_C kernelRun0_C
  dsimp only
  sl_unfold_words
  rw [View.canon_unit_zero hz]
  simp only [View.readAt_eq_ld, (hs0_0 t).read_unread, (hs0_1 t).read_unread,
    View.ld_unit_zero (S := S512x512) hz, View.ld_unit_zero (S := S512x2048) hz]

/-- Case A leaves in the running total the zero it has just stored plus the block's contribution. -/
theorem sout_A (c : Dev nD) (t : Fin cfg0.N) (h0 : t.val % 8 = 0) (h1 : ¬t.val % 8 = 7) (x0 : Vec F S512x512 .f32) (x1 : Vec F S512x2048 .f32) :
    sout0_A c t h0 h1 x0 x1 = k0_pay4 x0 x1 (k0_pay1 (F := F)) := by
  unfold sout0_A
  rw [View.read_writes_eq_canon _ _ _ (scover0_A c t h0 h1 x0 x1)]
  unfold run0_A kernelRun0_A
  dsimp only
  sl_unfold_words
  rw [View.canon_cons_unit_zero (S := S1x2048) hz, View.readCov_unit_zero (S := S1x2048) _ hz]
  simp only [View.readAt_eq_ld, (hs0_0 t).read_unread, (hs0_1 t).read_unread,
    View.ld_unit_zero (S := S512x512) hz, View.ld_unit_zero (S := S512x2048) hz]

/-- Case B leaves in the running total what it held plus the block's contribution. -/
theorem sout_B (c : Dev nD) (t : Fin cfg0.N) (h0 : ¬t.val % 8 = 0) (h1 : ¬t.val % 8 = 7) (x0 : Vec F S512x512 .f32) (x1 : Vec F S512x2048 .f32) (xs0 : Vec F S1x2048 .f32) :
    sout0_B c t h0 h1 x0 x1 xs0 = k0_pay4 x0 x1 xs0 := by
  unfold sout0_B
  rw [View.read_writes_eq_canon _ _ _ (scover0_B c t h0 h1 x0 x1 xs0)]
  unfold run0_B kernelRun0_B
  dsimp only
  sl_unfold_words
  rw [View.canon_unit_zero hz]
  simp only [View.readAt_eq_ld, (hs0_0 t).read_unread, (hs0_1 t).read_unread, (Memref.isWhole_whole cc0_scratch0).read_unread,
    View.ld_unit_zero (S := S512x512) hz, View.ld_unit_zero (S := S512x2048) hz, View.ld_unit_zero (S := S1x2048) hz]

/-- Case C leaves in the running total what it held plus the block's contribution. -/
theorem sout_C (c : Dev nD) (t : Fin cfg0.N) (h0 : ¬t.val % 8 = 0) (h1 : t.val % 8 = 7) (x0 : Vec F S512x512 .f32) (x1 : Vec F S512x2048 .f32) (xs0 : Vec F S1x2048 .f32) :
    sout0_C c t h0 h1 x0 x1 xs0 = k0_pay4 x0 x1 xs0 := by
  unfold sout0_C
  rw [View.read_writes_eq_canon _ _ _ (scover0_C c t h0 h1 x0 x1 xs0)]
  unfold run0_C kernelRun0_C
  dsimp only
  sl_unfold_words
  rw [View.canon_unit_zero hz]
  simp only [View.readAt_eq_ld, (hs0_0 t).read_unread, (hs0_1 t).read_unread, (Memref.isWhole_whole cc0_scratch0).read_unread,
    View.ld_unit_zero (S := S512x512) hz, View.ld_unit_zero (S := S512x2048) hz, View.ld_unit_zero (S := S1x2048) hz]

/-- Case C copies the running total, as it has just been updated, to the totals' window. -/
theorem out_C_3 (c : Dev nD) (t : Fin cfg0.N) (h0 : ¬t.val % 8 = 0) (h1 : t.val % 8 = 7) (x0 : Vec F S512x512 .f32) (x1 : Vec F S512x2048 .f32) (xs0 : Vec F S1x2048 .f32) :
    out0_C_3 c t h0 h1 x0 x1 xs0 = k0_pay4 x0 x1 xs0 := by
  unfold out0_C_3
  rw [View.read_writes_eq_canon _ _ _ (cover0_C_3 c t h0 h1 x0 x1 xs0)]
  unfold run0_C kernelRun0_C
  dsimp only
  sl_unfold_words
  rw [View.canon_unit_zero hz, View.readCov_unit_zero (S := S1x2048) _ hz]
  simp only [View.readAt_eq_ld, (hs0_0 t).read_unread, (hs0_1 t).read_unread, (Memref.isWhole_whole cc0_scratch0).read_unread,
    View.ld_unit_zero (S := S512x512) hz, View.ld_unit_zero (S := S512x2048) hz, View.ld_unit_zero (S := S1x2048) hz]

end Cert.KernelIdeal.Val0

end
-- ==== Proof.Pay0.lean ====
/-
  The first kernel's values read at one index, over the extended reals.
  Each step multiplies a block x of the activations (512 rows) by a block y of the projection: entry (p, q) of the
  product is the sum over d of x(p, d) * y(d, q). The product is stored, and the sum over the block's rows p of its
  squares is added to a running total kept per column q, which starts at zero.
-/
import proofs.«139255_j55740085568003_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The left operand's row is the result's row. -/
theorem lhs_xm_0 (i : S512x2048.Idx) (c : dot_S512x512_S512x2048_S512x2048_1_0_0_1_n_n.contr.Idx) :
    (dot_S512x512_S512x2048_S512x2048_1_0_0_1_n_n.lhsIdx i c 0).val = (i 0).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl

/-- The right operand's column is the result's column. -/
theorem rhs_xm_1 (i : S512x2048.Idx) (c : dot_S512x512_S512x2048_S512x2048_1_0_0_1_n_n.contr.Idx) :
    (dot_S512x512_S512x2048_S512x2048_1_0_0_1_n_n.rhsIdx i c 1).val = (i 1).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-- The plain product (rows of the left operand against columns of the right one), into a zero accumulator, at (p, q):
    the sum over d of a(p, d) * b(d, q). -/
theorem matmul_xm_apply (a : FVec Ideal S512x512 .bf16) (b : FVec Ideal S512x2048 .bf16) (p : Fin 512) (q : Fin 2048) :
    FloatOps.matmul dot_S512x512_S512x2048_S512x2048_1_0_0_1_n_n none a b
        (constant (F := Ideal) S512x2048 .f32 0x00000000#32) (ix2 p q)
      = ∑ d : Fin 512, a (ix2 p d) * b (ix2 d q) := by
  rw [Ideal.matmul_constant_zero_apply,
    ← Equiv.sum_comp (contrEquiv1 dot_S512x512_S512x2048_S512x2048_1_0_0_1_n_n 512 rfl rfl).symm]
  refine Finset.sum_congr rfl fun d _ => ?_
  have hd := contrEquiv1_symm_val dot_S512x512_S512x2048_S512x2048_1_0_0_1_n_n 512 rfl rfl d
  have el : dot_S512x512_S512x2048_S512x2048_1_0_0_1_n_n.lhsIdx (ix2 p q)
      ((contrEquiv1 dot_S512x512_S512x2048_S512x2048_1_0_0_1_n_n 512 rfl rfl).symm d) = ix2 p d :=
    funext fun c => Fin.ext (by
      match c with
      | ⟨0, _⟩ => exact lhs_xm_0 _ _
      | ⟨1, _⟩ =>
        exact (dot_S512x512_S512x2048_S512x2048_1_0_0_1_n_n.lhsIdx_val_of_single rfl _ _).trans hd)
  have er : dot_S512x512_S512x2048_S512x2048_1_0_0_1_n_n.rhsIdx (ix2 p q)
      ((contrEquiv1 dot_S512x512_S512x2048_S512x2048_1_0_0_1_n_n 512 rfl rfl).symm d) = ix2 d q :=
    funext fun c => Fin.ext (by
      match c with
      | ⟨0, _⟩ =>
        exact (dot_S512x512_S512x2048_S512x2048_1_0_0_1_n_n.rhsIdx_val_of_single rfl _ _).trans hd
      | ⟨1, _⟩ => exact rhs_xm_1 _ _)
  rw [el, er]

/-- The sum down the rows of a [512, 2048] array, at column q. -/
theorem colsum_xm_apply (v : FVec Ideal S512x2048 .f32) (hφ : FKind.Formats .f32)
    (hacc : (0x00000000#32 : BitVec 32) = 0x00000000#32) (q : Fin 2048) :
    multiReduction (F := Ideal) .add [0] S2048 v 0x00000000#32 reduces_S512x2048_S2048 hφ hacc (ix1 q)
      = ∑ p : Fin 512, v (ix2 p q) := by
  refine (Ideal.multiReduction_add_single v 0x00000000#32 reduces_S512x2048_S2048 hφ hacc (ix1 q)).trans ?_
  refine Finset.sum_congr rfl fun p _ => congrArg v ?_
  funext c
  match c with
  | ⟨0, _⟩ => rfl
  | ⟨1, _⟩ => rfl

/-- The value stored at the first step: zero everywhere. -/
theorem pay0_1 (q : Fin 2048) : k0_pay1 (F := Ideal) (ix2 (0 : Fin 1) q) = Ideal.ofBits .f32 0x00000000#32 := by
  unfold k0_pay1
  simp only [shapeCast_self]
  rfl

/-- The same with the zero word read. -/
theorem pay0_1_zero (q : Fin 2048) : k0_pay1 (F := Ideal) (ix2 (0 : Fin 1) q) = 0 :=
  (pay0_1 q).trans Ideal.ofBits_zero_f32

/-- The block product at (p, q). -/
theorem pay0_2 (x : Vec Ideal S512x512 .f32) (y : Vec Ideal S512x2048 .f32) (p : Fin 512) (q : Fin 2048) :
    k0_pay2 x y (ix2 p q) = ∑ d : Fin 512, x (ix2 p d) * y (ix2 d q) := by
  unfold k0_pay2
  exact (matmul_xm_apply _ _ p q).trans (Finset.sum_congr rfl fun d _ => rfl)

/-- The stored block product is the same number: the change of format is the identity on extended reals. -/
theorem pay0_3 (x : Vec Ideal S512x512 .f32) (y : Vec Ideal S512x2048 .f32) (p : Fin 512) (q : Fin 2048) :
    k0_pay3 x y (ix2 p q) = ∑ d : Fin 512, x (ix2 p d) * y (ix2 d q) := by
  unfold k0_pay3
  exact pay0_2 x y p q

/-- The running total at column q after a step: what it was plus the sum over the block's rows of the squared products. -/
theorem pay0_4 (x : Vec Ideal S512x512 .f32) (y : Vec Ideal S512x2048 .f32) (a : Vec Ideal S1x2048 .f32) (q : Fin 2048) :
    k0_pay4 x y a (ix2 (0 : Fin 1) q)
      = a (ix2 (0 : Fin 1) q)
        + ∑ p : Fin 512, (∑ d : Fin 512, x (ix2 p d) * y (ix2 d q)) * (∑ d : Fin 512, x (ix2 p d) * y (ix2 d q)) := by
  unfold k0_pay4
  simp only [shapeCast_self]
  refine congrArg (a (ix2 (0 : Fin 1) q) + ·) ?_
  refine (shapeCast_a_1a_apply _ shapeCasts_S2048_S1x2048 (0 : Fin 1) q).trans ?_
  refine (colsum_xm_apply _ _ _ q).trans ?_
  refine Finset.sum_congr rfl fun p _ => ?_
  show k0_pay2 x y (ix2 p q) * k0_pay2 x y (ix2 p q) = _
  rw [pay0_2]

end Cert.KernelIdeal.Pay

end
-- ==== Proof.LibTileSum.lean ====
/-
  Sums cut into tiles, and an accumulator that adds one tile per step.
  A sum over the B * R numbers 0, …, B * R - 1 is the sum over the B tiles b of the sums inside each tile, whose
  members are the numbers b * R + r with r below R. An accumulator that holds z plus the first tile's sum after the
  first step, and adds one more tile's sum at each later step, holds z plus the sum of the tiles so far. Only the
  commutativity and associativity of addition are used, so everything is stated over a commutative additive monoid.
-/
import Mathlib.Algebra.BigOperators.Fin
import Mathlib.Data.Fintype.BigOperators
import Mathlib.Logic.Equiv.Fin.Basic

open scoped BigOperators

namespace Cert.LibTileSum

/-- Member r of tile b lies below B * R. -/
theorem tile_lt {B R : ℕ} (b : Fin B) (r : Fin R) : b.val * R + r.val < B * R :=
  calc b.val * R + r.val < b.val * R + R := Nat.add_lt_add_left r.isLt _
    _ = (b.val + 1) * R := (Nat.succ_mul _ _).symm
    _ ≤ B * R := Nat.mul_le_mul_right R b.isLt

/-- A sum over B * R terms is the sum over the B tiles of the sums inside each tile. -/
theorem sum_tiles {α : Type*} [AddCommMonoid α] (B R : ℕ) (f : Fin (B * R) → α) :
    ∑ n : Fin (B * R), f n = ∑ b : Fin B, ∑ r : Fin R, f ⟨b.val * R + r.val, tile_lt b r⟩ := by
  rw [← Equiv.sum_comp finProdFinEquiv f, Fintype.sum_prod_type]
  refine Finset.sum_congr rfl fun b _ => Finset.sum_congr rfl fun r _ => congrArg f (Fin.ext ?_)
  show r.val + R * b.val = b.val * R + r.val
  rw [Nat.mul_comm, Nat.add_comm]

/-- 4096 terms as 8 tiles of 512. -/
theorem sum_4096_8x512 {α : Type*} [AddCommMonoid α] (f : Fin 4096 → α) :
    ∑ n : Fin 4096, f n = ∑ b : Fin 8, ∑ r : Fin 512, f ⟨b.val * 512 + r.val, by omega⟩ :=
  sum_tiles 8 512 f

/-- 4096 terms as 4 tiles of 1024. -/
theorem sum_4096_4x1024 {α : Type*} [AddCommMonoid α] (f : Fin 4096 → α) :
    ∑ n : Fin 4096, f n = ∑ b : Fin 4, ∑ r : Fin 1024, f ⟨b.val * 1024 + r.val, by omega⟩ :=
  sum_tiles 4 1024 f

/-- An accumulator that is z plus the first term after step 0, and adds one term at each later step, is z plus the
    sum of the terms so far. -/
theorem acc_eq {α : Type*} [AddCommMonoid α] (z : α) (g : ℕ → α) (a : ℕ → α) (h0 : a 0 = z + g 0)
    (hs : ∀ n, a (n + 1) = a n + g (n + 1)) (n : ℕ) : a n = z + ∑ i ∈ Finset.range (n + 1), g i := by
  induction n with
  | zero => rw [h0, Finset.sum_range_one]
  | succ n ih => rw [hs, ih, Finset.sum_range_succ g (n + 1), add_assoc]

/-- A sum over the numbers below B, written over Fin B or over the range. -/
theorem sum_fin_eq_range {α : Type*} [AddCommMonoid α] (B : ℕ) (g : ℕ → α) :
    ∑ b : Fin B, g b.val = ∑ i ∈ Finset.range B, g i :=
  Fin.sum_univ_eq_sum_range g B

end Cert.LibTileSum
-- ==== Proof.KIVal0b.lean ====
/-
  The first kernel, the running total across a row of the grid, over the extended reals.
  Point t of the grid works on rows (t mod 8) * 512 + p of the activations and on columns (t / 8) * 2048 + q of the
  projection. Its block product at (p, q) is entry ((t mod 8) * 512 + p, (t / 8) * 2048 + q) of the whole product X M.
  After point t the running total at column q holds the sum, over the tiles 0, …, t mod 8 of 512 rows each, of the squared
  entries of X M in column (t / 8) * 2048 + q: by induction on the point, the total starting again from zero whenever
  t mod 8 is 0.
-/
import proofs.«139255_j55740085568003_2_alg».proof.Proof.KIVal0a
import proofs.«139255_j55740085568003_2_alg».proof.Proof.Pay0
import proofs.«139255_j55740085568003_2_alg».proof.Proof.Spec
import proofs.«139255_j55740085568003_2_alg».proof.Proof.LibTileSum
import Idealize.ShloMosaic.Lib.Pipeline.Value
import Idealize.ShloMosaic.Lib.ValueIdx
import Idealize.ShloMosaic.Lib.Tactic

set_option maxRecDepth 16384

noncomputable section

open scoped BigOperators

namespace Cert.KernelIdeal.Val0

open Idealize.ShloMosaic Idealize.ShloMosaic.TcCoe Idealize.ShloMosaic.Tactic Idealize.SL.Sem
open Idealize.ShloMosaic.Pipeline (Dat Cfg Window)
open Idealize.ShloMosaic.ValueIdx
open Cert.KernelIdeal Cert.KernelIdeal.Gen Cert.KernelIdeal.Fr

open Cert.KernelIdeal.Pay Cert.DistSpec

/-- Where each window's block sits at point t: the activations' block at row tile t mod 8, the projection's at column
    tile t / 8, the product's at both, the totals' at column tile t / 8. -/
theorem idx_facts : ∀ t : Fin cfg0.N,
    win0_0.index t (0 : Fin 2) = t.val % 8 ∧ win0_0.index t (1 : Fin 2) = 0
    ∧ win0_1.index t (0 : Fin 2) = 0 ∧ win0_1.index t (1 : Fin 2) = t.val / 8
    ∧ win0_2.index t (0 : Fin 2) = t.val % 8 ∧ win0_2.index t (1 : Fin 2) = t.val / 8
    ∧ win0_3.index t (0 : Fin 2) = 0 ∧ win0_3.index t (1 : Fin 2) = t.val / 8 :=
  (by decide +kernel : ∀ t : Fin grid0.N, _)

section
variable (V : (c : Dev nD) → (b : Ref sig .tc) → Buf (Elt Ideal) ((c : Thread nD τ).loc b)) (c : Dev nD)

/-- The activations' block at point t, at (p, d), is the activations at row (t mod 8) * 512 + p. -/
theorem iblk0_0_apply (t : Fin cfg0.N) (p d : Fin 512) (n : Fin 4096) (hn : n.val = t.val % 8 * 512 + p.val) :
    (iblk0 V c 0 t : Vec Ideal S512x512 .f32) (ix2 p d) = V c main_arg0 (ix2 n d) := by
  obtain ⟨e00, e01, -⟩ := idx_facts t
  unfold iblk0
  rw [View.read_apply]
  show V c main_arg0 _ = V c main_arg0 _
  congr 1
  funext a
  apply Fin.ext
  match a with
  | ⟨0, _⟩ => show win0_0.index t (0 : Fin 2) * 512 + 1 * p.val = n.val; rw [e00, hn]; omega
  | ⟨1, _⟩ => show win0_0.index t (1 : Fin 2) * 512 + 1 * d.val = d.val; rw [e01]; omega

/-- The projection's block at point t, at (d, q), is the projection at column (t / 8) * 2048 + q. -/
theorem iblk0_1_apply (t : Fin cfg0.N) (d : Fin 512) (q : Fin 2048) (j : Fin 4096) (hj : j.val = t.val / 8 * 2048 + q.val) :
    (iblk0 V c 1 t : Vec Ideal S512x2048 .f32) (ix2 d q) = V c main_arg1 (ix2 d j) := by
  obtain ⟨-, -, e10, e11, -⟩ := idx_facts t
  unfold iblk0
  rw [View.read_apply]
  show V c main_arg1 _ = V c main_arg1 _
  congr 1
  funext a
  apply Fin.ext
  match a with
  | ⟨0, _⟩ => show win0_1.index t (0 : Fin 2) * 512 + 1 * d.val = d.val; rw [e10]; omega
  | ⟨1, _⟩ => show win0_1.index t (1 : Fin 2) * 2048 + 1 * q.val = j.val; rw [e11, hj]; omega

end

/-- A block product whose factors are rows n of X and column j of M is entry (n, j) of X M. -/
theorem blockprod_eq (x0 : Vec Ideal S512x512 .f32) (x1 : Vec Ideal S512x2048 .f32) (X : SX.Idx → EReal) (M : SM.Idx → EReal)
    (p : Fin 512) (q : Fin 2048) (n j : Fin 4096)
    (h0 : ∀ d : Fin 512, x0 (ix2 p d) = X (ix2 n d)) (h1 : ∀ d : Fin 512, x1 (ix2 d q) = M (ix2 d j)) :
    ∑ d : Fin 512, x0 (ix2 p d) * x1 (ix2 d q) = xm X M n j := by
  unfold xm
  exact Finset.sum_congr rfl fun d _ => by rw [h0 d, h1 d]

/-- The squared entries of column j of X M summed over row tile i (512 rows); zero for i from 8 on. -/
def tileSq (X : SX.Idx → EReal) (M : SM.Idx → EReal) (j : Fin 4096) (i : ℕ) : EReal :=
  if h : i < 8 then ∑ r : Fin 512, xm X M ⟨i * 512 + r.val, by omega⟩ j * xm X M ⟨i * 512 + r.val, by omega⟩ j else 0

/-- The squared length of column j of X M is the sum of its eight row tiles. -/
theorem summ_eq_tiles (X : SX.Idx → EReal) (M : SM.Idx → EReal) (j : Fin 4096) :
    summ X M j = ∑ i ∈ Finset.range 8, tileSq X M j i := by
  unfold summ
  rw [Cert.LibTileSum.sum_4096_8x512, ← Cert.LibTileSum.sum_fin_eq_range 8 (tileSq X M j)]
  refine Finset.sum_congr rfl fun b _ => ?_
  unfold tileSq
  rw [dif_pos b.isLt]

/-- One update of the running total, over blocks that are the tiles of X and M: at column q the total grows by the
    tile's squared entries. -/
theorem pay4_tile (x0 : Vec Ideal S512x512 .f32) (x1 : Vec Ideal S512x2048 .f32) (a : Vec Ideal S1x2048 .f32)
    (X : SX.Idx → EReal) (M : SM.Idx → EReal) (i : ℕ) (hi : i < 8) (q : Fin 2048) (j : Fin 4096)
    (h0 : ∀ (p d : Fin 512), x0 (ix2 p d) = X (ix2 (⟨i * 512 + p.val, by omega⟩ : Fin 4096) d))
    (h1 : ∀ d : Fin 512, x1 (ix2 d q) = M (ix2 d j)) :
    k0_pay4 x0 x1 a (ix2 (0 : Fin 1) q) = a (ix2 (0 : Fin 1) q) + tileSq X M j i := by
  refine (pay0_4 x0 x1 a q).trans ?_
  unfold tileSq
  rw [dif_pos hi]
  refine congrArg (a (ix2 (0 : Fin 1) q) + ·) (Finset.sum_congr rfl fun p _ => ?_)
  rw [blockprod_eq x0 x1 X M p q ⟨i * 512 + p.val, by omega⟩ j (h0 p) h1]

section
variable (V : (c : Dev nD) → (b : Ref sig .tc) → Buf (Elt Ideal) ((c : Thread nD τ).loc b)) (c : Dev nD)

/-- The update at point t, over the blocks the point reads. -/
theorem pay4_at (t : Fin cfg0.N) (a : Vec Ideal S1x2048 .f32) (q : Fin 2048) (j : Fin 4096)
    (hj : j.val = t.val / 8 * 2048 + q.val) :
    k0_pay4 (iblk0 V c 0 t) (iblk0 V c 1 t) a (ix2 (0 : Fin 1) q)
      = a (ix2 (0 : Fin 1) q) + tileSq (V c main_arg0) (V c main_arg1) j (t.val % 8) :=
  pay4_tile (iblk0 V c 0 t) (iblk0 V c 1 t) a (V c main_arg0) (V c main_arg1) (t.val % 8) (Nat.mod_lt _ (by decide)) q j
    (fun p d => iblk0_0_apply V c t p d _ rfl) (fun d => iblk0_1_apply V c t d q j hj)

/-- THE RUNNING TOTAL after point n, at column q: the tiles 0, …, n mod 8 of column (n / 8) * 2048 + q. -/
theorem scr_eq : ∀ (n : ℕ) (hn : n < cfg0.N) (q : Fin 2048) (j : Fin 4096) (hj : j.val = n / 8 * 2048 + q.val),
    scrAt0 V c n hn (ix2 (0 : Fin 1) q)
      = ∑ i ∈ Finset.range (n % 8 + 1), tileSq (V c main_arg0) (V c main_arg1) j i
  | 0, hn, q, j, hj => by
    show (step0 V c ⟨0, hn⟩ anyS0).2.2 (ix2 (0 : Fin 1) q) = _
    have h17 : ¬(⟨0, hn⟩ : Fin cfg0.N).val % 8 = 7 := by show ¬(0 % 8 = 7); decide
    rw [step0_A V c ⟨0, hn⟩ anyS0 rfl h17]
    dsimp only
    rw [sout_A (F := Ideal) c ⟨0, hn⟩ rfl h17 (iblk0 V c 0 ⟨0, hn⟩) (iblk0 V c 1 ⟨0, hn⟩)]
    rw [pay4_at V c ⟨0, hn⟩ (k0_pay1 (F := Ideal)) q j hj, pay0_1_zero, zero_add]
    show _ = ∑ i ∈ Finset.range 1, _
    rw [Finset.sum_range_one]
    rfl
  | n + 1, hn, q, j, hj => by
    show (step0 V c ⟨n + 1, hn⟩ (scrAt0 V c n (Nat.lt_of_succ_lt hn))).2.2 (ix2 (0 : Fin 1) q) = _
    by_cases h0 : (n + 1) % 8 = 0
    · have h1 : ¬(n + 1) % 8 = 7 := by omega
      rw [step0_A V c ⟨n + 1, hn⟩ (scrAt0 V c n (Nat.lt_of_succ_lt hn)) h0 h1]
      dsimp only
      rw [sout_A (F := Ideal) c ⟨n + 1, hn⟩ h0 h1 (iblk0 V c 0 ⟨n + 1, hn⟩) (iblk0 V c 1 ⟨n + 1, hn⟩)]
      rw [pay4_at V c ⟨n + 1, hn⟩ (k0_pay1 (F := Ideal)) q j hj, pay0_1_zero, zero_add]
      show tileSq _ _ j ((n + 1) % 8) = _
      rw [h0, Finset.sum_range_one]
    · have hm : (n + 1) % 8 = n % 8 + 1 := by omega
      have hd : (n + 1) / 8 = n / 8 := by omega
      have ih := scr_eq n (Nat.lt_of_succ_lt hn) q j (by rw [hj, hd])
      by_cases h1 : (n + 1) % 8 = 7
      · rw [step0_C V c ⟨n + 1, hn⟩ (scrAt0 V c n (Nat.lt_of_succ_lt hn)) h0 h1]
        dsimp only
        rw [sout_C (F := Ideal) c ⟨n + 1, hn⟩ h0 h1 (iblk0 V c 0 ⟨n + 1, hn⟩) (iblk0 V c 1 ⟨n + 1, hn⟩) (scrAt0 V c n (Nat.lt_of_succ_lt hn))]
        rw [pay4_at V c ⟨n + 1, hn⟩ (scrAt0 V c n (Nat.lt_of_succ_lt hn)) q j hj, ih]
        show _ + tileSq _ _ j ((n + 1) % 8) = _
        rw [hm, Finset.sum_range_succ _ (n % 8 + 1)]
      · rw [step0_B V c ⟨n + 1, hn⟩ (scrAt0 V c n (Nat.lt_of_succ_lt hn)) h0 h1]
        dsimp only
        rw [sout_B (F := Ideal) c ⟨n + 1, hn⟩ h0 h1 (iblk0 V c 0 ⟨n + 1, hn⟩) (iblk0 V c 1 ⟨n + 1, hn⟩) (scrAt0 V c n (Nat.lt_of_succ_lt hn))]
        rw [pay4_at V c ⟨n + 1, hn⟩ (scrAt0 V c n (Nat.lt_of_succ_lt hn)) q j hj, ih]
        show _ + tileSq _ _ j ((n + 1) % 8) = _
        rw [hm, Finset.sum_range_succ _ (n % 8 + 1)]

end

end Cert.KernelIdeal.Val0

end
-- ==== Proof.KIVal0.lean ====
/-
  The first kernel, what its two result arrays hold after the region, over the extended reals.
  The product's window is written back at every point: point t writes the block at row tile t mod 8 and column tile t / 8,
  and its entries are those of X M; the sixteen blocks fill the array. The totals' window is written back at the last
  point of each row of the grid only, when the running total holds all eight row tiles of its columns: the squared
  lengths of the columns of X M; the two blocks written fill the array.
-/
import proofs.«139255_j55740085568003_2_alg».proof.Proof.KIVal0b
import Idealize.ShloMosaic.Lib.Pipeline.Value
import Idealize.ShloMosaic.Lib.ValueIdx
import Idealize.ShloMosaic.Lib.Tactic

set_option maxRecDepth 16384

noncomputable section

open scoped BigOperators

namespace Cert.KernelIdeal.Val0

open Idealize.ShloMosaic Idealize.ShloMosaic.TcCoe Idealize.ShloMosaic.Tactic Idealize.SL.Sem
open Idealize.ShloMosaic.Pipeline (Dat Cfg Window)
open Idealize.ShloMosaic.ValueIdx
open Cert.KernelIdeal Cert.KernelIdeal.Gen Cert.KernelIdeal.Fr

open Cert.KernelIdeal.Pay Cert.DistSpec

section
variable (V : (c : Dev nD) → (b : Ref sig .tc) → Buf (Elt Ideal) ((c : Thread nD τ).loc b)) (c : Dev nD)

/-! ## The product's window -/

/-- What the product's array ends holding: X M. -/
abbrev G2 : S4096x4096.Idx → EReal := fun i => xm (V c main_arg0) (V c main_arg1) (i 0) (i 1)

/-- What point t leaves in the product's window, at y: the entry of X M at row (t mod 8) * 512 + y 0 and column
    (t / 8) * 2048 + y 1. -/
theorem out2_at (t : Fin cfg0.N) (y : S512x2048.Idx) (n j : Fin 4096)
    (hn : n.val = t.val % 8 * 512 + (y 0).val) (hj : j.val = t.val / 8 * 2048 + (y 1).val) :
    (outsAt0 V c t).1 y = xm (V c main_arg0) (V c main_arg1) n j := by
  obtain ⟨p, q, rfl⟩ : ∃ (p : Fin 512) (q : Fin 2048), y = ix2 p q := ⟨y 0, y 1, eq_ix2 y⟩
  have key : k0_pay3 (iblk0 V c 0 t) (iblk0 V c 1 t) (ix2 p q) = xm (V c main_arg0) (V c main_arg1) n j :=
    (pay0_3 (iblk0 V c 0 t) (iblk0 V c 1 t) p q).trans
      (blockprod_eq (iblk0 V c 0 t) (iblk0 V c 1 t) (V c main_arg0) (V c main_arg1) p q n j
        (fun d => iblk0_0_apply V c t p d n hn) (fun d => iblk0_1_apply V c t d q j hj))
  unfold outsAt0
  by_cases h0 : t.val % 8 = 0
  · have h1 : ¬t.val % 8 = 7 := by omega
    rw [step0_A V c t (prevAt0 V c t) h0 h1]
    dsimp only
    rw [out_A_2 (F := Ideal) c t h0 h1 (iblk0 V c 0 t) (iblk0 V c 1 t)]
    exact key
  · by_cases h1 : t.val % 8 = 7
    · rw [step0_C V c t (prevAt0 V c t) h0 h1]
      dsimp only
      rw [out_C_2 (F := Ideal) c t h0 h1 (iblk0 V c 0 t) (iblk0 V c 1 t) (prevAt0 V c t)]
      exact key
    · rw [step0_B V c t (prevAt0 V c t) h0 h1]
      dsimp only
      rw [out_B_2 (F := Ideal) c t h0 h1 (iblk0 V c 0 t) (iblk0 V c 1 t) (prevAt0 V c t)]
      exact key

/-- What point t writes back is its block of X M. -/
theorem flushed2_eq (t : Fin cfg0.N) :
    (dat0 V c).flushed 2 t = ((cfg0.win 2).blk t).view.read (Elt Ideal) (G2 V c) := by
  show (cfg0.win 2).cut (grid0.coords t) ((dat0 V c).after 2 t) = _
  rw [after0_2]
  obtain ⟨-, -, -, -, e20, e21, -⟩ := idx_facts t
  funext y
  rw [View.read_apply]
  show (outsAt0 V c t).1 y = xm (V c main_arg0) (V c main_arg1) (((cfg0.win 2).blk t).view.emb y 0) (((cfg0.win 2).blk t).view.emb y 1)
  exact out2_at V c t y (((cfg0.win 2).blk t).view.emb y 0) (((cfg0.win 2).blk t).view.emb y 1)
    (by show win0_2.index t (0 : Fin 2) * 512 + 1 * (y 0).val = _; rw [e20]; omega)
    (by show win0_2.index t (1 : Fin 2) * 2048 + 1 * (y 1).val = _; rw [e21]; omega)

/-- An entry of the array is in point t's block iff each coordinate is in the block's range. -/
theorem mem_blk2 (t : Fin cfg0.N) (i : S4096x4096.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0_0).slice (win0_2.rect t)).set ↔ _
  rw [View.set_slice_whole, Rect.mem_set_unit]
  exact Iff.rfl

/-- Every entry is in the block of the point with row tile (i 0) / 512 and column tile (i 1) / 2048. -/
theorem cover2 (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 16 := N_0
  obtain ⟨t, ht⟩ : ∃ t : Fin cfg0.N, t.val = (i 1).val / 2048 * 8 + (i 0).val / 512 := ⟨⟨_, by rw [hN]; omega⟩, rfl⟩
  obtain ⟨-, -, -, -, e20, e21, -⟩ := idx_facts t
  refine ⟨t, flush0_2 t, ?_⟩
  rw [mem_blk2]
  intro a
  match a with
  | ⟨0, _⟩ =>
    show win0_2.index t (0 : Fin 2) * 512 ≤ (i 0).val ∧ (i 0).val < win0_2.index t (0 : Fin 2) * 512 + 512
    rw [e20]; omega
  | ⟨1, _⟩ =>
    show win0_2.index t (1 : Fin 2) * 2048 ≤ (i 1).val ∧ (i 1).val < win0_2.index t (1 : Fin 2) * 2048 + 2048
    rw [e21]; omega

/-- The product's array after the region is X M. -/
theorem final2 : (dat0 V c).arrAt 2 cfg0.N = G2 V c :=
  (dat0 V c).arrAt_eq_of_cover 2 (G2 V c) (fun t _ => flushed2_eq V c t) (cover2)

/-! ## The totals' window -/

/-- What the totals' array ends holding: the squared lengths of the columns of X M. -/
abbrev G3 : S1x4096.Idx → EReal := fun i => summ (V c main_arg0) (V c main_arg1) (i 1)

/-- What the last point t of a row of the grid leaves in the totals' window, at y: the squared length of column
    (t / 8) * 2048 + y 1 of X M. -/
theorem out3_at (t : Fin cfg0.N) (h7 : t.val % 8 = 7) (y : S1x2048.Idx) (j : Fin 4096)
    (hj : j.val = t.val / 8 * 2048 + (y 1).val) :
    (outsAt0 V c t).2.1 y = summ (V c main_arg0) (V c main_arg1) j := by
  obtain ⟨u, q, rfl⟩ : ∃ (u : Fin 1) (q : Fin 2048), y = ix2 u q := ⟨y 0, y 1, eq_ix2 y⟩
  obtain rfl : u = 0 := Subsingleton.elim _ _
  have h0 : ¬t.val % 8 = 0 := by omega
  have hz : t.val ≠ 0 := fun e => h0 (by rw [e])
  have hd : (t.val - 1) / 8 = t.val / 8 := by omega
  have hm : (t.val - 1) % 8 + 1 = 7 := by omega
  unfold outsAt0
  rw [step0_C V c t (prevAt0 V c t) h0 h7]
  dsimp only
  rw [out_C_3 (F := Ideal) c t h0 h7 (iblk0 V c 0 t) (iblk0 V c 1 t) (prevAt0 V c t)]
  rw [pay4_at V c t (prevAt0 V c t) q j hj, prevAt0_pos V c t hz,
    scr_eq V c (t.val - 1) (Nat.lt_of_le_of_lt (Nat.sub_le _ _) t.isLt) q j (by rw [hj, hd]), hm, h7]
  exact (Finset.sum_range_succ _ 7).symm.trans (summ_eq_tiles (V c main_arg0) (V c main_arg1) j).symm

/-- What such a point writes back is its block of the squared lengths. -/
theorem flushed3_eq (t : Fin cfg0.N) (hf : (cfg0.win 3).flush t = true) :
    (dat0 V c).flushed 3 t = ((cfg0.win 3).blk t).view.read (Elt Ideal) (G3 V c) := by
  have h7 : t.val % 8 = 7 := (flush0_3 t).mp hf
  show (cfg0.win 3).cut (grid0.coords t) ((dat0 V c).after 3 t) = _
  rw [after0_3]
  obtain ⟨-, -, -, -, -, -, e30, e31⟩ := idx_facts t
  funext y
  rw [View.read_apply]
  show (outsAt0 V c t).2.1 y = summ (V c main_arg0) (V c main_arg1) (((cfg0.win 3).blk t).view.emb y 1)
  exact out3_at V c t h7 y (((cfg0.win 3).blk t).view.emb y 1)
    (by show win0_3.index t (1 : Fin 2) * 2048 + 1 * (y 1).val = _; rw [e31]; omega)

/-- An entry of the totals' array is in point t's block iff each coordinate is in the block's range. -/
theorem mem_blk3 (t : Fin cfg0.N) (i : S1x4096.Idx) :
    i ∈ ((cfg0.win 3).blk t).view.set ↔ ∀ a : Fin 2, win0_3.index t a * S1x2048.size a ≤ (i a).val ∧ (i a).val < win0_3.index t a * S1x2048.size a + S1x2048.size a := by
  show i ∈ ((View.whole main_v0_1).slice (win0_3.rect t)).set ↔ _
  rw [View.set_slice_whole, Rect.mem_set_unit]
  exact Iff.rfl

/-- Every entry is in the block of the last point of the row of the grid with column tile (i 1) / 2048. -/
theorem cover3 (i : S1x4096.Idx) : ∃ t : Fin cfg0.N, (cfg0.win 3).flush t = true ∧ i ∈ ((cfg0.win 3).blk t).view.set := by
  have hi0 : (i 0).val < 1 := (i 0).isLt
  have hi1 : (i 1).val < 4096 := (i 1).isLt
  have hN : cfg0.N = 16 := N_0
  obtain ⟨t, ht⟩ : ∃ t : Fin cfg0.N, t.val = (i 1).val / 2048 * 8 + 7 := ⟨⟨_, by rw [hN]; omega⟩, rfl⟩
  obtain ⟨-, -, -, -, -, -, e30, e31⟩ := idx_facts t
  refine ⟨t, (flush0_3 t).mpr (by omega), ?_⟩
  rw [mem_blk3]
  intro a
  match a with
  | ⟨0, _⟩ =>
    show win0_3.index t (0 : Fin 2) * 1 ≤ (i 0).val ∧ (i 0).val < win0_3.index t (0 : Fin 2) * 1 + 1
    rw [e30]; omega
  | ⟨1, _⟩ =>
    show win0_3.index t (1 : Fin 2) * 2048 ≤ (i 1).val ∧ (i 1).val < win0_3.index t (1 : Fin 2) * 2048 + 2048
    rw [e31]; omega

/-- The totals' array after the region is the squared lengths of the columns of X M. -/
theorem final3 : (dat0 V c).arrAt 3 cfg0.N = G3 V c :=
  (dat0 V c).arrAt_eq_of_cover 3 (G3 V c) (flushed3_eq V c) (cover3)

/-! ## The two results, entry by entry -/

/-- After the region the product's array holds X M. -/
theorem val0_xm (n j : Fin 4096) :
    (dat0 (F := Ideal) V c).arrAt 2 cfg0.N (ix2 n j) = Cert.DistSpec.xm (V c main_arg0) (V c main_arg1) n j :=
  congrFun (final2 V c) (ix2 n j)

/-- After the region the totals' array holds the squared lengths of the columns of X M. -/
theorem val0_summ (j : Fin 4096) :
    (dat0 (F := Ideal) V c).arrAt 3 cfg0.N (ix2 (0 : Fin 1) j) = Cert.DistSpec.summ (V c main_arg0) (V c main_arg1) j :=
  congrFun (final3 V c) (ix2 (0 : Fin 1) j)

end

end Cert.KernelIdeal.Val0

end
-- ==== Proof.KIW1a.lean ====
/-
  The second kernel, point by point: what each control case leaves in its buffers, as whole vectors.
  At every point the block product of the two input blocks goes to the product's window; the running total of squared
  products becomes what it was plus the block's contribution (at the first point of a row of the grid, what it was is
  the zero just stored); at the last point of a row the running total is also copied to the totals' window.
-/
import proofs.«139255_j55740085568003_2_alg».proof.Proof.KI1
import Idealize.ShloMosaic.Lib.Pipeline.Value
import Idealize.ShloMosaic.Lib.ValueIdx
import Idealize.ShloMosaic.Lib.Tactic

set_option maxRecDepth 16384

noncomputable section

open scoped BigOperators

namespace Cert.KernelIdeal.Val1

open Idealize.ShloMosaic Idealize.ShloMosaic.TcCoe Idealize.ShloMosaic.Tactic Idealize.SL.Sem
open Idealize.ShloMosaic.Pipeline (Dat Cfg Window)
open Idealize.ShloMosaic.ValueIdx
open Cert.KernelIdeal Cert.KernelIdeal.Gen Cert.KernelIdeal.Fr

variable {F : FTy → Type} [FloatOps F]

theorem hz : (![0, 0] : Fin 2 → Nat) = fun _ => 0 := funext fun a => by fin_cases a <;> rfl

/-- Case A stores the block product. -/
theorem out_A_2 (c : Dev nD) (t : Fin cfg1.N) (h0 : t.val % 4 = 0) (h1 : ¬t.val % 4 = 3) (x0 : Vec F S1024x512 .f32) (x1 : Vec F S1024x512 .f32) :
    out1_A_2 c t h0 h1 x0 x1 = k1_pay3 x0 x1 := by
  unfold out1_A_2
  rw [View.read_writes_eq_canon _ _ _ (cover1_A_2 c t h0 h1 x0 x1)]
  unfold run1_A kernelRun1_A
  dsimp only
  sl_unfold_words
  rw [View.canon_unit_zero hz]
  simp only [View.readAt_eq_ld, (hs1_0 t).read_unread, (hs1_1 t).read_unread,
    View.ld_unit_zero (S := S1024x512) hz]

/-- Case B stores the block product. -/
theorem out_B_2 (c : Dev nD) (t : Fin cfg1.N) (h0 : ¬t.val % 4 = 0) (h1 : ¬t.val % 4 = 3) (x0 : Vec F S1024x512 .f32) (x1 : Vec F S1024x512 .f32) (xs0 : Vec F S1x1024 .f32) :
    out1_B_2 c t h0 h1 x0 x1 xs0 = k1_pay3 x0 x1 := by
  unfold out1_B_2
  rw [View.read_writes_eq_canon _ _ _ (cover1_B_2 c t h0 h1 x0 x1 xs0)]
  unfold run1_B kernelRun1_B
  dsimp only
  sl_unfold_words
  rw [View.canon_unit_zero hz]
  simp only [View.readAt_eq_ld, (hs1_0 t).read_unread, (hs1_1 t).read_unread,
    View.ld_unit_zero (S := S1024x512) hz]

/-- Case C stores the block product. -/
theorem out_C_2 (c : Dev nD) (t : Fin cfg1.N) (h0 : ¬t.val % 4 = 0) (h1 : t.val % 4 = 3) (x0 : Vec F S1024x512 .f32) (x1 : Vec F S1024x512 .f32) (xs0 : Vec F S1x1024 .f32) :
    out1_C_2 c t h0 h1 x0 x1 xs0 = k1_pay3 x0 x1 := by
  unfold out1_C_2
  rw [View.read_writes_eq_canon _ _ _ (cover1_C_2 c t h0 h1 x0 x1 xs0)]
  unfold run1_C kernelRun1_C
  dsimp only
  sl_unfold_words
  rw [View.canon_unit_zero hz]
  simp only [View.readAt_eq_ld, (hs1_0 t).read_unread, (hs1_1 t).read_unread,
    View.ld_unit_zero (S := S1024x512) hz]

/-- Case A leaves in the running total the zero it has just stored plus the block's contribution. -/
theorem sout_A (c : Dev nD) (t : Fin cfg1.N) (h0 : t.val % 4 = 0) (h1 : ¬t.val % 4 = 3) (x0 : Vec F S1024x512 .f32) (x1 : Vec F S1024x512 .f32) :
    sout1_A c t h0 h1 x0 x1 = k1_pay4 x0 x1 (k1_pay1 (F := F)) := by
  unfold sout1_A
  rw [View.read_writes_eq_canon _ _ _ (scover1_A c t h0 h1 x0 x1)]
  unfold run1_A kernelRun1_A
  dsimp only
  sl_unfold_words
  rw [View.canon_cons_unit_zero (S := S1x1024) hz, View.readCov_unit_zero (S := S1x1024) _ hz]
  simp only [View.readAt_eq_ld, (hs1_0 t).read_unread, (hs1_1 t).read_unread,
    View.ld_unit_zero (S := S1024x512) hz]

/-- Case B leaves in the running total what it held plus the block's contribution. -/
theorem sout_B (c : Dev nD) (t : Fin cfg1.N) (h0 : ¬t.val % 4 = 0) (h1 : ¬t.val % 4 = 3) (x0 : Vec F S1024x512 .f32) (x1 : Vec F S1024x512 .f32) (xs0 : Vec F S1x1024 .f32) :
    sout1_B c t h0 h1 x0 x1 xs0 = k1_pay4 x0 x1 xs0 := by
  unfold sout1_B
  rw [View.read_writes_eq_canon _ _ _ (scover1_B c t h0 h1 x0 x1 xs0)]
  unfold run1_B kernelRun1_B
  dsimp only
  sl_unfold_words
  rw [View.canon_unit_zero hz]
  simp only [View.readAt_eq_ld, (hs1_0 t).read_unread, (hs1_1 t).read_unread, (Memref.isWhole_whole cc1_scratch0).read_unread,
    View.ld_unit_zero (S := S1024x512) hz, View.ld_unit_zero (S := S1x1024) hz]

/-- Case C leaves in the running total what it held plus the block's contribution. -/
theorem sout_C (c : Dev nD) (t : Fin cfg1.N) (h0 : ¬t.val % 4 = 0) (h1 : t.val % 4 = 3) (x0 : Vec F S1024x512 .f32) (x1 : Vec F S1024x512 .f32) (xs0 : Vec F S1x1024 .f32) :
    sout1_C c t h0 h1 x0 x1 xs0 = k1_pay4 x0 x1 xs0 := by
  unfold sout1_C
  rw [View.read_writes_eq_canon _ _ _ (scover1_C c t h0 h1 x0 x1 xs0)]
  unfold run1_C kernelRun1_C
  dsimp only
  sl_unfold_words
  rw [View.canon_unit_zero hz]
  simp only [View.readAt_eq_ld, (hs1_0 t).read_unread, (hs1_1 t).read_unread, (Memref.isWhole_whole cc1_scratch0).read_unread,
    View.ld_unit_zero (S := S1024x512) hz, View.ld_unit_zero (S := S1x1024) hz]

/-- Case C copies the running total, as it has just been updated, to the totals' window. -/
theorem out_C_3 (c : Dev nD) (t : Fin cfg1.N) (h0 : ¬t.val % 4 = 0) (h1 : t.val % 4 = 3) (x0 : Vec F S1024x512 .f32) (x1 : Vec F S1024x512 .f32) (xs0 : Vec F S1x1024 .f32) :
    out1_C_3 c t h0 h1 x0 x1 xs0 = k1_pay4 x0 x1 xs0 := by
  unfold out1_C_3
  rw [View.read_writes_eq_canon _ _ _ (cover1_C_3 c t h0 h1 x0 x1 xs0)]
  unfold run1_C kernelRun1_C
  dsimp only
  sl_unfold_words
  rw [View.canon_unit_zero hz, View.readCov_unit_zero (S := S1x1024) _ hz]
  simp only [View.readAt_eq_ld, (hs1_0 t).read_unread, (hs1_1 t).read_unread, (Memref.isWhole_whole cc1_scratch0).read_unread,
    View.ld_unit_zero (S := S1024x512) hz, View.ld_unit_zero (S := S1x1024) hz]

end Cert.KernelIdeal.Val1

end
-- ==== Proof.Pay1.lean ====
/-
  The second kernel's values read at one index, over the extended reals.
  Each step multiplies a block x of the activations (1024 rows) by the transpose of a block y of the centroids (1024
  rows): entry (p, q) of the product is the sum over d of x(p, d) * y(q, d). The product is stored, and the sum over the
  block's rows p of its squares is added to a running total kept per column q, which starts at zero.
-/
import proofs.«139255_j55740085568003_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The left operand's row is the result's row. -/
theorem lhs_xc_0 (i : S1024x1024.Idx) (c : dot_S1024x512_S1024x512_S1024x1024_1_1_0_0_n_n.contr.Idx) :
    (dot_S1024x512_S1024x512_S1024x1024_1_1_0_0_n_n.lhsIdx i c 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

/-- The right operand's row is the result's column. -/
theorem rhs_xc_0 (i : S1024x1024.Idx) (c : dot_S1024x512_S1024x512_S1024x1024_1_1_0_0_n_n.contr.Idx) :
    (dot_S1024x512_S1024x512_S1024x1024_1_1_0_0_n_n.rhsIdx i c 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- The product of the left operand with the transpose of the right one (both contracted along their second axis),
    into a zero accumulator, at (p, q): the sum over d of a(p, d) * b(q, d). -/
theorem matmul_xc_apply (a b : FVec Ideal S1024x512 .bf16) (p q : Fin 1024) :
    FloatOps.matmul dot_S1024x512_S1024x512_S1024x1024_1_1_0_0_n_n none a b
        (constant (F := Ideal) S1024x1024 .f32 0x00000000#32) (ix2 p q)
      = ∑ d : Fin 512, a (ix2 p d) * b (ix2 q d) := by
  rw [Ideal.matmul_constant_zero_apply,
    ← Equiv.sum_comp (contrEquiv1 dot_S1024x512_S1024x512_S1024x1024_1_1_0_0_n_n 512 rfl rfl).symm]
  refine Finset.sum_congr rfl fun d _ => ?_
  have hd := contrEquiv1_symm_val dot_S1024x512_S1024x512_S1024x1024_1_1_0_0_n_n 512 rfl rfl d
  have el : dot_S1024x512_S1024x512_S1024x1024_1_1_0_0_n_n.lhsIdx (ix2 p q)
      ((contrEquiv1 dot_S1024x512_S1024x512_S1024x1024_1_1_0_0_n_n 512 rfl rfl).symm d) = ix2 p d :=
    funext fun c => Fin.ext (by
      match c with
      | ⟨0, _⟩ => exact lhs_xc_0 _ _
      | ⟨1, _⟩ =>
        exact (dot_S1024x512_S1024x512_S1024x1024_1_1_0_0_n_n.lhsIdx_val_of_single rfl _ _).trans hd)
  have er : dot_S1024x512_S1024x512_S1024x1024_1_1_0_0_n_n.rhsIdx (ix2 p q)
      ((contrEquiv1 dot_S1024x512_S1024x512_S1024x1024_1_1_0_0_n_n 512 rfl rfl).symm d) = ix2 q d :=
    funext fun c => Fin.ext (by
      match c with
      | ⟨0, _⟩ => exact rhs_xc_0 _ _
      | ⟨1, _⟩ =>
        exact (dot_S1024x512_S1024x512_S1024x1024_1_1_0_0_n_n.rhsIdx_val_of_single rfl _ _).trans hd)
  rw [el, er]

/-- The sum down the rows of a [1024, 1024] array, at column q. -/
theorem colsum_xc_apply (v : FVec Ideal S1024x1024 .f32) (hφ : FKind.Formats .f32)
    (hacc : (0x00000000#32 : BitVec 32) = 0x00000000#32) (q : Fin 1024) :
    multiReduction (F := Ideal) .add [0] S1024 v 0x00000000#32 reduces_S1024x1024_S1024 hφ hacc (ix1 q)
      = ∑ p : Fin 1024, v (ix2 p q) := by
  refine (Ideal.multiReduction_add_single v 0x00000000#32 reduces_S1024x1024_S1024 hφ hacc (ix1 q)).trans ?_
  refine Finset.sum_congr rfl fun p _ => congrArg v ?_
  funext c
  match c with
  | ⟨0, _⟩ => rfl
  | ⟨1, _⟩ => rfl

/-- The value stored at the first step: zero everywhere. -/
theorem pay1_1 (q : Fin 1024) : k1_pay1 (F := Ideal) (ix2 (0 : Fin 1) q) = Ideal.ofBits .f32 0x00000000#32 := by
  unfold k1_pay1
  simp only [shapeCast_self]
  rfl

/-- The same with the zero word read. -/
theorem pay1_1_zero (q : Fin 1024) : k1_pay1 (F := Ideal) (ix2 (0 : Fin 1) q) = 0 :=
  (pay1_1 q).trans Ideal.ofBits_zero_f32

/-- The block product at (p, q). -/
theorem pay1_2 (x y : Vec Ideal S1024x512 .f32) (p q : Fin 1024) :
    k1_pay2 x y (ix2 p q) = ∑ d : Fin 512, x (ix2 p d) * y (ix2 q d) := by
  unfold k1_pay2
  exact (matmul_xc_apply _ _ p q).trans (Finset.sum_congr rfl fun d _ => rfl)

/-- The stored block product is the same number: the change of format is the identity on extended reals. -/
theorem pay1_3 (x y : Vec Ideal S1024x512 .f32) (p q : Fin 1024) :
    k1_pay3 x y (ix2 p q) = ∑ d : Fin 512, x (ix2 p d) * y (ix2 q d) := by
  unfold k1_pay3
  exact pay1_2 x y p q

/-- The running total at column q after a step: what it was plus the sum over the block's rows of the squared products. -/
theorem pay1_4 (x y : Vec Ideal S1024x512 .f32) (a : Vec Ideal S1x1024 .f32) (q : Fin 1024) :
    k1_pay4 x y a (ix2 (0 : Fin 1) q)
      = a (ix2 (0 : Fin 1) q)
        + ∑ p : Fin 1024, (∑ d : Fin 512, x (ix2 p d) * y (ix2 q d)) * (∑ d : Fin 512, x (ix2 p d) * y (ix2 q d)) := by
  unfold k1_pay4
  simp only [shapeCast_self]
  refine congrArg (a (ix2 (0 : Fin 1) q) + ·) ?_
  refine (shapeCast_a_1a_apply _ shapeCasts_S1024_S1x1024 (0 : Fin 1) q).trans ?_
  refine (colsum_xc_apply _ _ _ q).trans ?_
  refine Finset.sum_congr rfl fun p _ => ?_
  show k1_pay2 x y (ix2 p q) * k1_pay2 x y (ix2 p q) = _
  rw [pay1_2]

end Cert.KernelIdeal.Pay

end
-- ==== Proof.KIW1b.lean ====
/-
  The second kernel, the running total across a row of the grid, over the extended reals.
  Point t of the grid works on rows (t mod 4) * 1024 + p of the activations and on rows (t / 4) * 1024 + q of the
  centroids. Its block product at (p, q) is entry ((t mod 4) * 1024 + p, (t / 4) * 1024 + q) of the whole product X Cᵀ.
  After point t the running total at column q holds the sum, over the tiles 0, …, t mod 4 of 1024 rows each, of the squared
  entries of X Cᵀ in column (t / 4) * 1024 + q: by induction on the point, the total starting again from zero whenever
  t mod 4 is 0.
-/
import proofs.«139255_j55740085568003_2_alg».proof.Proof.KIW1a
import proofs.«139255_j55740085568003_2_alg».proof.Proof.Pay1
import proofs.«139255_j55740085568003_2_alg».proof.Proof.Spec
import proofs.«139255_j55740085568003_2_alg».proof.Proof.LibTileSum
import Idealize.ShloMosaic.Lib.Pipeline.Value
import Idealize.ShloMosaic.Lib.ValueIdx
import Idealize.ShloMosaic.Lib.Tactic

set_option maxRecDepth 16384

noncomputable section

open scoped BigOperators

namespace Cert.KernelIdeal.Val1

open Idealize.ShloMosaic Idealize.ShloMosaic.TcCoe Idealize.ShloMosaic.Tactic Idealize.SL.Sem
open Idealize.ShloMosaic.Pipeline (Dat Cfg Window)
open Idealize.ShloMosaic.ValueIdx
open Cert.KernelIdeal Cert.KernelIdeal.Gen Cert.KernelIdeal.Fr

open Cert.KernelIdeal.Pay Cert.DistSpec

/-- Where each window's block sits at point t: the activations' block at row tile t mod 4, the centroids' at row tile
    t / 4, the product's at both, the totals' at column tile t / 4. -/
theorem idx_facts : ∀ t : Fin cfg1.N,
    win1_0.index t (0 : Fin 2) = t.val % 4 ∧ win1_0.index t (1 : Fin 2) = 0
    ∧ win1_1.index t (0 : Fin 2) = t.val / 4 ∧ win1_1.index t (1 : Fin 2) = 0
    ∧ win1_2.index t (0 : Fin 2) = t.val % 4 ∧ win1_2.index t (1 : Fin 2) = t.val / 4
    ∧ win1_3.index t (0 : Fin 2) = 0 ∧ win1_3.index t (1 : Fin 2) = t.val / 4 :=
  (by decide +kernel : ∀ t : Fin grid1.N, _)

section
variable (V : (c : Dev nD) → (b : Ref sig .tc) → Buf (Elt Ideal) ((c : Thread nD τ).loc b)) (c : Dev nD)

/-- The activations' block at point t, at (p, d), is the activations at row (t mod 4) * 1024 + p. -/
theorem iblk1_0_apply (t : Fin cfg1.N) (p : Fin 1024) (d : Fin 512) (n : Fin 4096) (hn : n.val = t.val % 4 * 1024 + p.val) :
    (iblk1 V c 0 t : Vec Ideal S1024x512 .f32) (ix2 p d) = V c main_arg0 (ix2 n d) := by
  obtain ⟨e00, e01, -⟩ := idx_facts t
  unfold iblk1
  rw [View.read_apply]
  show V c main_arg0 _ = V c main_arg0 _
  congr 1
  funext a
  apply Fin.ext
  match a with
  | ⟨0, _⟩ => show win1_0.index t (0 : Fin 2) * 1024 + 1 * p.val = n.val; rw [e00, hn]; omega
  | ⟨1, _⟩ => show win1_0.index t (1 : Fin 2) * 512 + 1 * d.val = d.val; rw [e01]; omega

/-- The centroids' block at point t, at (q, d), is the centroids at row (t / 4) * 1024 + q. -/
theorem iblk1_1_apply (t : Fin cfg1.N) (q : Fin 1024) (d : Fin 512) (k : Fin 2048) (hk : k.val = t.val / 4 * 1024 + q.val) :
    (iblk1 V c 1 t : Vec Ideal S1024x512 .f32) (ix2 q d) = V c main_arg2 (ix2 k d) := by
  obtain ⟨-, -, e10, e11, -⟩ := idx_facts t
  unfold iblk1
  rw [View.read_apply]
  show V c main_arg2 _ = V c main_arg2 _
  congr 1
  funext a
  apply Fin.ext
  match a with
  | ⟨0, _⟩ => show win1_1.index t (0 : Fin 2) * 1024 + 1 * q.val = k.val; rw [e10, hk]; omega
  | ⟨1, _⟩ => show win1_1.index t (1 : Fin 2) * 512 + 1 * d.val = d.val; rw [e11]; omega

end

/-- A block product whose factors are row n of X and row k of C is entry (n, k) of X Cᵀ. -/
theorem blockprod_eq (x0 x1 : Vec Ideal S1024x512 .f32) (X : SX.Idx → EReal) (C : SC.Idx → EReal)
    (p q : Fin 1024) (n : Fin 4096) (k : Fin 2048)
    (h0 : ∀ d : Fin 512, x0 (ix2 p d) = X (ix2 n d)) (h1 : ∀ d : Fin 512, x1 (ix2 q d) = C (ix2 k d)) :
    ∑ d : Fin 512, x0 (ix2 p d) * x1 (ix2 q d) = xc X C n k := by
  unfold xc
  exact Finset.sum_congr rfl fun d _ => by rw [h0 d, h1 d]

/-- The squared entries of column k of X Cᵀ summed over row tile i (1024 rows); zero for i from 4 on. -/
def tileSq (X : SX.Idx → EReal) (C : SC.Idx → EReal) (k : Fin 2048) (i : ℕ) : EReal :=
  if h : i < 4 then ∑ r : Fin 1024, xc X C ⟨i * 1024 + r.val, by omega⟩ k * xc X C ⟨i * 1024 + r.val, by omega⟩ k else 0

/-- The squared length of column k of X Cᵀ is the sum of its four row tiles. -/
theorem sumc_eq_tiles (X : SX.Idx → EReal) (C : SC.Idx → EReal) (k : Fin 2048) :
    sumc X C k = ∑ i ∈ Finset.range 4, tileSq X C k i := by
  unfold sumc
  rw [Cert.LibTileSum.sum_4096_4x1024, ← Cert.LibTileSum.sum_fin_eq_range 4 (tileSq X C k)]
  refine Finset.sum_congr rfl fun b _ => ?_
  unfold tileSq
  rw [dif_pos b.isLt]

/-- One update of the running total, over blocks that are the tiles of X and C: at column q the total grows by the
    tile's squared entries. -/
theorem pay4_tile (x0 x1 : Vec Ideal S1024x512 .f32) (a : Vec Ideal S1x1024 .f32)
    (X : SX.Idx → EReal) (C : SC.Idx → EReal) (i : ℕ) (hi : i < 4) (q : Fin 1024) (k : Fin 2048)
    (h0 : ∀ (p : Fin 1024) (d : Fin 512), x0 (ix2 p d) = X (ix2 (⟨i * 1024 + p.val, by omega⟩ : Fin 4096) d))
    (h1 : ∀ d : Fin 512, x1 (ix2 q d) = C (ix2 k d)) :
    k1_pay4 x0 x1 a (ix2 (0 : Fin 1) q) = a (ix2 (0 : Fin 1) q) + tileSq X C k i := by
  refine (pay1_4 x0 x1 a q).trans ?_
  unfold tileSq
  rw [dif_pos hi]
  refine congrArg (a (ix2 (0 : Fin 1) q) + ·) (Finset.sum_congr rfl fun p _ => ?_)
  rw [blockprod_eq x0 x1 X C p q ⟨i * 1024 + p.val, by omega⟩ k (h0 p) h1]

section
variable (V : (c : Dev nD) → (b : Ref sig .tc) → Buf (Elt Ideal) ((c : Thread nD τ).loc b)) (c : Dev nD)

/-- The update at point t, over the blocks the point reads. -/
theorem pay4_at (t : Fin cfg1.N) (a : Vec Ideal S1x1024 .f32) (q : Fin 1024) (k : Fin 2048)
    (hk : k.val = t.val / 4 * 1024 + q.val) :
    k1_pay4 (iblk1 V c 0 t) (iblk1 V c 1 t) a (ix2 (0 : Fin 1) q)
      = a (ix2 (0 : Fin 1) q) + tileSq (V c main_arg0) (V c main_arg2) k (t.val % 4) :=
  pay4_tile (iblk1 V c 0 t) (iblk1 V c 1 t) a (V c main_arg0) (V c main_arg2) (t.val % 4) (Nat.mod_lt _ (by decide)) q k
    (fun p d => iblk1_0_apply V c t p d _ rfl) (fun d => iblk1_1_apply V c t q d k hk)

/-- THE RUNNING TOTAL after point n, at column q: the tiles 0, …, n mod 4 of column (n / 4) * 1024 + q. -/
theorem scr_eq : ∀ (n : ℕ) (hn : n < cfg1.N) (q : Fin 1024) (k : Fin 2048) (hk : k.val = n / 4 * 1024 + q.val),
    scrAt1 V c n hn (ix2 (0 : Fin 1) q)
      = ∑ i ∈ Finset.range (n % 4 + 1), tileSq (V c main_arg0) (V c main_arg2) k i
  | 0, hn, q, k, hk => by
    show (step1 V c ⟨0, hn⟩ anyS1).2.2 (ix2 (0 : Fin 1) q) = _
    have h13 : ¬(⟨0, hn⟩ : Fin cfg1.N).val % 4 = 3 := by show ¬(0 % 4 = 3); decide
    rw [step1_A V c ⟨0, hn⟩ anyS1 rfl h13]
    dsimp only
    rw [sout_A (F := Ideal) c ⟨0, hn⟩ rfl h13 (iblk1 V c 0 ⟨0, hn⟩) (iblk1 V c 1 ⟨0, hn⟩)]
    rw [pay4_at V c ⟨0, hn⟩ (k1_pay1 (F := Ideal)) q k hk, pay1_1_zero, zero_add]
    show _ = ∑ i ∈ Finset.range 1, _
    rw [Finset.sum_range_one]
    rfl
  | n + 1, hn, q, k, hk => by
    show (step1 V c ⟨n + 1, hn⟩ (scrAt1 V c n (Nat.lt_of_succ_lt hn))).2.2 (ix2 (0 : Fin 1) q) = _
    by_cases h0 : (n + 1) % 4 = 0
    · have h1 : ¬(n + 1) % 4 = 3 := by omega
      rw [step1_A V c ⟨n + 1, hn⟩ (scrAt1 V c n (Nat.lt_of_succ_lt hn)) h0 h1]
      dsimp only
      rw [sout_A (F := Ideal) c ⟨n + 1, hn⟩ h0 h1 (iblk1 V c 0 ⟨n + 1, hn⟩) (iblk1 V c 1 ⟨n + 1, hn⟩)]
      rw [pay4_at V c ⟨n + 1, hn⟩ (k1_pay1 (F := Ideal)) q k hk, pay1_1_zero, zero_add]
      show tileSq _ _ k ((n + 1) % 4) = _
      rw [h0, Finset.sum_range_one]
    · have hm : (n + 1) % 4 = n % 4 + 1 := by omega
      have hd : (n + 1) / 4 = n / 4 := by omega
      have ih := scr_eq n (Nat.lt_of_succ_lt hn) q k (by rw [hk, hd])
      by_cases h1 : (n + 1) % 4 = 3
      · rw [step1_C V c ⟨n + 1, hn⟩ (scrAt1 V c n (Nat.lt_of_succ_lt hn)) h0 h1]
        dsimp only
        rw [sout_C (F := Ideal) c ⟨n + 1, hn⟩ h0 h1 (iblk1 V c 0 ⟨n + 1, hn⟩) (iblk1 V c 1 ⟨n + 1, hn⟩) (scrAt1 V c n (Nat.lt_of_succ_lt hn))]
        rw [pay4_at V c ⟨n + 1, hn⟩ (scrAt1 V c n (Nat.lt_of_succ_lt hn)) q k hk, ih]
        show _ + tileSq _ _ k ((n + 1) % 4) = _
        rw [hm, Finset.sum_range_succ _ (n % 4 + 1)]
      · rw [step1_B V c ⟨n + 1, hn⟩ (scrAt1 V c n (Nat.lt_of_succ_lt hn)) h0 h1]
        dsimp only
        rw [sout_B (F := Ideal) c ⟨n + 1, hn⟩ h0 h1 (iblk1 V c 0 ⟨n + 1, hn⟩) (iblk1 V c 1 ⟨n + 1, hn⟩) (scrAt1 V c n (Nat.lt_of_succ_lt hn))]
        rw [pay4_at V c ⟨n + 1, hn⟩ (scrAt1 V c n (Nat.lt_of_succ_lt hn)) q k hk, ih]
        show _ + tileSq _ _ k ((n + 1) % 4) = _
        rw [hm, Finset.sum_range_succ _ (n % 4 + 1)]

end

end Cert.KernelIdeal.Val1

end
-- ==== Proof.KIW1.lean ====
/-
  The second kernel, what its two result arrays hold after the region, over the extended reals.
  The product's window is written back at every point: point t writes the block at row tile t mod 4 and column tile t / 4,
  and its entries are those of X Cᵀ; the eight blocks fill the array. The totals' window is written back at the last
  point of each row of the grid only, when the running total holds all four row tiles of its columns: the squared
  lengths of the columns of X Cᵀ; the two blocks written fill the array.
-/
import proofs.«139255_j55740085568003_2_alg».proof.Proof.KIW1b
import Idealize.ShloMosaic.Lib.Pipeline.Value
import Idealize.ShloMosaic.Lib.ValueIdx
import Idealize.ShloMosaic.Lib.Tactic

set_option maxRecDepth 16384

noncomputable section

open scoped BigOperators

namespace Cert.KernelIdeal.Val1

open Idealize.ShloMosaic Idealize.ShloMosaic.TcCoe Idealize.ShloMosaic.Tactic Idealize.SL.Sem
open Idealize.ShloMosaic.Pipeline (Dat Cfg Window)
open Idealize.ShloMosaic.ValueIdx
open Cert.KernelIdeal Cert.KernelIdeal.Gen Cert.KernelIdeal.Fr

open Cert.KernelIdeal.Pay Cert.DistSpec

section
variable (V : (c : Dev nD) → (b : Ref sig .tc) → Buf (Elt Ideal) ((c : Thread nD τ).loc b)) (c : Dev nD)

/-! ## The product's window -/

/-- What the product's array ends holding: X Cᵀ. -/
abbrev G2 : S4096x2048.Idx → EReal := fun i => xc (V c main_arg0) (V c main_arg2) (i 0) (i 1)

/-- What point t leaves in the product's window, at y: the entry of X Cᵀ at row (t mod 4) * 1024 + y 0 and column
    (t / 4) * 1024 + y 1. -/
theorem out2_at (t : Fin cfg1.N) (y : S1024x1024.Idx) (n : Fin 4096) (k : Fin 2048)
    (hn : n.val = t.val % 4 * 1024 + (y 0).val) (hk : k.val = t.val / 4 * 1024 + (y 1).val) :
    (outsAt1 V c t).1 y = xc (V c main_arg0) (V c main_arg2) n k := by
  obtain ⟨p, q, rfl⟩ : ∃ (p : Fin 1024) (q : Fin 1024), y = ix2 p q := ⟨y 0, y 1, eq_ix2 y⟩
  have key : k1_pay3 (iblk1 V c 0 t) (iblk1 V c 1 t) (ix2 p q) = xc (V c main_arg0) (V c main_arg2) n k :=
    (pay1_3 (iblk1 V c 0 t) (iblk1 V c 1 t) p q).trans
      (blockprod_eq (iblk1 V c 0 t) (iblk1 V c 1 t) (V c main_arg0) (V c main_arg2) p q n k
        (fun d => iblk1_0_apply V c t p d n hn) (fun d => iblk1_1_apply V c t q d k hk))
  unfold outsAt1
  by_cases h0 : t.val % 4 = 0
  · have h1 : ¬t.val % 4 = 3 := by omega
    rw [step1_A V c t (prevAt1 V c t) h0 h1]
    dsimp only
    rw [out_A_2 (F := Ideal) c t h0 h1 (iblk1 V c 0 t) (iblk1 V c 1 t)]
    exact key
  · by_cases h1 : t.val % 4 = 3
    · rw [step1_C V c t (prevAt1 V c t) h0 h1]
      dsimp only
      rw [out_C_2 (F := Ideal) c t h0 h1 (iblk1 V c 0 t) (iblk1 V c 1 t) (prevAt1 V c t)]
      exact key
    · rw [step1_B V c t (prevAt1 V c t) h0 h1]
      dsimp only
      rw [out_B_2 (F := Ideal) c t h0 h1 (iblk1 V c 0 t) (iblk1 V c 1 t) (prevAt1 V c t)]
      exact key

/-- What point t writes back is its block of X Cᵀ. -/
theorem flushed2_eq (t : Fin cfg1.N) :
    (dat1 V c).flushed 2 t = ((cfg1.win 2).blk t).view.read (Elt Ideal) (G2 V c) := by
  show (cfg1.win 2).cut (grid1.coords t) ((dat1 V c).after 2 t) = _
  rw [after1_2]
  obtain ⟨-, -, -, -, e20, e21, -⟩ := idx_facts t
  funext y
  rw [View.read_apply]
  show (outsAt1 V c t).1 y = xc (V c main_arg0) (V c main_arg2) (((cfg1.win 2).blk t).view.emb y 0) (((cfg1.win 2).blk t).view.emb y 1)
  exact out2_at V c t y (((cfg1.win 2).blk t).view.emb y 0) (((cfg1.win 2).blk t).view.emb y 1)
    (by show win1_2.index t (0 : Fin 2) * 1024 + 1 * (y 0).val = _; rw [e20]; omega)
    (by show win1_2.index t (1 : Fin 2) * 1024 + 1 * (y 1).val = _; rw [e21]; omega)

/-- An entry of the array is in point t's block iff each coordinate is in the block's range. -/
theorem mem_blk2 (t : Fin cfg1.N) (i : S4096x2048.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1_0).slice (win1_2.rect t)).set ↔ _
  rw [View.set_slice_whole, Rect.mem_set_unit]
  exact Iff.rfl

/-- Every entry is in the block of the point with row tile (i 0) / 1024 and column tile (i 1) / 1024. -/
theorem cover2 (i : S4096x2048.Idx) : ∃ t : Fin cfg1.N, (cfg1.win 2).flush t = true ∧ i ∈ ((cfg1.win 2).blk t).view.set := by
  have hi0 : (i 0).val < 4096 := (i 0).isLt
  have hi1 : (i 1).val < 2048 := (i 1).isLt
  have hN : cfg1.N = 8 := N_1
  obtain ⟨t, ht⟩ : ∃ t : Fin cfg1.N, t.val = (i 1).val / 1024 * 4 + (i 0).val / 1024 := ⟨⟨_, by rw [hN]; omega⟩, rfl⟩
  obtain ⟨-, -, -, -, e20, e21, -⟩ := idx_facts t
  refine ⟨t, flush1_2 t, ?_⟩
  rw [mem_blk2]
  intro a
  match a with
  | ⟨0, _⟩ =>
    show win1_2.index t (0 : Fin 2) * 1024 ≤ (i 0).val ∧ (i 0).val < win1_2.index t (0 : Fin 2) * 1024 + 1024
    rw [e20]; omega
  | ⟨1, _⟩ =>
    show win1_2.index t (1 : Fin 2) * 1024 ≤ (i 1).val ∧ (i 1).val < win1_2.index t (1 : Fin 2) * 1024 + 1024
    rw [e21]; omega

/-- The product's array after the region is X Cᵀ. -/
theorem final2 : (dat1 V c).arrAt 2 cfg1.N = G2 V c :=
  (dat1 V c).arrAt_eq_of_cover 2 (G2 V c) (fun t _ => flushed2_eq V c t) (cover2)

/-! ## The totals' window -/

/-- What the totals' array ends holding: the squared lengths of the columns of X Cᵀ. -/
abbrev G3 : S1x2048.Idx → EReal := fun i => sumc (V c main_arg0) (V c main_arg2) (i 1)

/-- What the last point t of a row of the grid leaves in the totals' window, at y: the squared length of column
    (t / 4) * 1024 + y 1 of X Cᵀ. -/
theorem out3_at (t : Fin cfg1.N) (h3 : t.val % 4 = 3) (y : S1x1024.Idx) (k : Fin 2048)
    (hk : k.val = t.val / 4 * 1024 + (y 1).val) :
    (outsAt1 V c t).2.1 y = sumc (V c main_arg0) (V c main_arg2) k := by
  obtain ⟨u, q, rfl⟩ : ∃ (u : Fin 1) (q : Fin 1024), y = ix2 u q := ⟨y 0, y 1, eq_ix2 y⟩
  obtain rfl : u = 0 := Subsingleton.elim _ _
  have h0 : ¬t.val % 4 = 0 := by omega
  have hz : t.val ≠ 0 := fun e => h0 (by rw [e])
  have hd : (t.val - 1) / 4 = t.val / 4 := by omega
  have hm : (t.val - 1) % 4 + 1 = 3 := by omega
  unfold outsAt1
  rw [step1_C V c t (prevAt1 V c t) h0 h3]
  dsimp only
  rw [out_C_3 (F := Ideal) c t h0 h3 (iblk1 V c 0 t) (iblk1 V c 1 t) (prevAt1 V c t)]
  rw [pay4_at V c t (prevAt1 V c t) q k hk, prevAt1_pos V c t hz,
    scr_eq V c (t.val - 1) (Nat.lt_of_le_of_lt (Nat.sub_le _ _) t.isLt) q k (by rw [hk, hd]), hm, h3]
  exact (Finset.sum_range_succ _ 3).symm.trans (sumc_eq_tiles (V c main_arg0) (V c main_arg2) k).symm

/-- What such a point writes back is its block of the squared lengths. -/
theorem flushed3_eq (t : Fin cfg1.N) (hf : (cfg1.win 3).flush t = true) :
    (dat1 V c).flushed 3 t = ((cfg1.win 3).blk t).view.read (Elt Ideal) (G3 V c) := by
  have h3 : t.val % 4 = 3 := (flush1_3 t).mp hf
  show (cfg1.win 3).cut (grid1.coords t) ((dat1 V c).after 3 t) = _
  rw [after1_3]
  obtain ⟨-, -, -, -, -, -, e30, e31⟩ := idx_facts t
  funext y
  rw [View.read_apply]
  show (outsAt1 V c t).2.1 y = sumc (V c main_arg0) (V c main_arg2) (((cfg1.win 3).blk t).view.emb y 1)
  exact out3_at V c t h3 y (((cfg1.win 3).blk t).view.emb y 1)
    (by show win1_3.index t (1 : Fin 2) * 1024 + 1 * (y 1).val = _; rw [e31]; omega)

/-- An entry of the totals' array is in point t's block iff each coordinate is in the block's range. -/
theorem mem_blk3 (t : Fin cfg1.N) (i : S1x2048.Idx) :
    i ∈ ((cfg1.win 3).blk t).view.set ↔ ∀ a : Fin 2, win1_3.index t a * S1x1024.size a ≤ (i a).val ∧ (i a).val < win1_3.index t a * S1x1024.size a + S1x1024.size a := by
  show i ∈ ((View.whole main_v1_1).slice (win1_3.rect t)).set ↔ _
  rw [View.set_slice_whole, Rect.mem_set_unit]
  exact Iff.rfl

/-- Every entry is in the block of the last point of the row of the grid with column tile (i 1) / 1024. -/
theorem cover3 (i : S1x2048.Idx) : ∃ t : Fin cfg1.N, (cfg1.win 3).flush t = true ∧ i ∈ ((cfg1.win 3).blk t).view.set := by
  have hi0 : (i 0).val < 1 := (i 0).isLt
  have hi1 : (i 1).val < 2048 := (i 1).isLt
  have hN : cfg1.N = 8 := N_1
  obtain ⟨t, ht⟩ : ∃ t : Fin cfg1.N, t.val = (i 1).val / 1024 * 4 + 3 := ⟨⟨_, by rw [hN]; omega⟩, rfl⟩
  obtain ⟨-, -, -, -, -, -, e30, e31⟩ := idx_facts t
  refine ⟨t, (flush1_3 t).mpr (by omega), ?_⟩
  rw [mem_blk3]
  intro a
  match a with
  | ⟨0, _⟩ =>
    show win1_3.index t (0 : Fin 2) * 1 ≤ (i 0).val ∧ (i 0).val < win1_3.index t (0 : Fin 2) * 1 + 1
    rw [e30]; omega
  | ⟨1, _⟩ =>
    show win1_3.index t (1 : Fin 2) * 1024 ≤ (i 1).val ∧ (i 1).val < win1_3.index t (1 : Fin 2) * 1024 + 1024
    rw [e31]; omega

/-- The totals' array after the region is the squared lengths of the columns of X Cᵀ. -/
theorem final3 : (dat1 V c).arrAt 3 cfg1.N = G3 V c :=
  (dat1 V c).arrAt_eq_of_cover 3 (G3 V c) (flushed3_eq V c) (cover3)

/-! ## The two results, entry by entry -/

/-- After the region the product's array holds X Cᵀ. -/
theorem val1_xc (n : Fin 4096) (k : Fin 2048) :
    (dat1 (F := Ideal) V c).arrAt 2 cfg1.N (ix2 n k) = Cert.DistSpec.xc (V c main_arg0) (V c main_arg2) n k :=
  congrFun (final2 V c) (ix2 n k)

/-- After the region the totals' array holds the squared lengths of the columns of X Cᵀ. -/
theorem val1_sumc (k : Fin 2048) :
    (dat1 (F := Ideal) V c).arrAt 3 cfg1.N (ix2 (0 : Fin 1) k) = Cert.DistSpec.sumc (V c main_arg0) (V c main_arg2) k :=
  congrFun (final3 V c) (ix2 (0 : Fin 1) k)

end

end Cert.KernelIdeal.Val1

end
-- ==== Proof.KIVal2a.lean ====
/-
  Region 2, what each control case leaves, as whole vectors: the accumulator after a point is the payload of the
  point's one covering store into it (at the first point of a row the zero payload is stored first and read back),
  and at the last point of a row the result's buffer holds the closing payload of the two squared lengths and the
  accumulator just updated.
-/
import proofs.«139255_j55740085568003_2_alg».proof.Proof.KI2
import Idealize.ShloMosaic.Lib.ValueIdx
import Idealize.ShloMosaic.Lib.Pipeline.Value
import Idealize.ShloMosaic.Lib.Tactic

set_option maxRecDepth 16384

noncomputable section

open scoped BigOperators

namespace Cert.KernelIdeal.Val2

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Fr

variable {F : FTy → Type} [FloatOps F]

theorem hz : (![0, 0] : Fin 2 → Nat) = fun _ => 0 := funext fun a => by fin_cases a <;> rfl

/-- A middle point leaves in the accumulator what it held plus the product of the point's two blocks. -/
theorem sout_B (c : Dev nD) (t : Fin cfg2.N) (h0 : ¬t.val % 4 = 0) (h1 : ¬t.val % 4 = 3) (x0 x1 : Vec F S1024x1024 .bf16) (x2 x3 : Vec F S1x1024 .f32) (xs0 : Vec F S1024x1024 .f32) :
    sout2_B c t h0 h1 x0 x1 x2 x3 xs0 = k2_pay2 xs0 x0 x1 := by
  unfold sout2_B
  rw [View.read_writes_eq_canon _ _ _ (scover2_B c t h0 h1 x0 x1 x2 x3 xs0)]
  unfold run2_B kernelRun2_B
  dsimp only
  rw [View.canon_unit_zero hz]
  simp only [View.readAt_eq_ld, (hs2_0 t).read_unread, (hs2_1 t).read_unread, (Memref.isWhole_whole cc2_scratch0).read_unread, View.ld_unit_zero (S := S1024x1024) hz]

/-- The last point of a row leaves the same in the accumulator. -/
theorem sout_C (c : Dev nD) (t : Fin cfg2.N) (h0 : ¬t.val % 4 = 0) (h1 : t.val % 4 = 3) (x0 x1 : Vec F S1024x1024 .bf16) (x2 x3 : Vec F S1x1024 .f32) (xs0 : Vec F S1024x1024 .f32) :
    sout2_C c t h0 h1 x0 x1 x2 x3 xs0 = k2_pay2 xs0 x0 x1 := by
  unfold sout2_C
  rw [View.read_writes_eq_canon _ _ _ (scover2_C c t h0 h1 x0 x1 x2 x3 xs0)]
  unfold run2_C kernelRun2_C
  dsimp only
  sl_unfold_words
  rw [View.canon_unit_zero hz]
  simp only [View.readAt_eq_ld, (hs2_0 t).read_unread, (hs2_1 t).read_unread, (Memref.isWhole_whole cc2_scratch0).read_unread, View.ld_unit_zero (S := S1024x1024) hz]

/-- and in the result's buffer the distance made of the two squared lengths and the accumulator it has just updated. -/
theorem out_C (c : Dev nD) (t : Fin cfg2.N) (h0 : ¬t.val % 4 = 0) (h1 : t.val % 4 = 3) (x0 x1 : Vec F S1024x1024 .bf16) (x2 x3 : Vec F S1x1024 .f32) (xs0 : Vec F S1024x1024 .f32) :
    out2_C_4 c t h0 h1 x0 x1 x2 x3 xs0 = k2_pay3 x3 x2 (k2_pay2 xs0 x0 x1) := by
  unfold out2_C_4
  rw [View.read_writes_eq_canon _ _ _ (cover2_C_4 c t h0 h1 x0 x1 x2 x3 xs0)]
  unfold run2_C kernelRun2_C
  dsimp only
  sl_unfold_words
  rw [View.canon_unit_zero hz, View.readCov_unit_zero (S := S1024x1024) _ hz]
  simp only [View.readAt_eq_ld, (hs2_0 t).read_unread, (hs2_1 t).read_unread, (hs2_2 t).read_unread, (hs2_3 t).read_unread, (Memref.isWhole_whole cc2_scratch0).read_unread, View.ld_unit_zero (S := S1024x1024) hz, View.ld_unit_zero (S := S1x1024) hz]

/-- The first point of a row leaves in the accumulator the zero payload plus the product of the point's two blocks. -/
theorem sout_A (c : Dev nD) (t : Fin cfg2.N) (h0 : t.val % 4 = 0) (h1 : ¬t.val % 4 = 3) (x0 x1 : Vec F S1024x1024 .bf16) (x2 x3 : Vec F S1x1024 .f32) :
    sout2_A c t h0 h1 x0 x1 x2 x3 = k2_pay2 k2_pay1 x0 x1 := by
  unfold sout2_A
  rw [View.read_writes_eq_canon _ _ _ (scover2_A c t h0 h1 x0 x1 x2 x3)]
  unfold run2_A kernelRun2_A
  dsimp only
  sl_unfold_words
  rw [View.canon_cons_unit_zero (S := S1024x1024) hz, View.readCov_unit_zero (S := S1024x1024) _ hz]
  simp only [View.readAt_eq_ld, (hs2_0 t).read_unread, (hs2_1 t).read_unread, View.ld_unit_zero (S := S1024x1024) hz]

end Cert.KernelIdeal.Val2

end
-- ==== Proof.KIVal2b.lean ====
/-
  Region 2, where each window's block sits in its array: the block indices at every point of the grid in closed
  form, and each input block read at an entry as the array's entry at block index times block size plus the entry's
  own coordinate.
-/
import proofs.«139255_j55740085568003_2_alg».proof.Proof.KI2
import Idealize.ShloMosaic.Lib.ValueIdx
import Idealize.ShloMosaic.Lib.Pipeline.Value
import Idealize.ShloMosaic.Lib.Tactic

set_option maxRecDepth 16384

noncomputable section

open scoped BigOperators

namespace Cert.KernelIdeal.Val2

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Fr

variable {F : FTy → Type} [FloatOps F]
variable (V : (c : Dev nD) → (b : Ref sig .tc) → Buf (Elt F) ((c : Thread nD τ).loc b))

/-- The windows' block indices at every point of the grid, in closed form: point t is (k-tile, m-tile, step) = (t / 16, t / 4 % 4, t % 4). -/
theorem idx_facts : ∀ t : Fin cfg2.N,
    win2_0.index t (0 : Fin 2) = t.val % 4 ∧ win2_0.index t (1 : Fin 2) = t.val / 16
    ∧ win2_1.index t (0 : Fin 2) = t.val % 4 ∧ win2_1.index t (1 : Fin 2) = t.val / 4 % 4
    ∧ win2_2.index t (0 : Fin 2) = 0 ∧ win2_2.index t (1 : Fin 2) = t.val / 4 % 4
    ∧ win2_3.index t (0 : Fin 2) = 0 ∧ win2_3.index t (1 : Fin 2) = t.val / 16
    ∧ win2_4.index t (0 : Fin 2) = t.val / 16 ∧ win2_4.index t (1 : Fin 2) = t.val / 4 % 4 :=
  (by decide +kernel : ∀ t : Fin grid2.N,
    win2_0.index t (0 : Fin 2) = t.val % 4 ∧ win2_0.index t (1 : Fin 2) = t.val / 16
    ∧ win2_1.index t (0 : Fin 2) = t.val % 4 ∧ win2_1.index t (1 : Fin 2) = t.val / 4 % 4
    ∧ win2_2.index t (0 : Fin 2) = 0 ∧ win2_2.index t (1 : Fin 2) = t.val / 4 % 4
    ∧ win2_3.index t (0 : Fin 2) = 0 ∧ win2_3.index t (1 : Fin 2) = t.val / 16
    ∧ win2_4.index t (0 : Fin 2) = t.val / 16 ∧ win2_4.index t (1 : Fin 2) = t.val / 4 % 4)

/-- Window 0's block at point t, read at (r, k): the first product's entry (step * 1024 + r, k-tile * 1024 + k). -/
theorem blk0 (c : Dev nD) (t : Fin cfg2.N) (r k : Fin 1024) (a : Fin 4096) (b : Fin 2048)
    (ha : a.val = t.val % 4 * 1024 + r.val) (hb : b.val = t.val / 16 * 1024 + k.val) :
    iblk2 V c 0 t (ix2 r k) = V c main_v1_0 (ix2 a b) := by
  obtain ⟨e0, e1, -⟩ := idx_facts t
  unfold iblk2
  rw [View.read_apply]
  show V c main_v1_0 _ = V c main_v1_0 _
  congr 1
  funext d
  apply Fin.ext
  match d with
  | ⟨0, _⟩ => show win2_0.index t (0 : Fin 2) * 1024 + 1 * r.val = a.val; rw [e0, ha]; omega
  | ⟨1, _⟩ => show win2_0.index t (1 : Fin 2) * 1024 + 1 * k.val = b.val; rw [e1, hb]; omega

/-- Window 1's block at point t, read at (r, j): the second product's entry (step * 1024 + r, m-tile * 1024 + j). -/
theorem blk1 (c : Dev nD) (t : Fin cfg2.N) (r j : Fin 1024) (a : Fin 4096) (b : Fin 4096)
    (ha : a.val = t.val % 4 * 1024 + r.val) (hb : b.val = t.val / 4 % 4 * 1024 + j.val) :
    iblk2 V c 1 t (ix2 r j) = V c main_v0_0 (ix2 a b) := by
  obtain ⟨-, -, e0, e1, -⟩ := idx_facts t
  unfold iblk2
  rw [View.read_apply]
  show V c main_v0_0 _ = V c main_v0_0 _
  congr 1
  funext d
  apply Fin.ext
  match d with
  | ⟨0, _⟩ => show win2_1.index t (0 : Fin 2) * 1024 + 1 * r.val = a.val; rw [e0, ha]; omega
  | ⟨1, _⟩ => show win2_1.index t (1 : Fin 2) * 1024 + 1 * j.val = b.val; rw [e1, hb]; omega

/-- Window 2's block at point t, read at (0, j): the second squared length at m-tile * 1024 + j. -/
theorem blk2 (c : Dev nD) (t : Fin cfg2.N) (j : Fin 1024) (b : Fin 4096)
    (hb : b.val = t.val / 4 % 4 * 1024 + j.val) :
    iblk2 V c 2 t (ix2 (0 : Fin 1) j) = V c main_v0_1 (ix2 (0 : Fin 1) b) := by
  obtain ⟨-, -, -, -, e0, e1, -⟩ := idx_facts t
  unfold iblk2
  rw [View.read_apply]
  show V c main_v0_1 _ = V c main_v0_1 _
  congr 1
  funext d
  apply Fin.ext
  match d with
  | ⟨0, _⟩ => show win2_2.index t (0 : Fin 2) * 1 + 1 * 0 = 0; rw [e0]
  | ⟨1, _⟩ => show win2_2.index t (1 : Fin 2) * 1024 + 1 * j.val = b.val; rw [e1, hb]; omega

/-- Window 3's block at point t, read at (0, k): the first squared length at k-tile * 1024 + k. -/
theorem blk3 (c : Dev nD) (t : Fin cfg2.N) (k : Fin 1024) (b : Fin 2048)
    (hb : b.val = t.val / 16 * 1024 + k.val) :
    iblk2 V c 3 t (ix2 (0 : Fin 1) k) = V c main_v1_1 (ix2 (0 : Fin 1) b) := by
  obtain ⟨-, -, -, -, -, -, e0, e1, -⟩ := idx_facts t
  unfold iblk2
  rw [View.read_apply]
  show V c main_v1_1 _ = V c main_v1_1 _
  congr 1
  funext d
  apply Fin.ext
  match d with
  | ⟨0, _⟩ => show win2_3.index t (0 : Fin 2) * 1 + 1 * 0 = 0; rw [e0]
  | ⟨1, _⟩ => show win2_3.index t (1 : Fin 2) * 1024 + 1 * k.val = b.val; rw [e1, hb]; omega

end Cert.KernelIdeal.Val2

end
-- ==== Proof.Pay2.lean ====
/-
  The third kernel's values read at one index, over the extended reals.
  Its accumulator starts at zero; each step adds to entry (k, j) the sum over the rows n of a block of
  a(n, k) * b(n, j) (both operands are contracted along their rows); the last step turns the two squared lengths and
  the accumulated inner product into the distance.
-/
import proofs.«139255_j55740085568003_2_alg».proof.Proof.Gen.KernelIdeal.Skeleton
import proofs.«139255_j55740085568003_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- A column [a, 1] broadcast along the second axis to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's column is the result's row. -/
theorem lhs_rows_1 (i : S1024x1024.Idx) (q : dot_S1024x1024_S1024x1024_S1024x1024_0_0_1_1_n_n.contr.Idx) :
    (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide),
    dif_pos (show (1 : Fin S1024x1024.rank) ∈ dot_S1024x1024_S1024x1024_S1024x1024_0_0_1_1_n_n.lhsNonContracting by decide)]
  rfl

/-- The right operand's column is the result's column. -/
theorem rhs_rows_1 (i : S1024x1024.Idx) (q : dot_S1024x1024_S1024x1024_S1024x1024_0_0_1_1_n_n.contr.Idx) :
    (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide),
    dif_pos (show (1 : Fin S1024x1024.rank) ∈ dot_S1024x1024_S1024x1024_S1024x1024_0_0_1_1_n_n.rhsNonContracting by decide)]
  rfl

/-- The product that contracts the rows of both operands, into a zero accumulator, at (k, j): the sum over the rows n
    of a(n, k) * b(n, j). -/
theorem matmul_rows_apply (a b : FVec Ideal S1024x1024 .bf16) (k j : Fin 1024) :
    FloatOps.matmul dot_S1024x1024_S1024x1024_S1024x1024_0_0_1_1_n_n none a b
        (constant (F := Ideal) S1024x1024 .f32 0x00000000#32) (ix2 k j)
      = ∑ n : Fin 1024, a (ix2 n k) * b (ix2 n j) := by
  rw [Ideal.matmul_constant_zero_apply,
    ← Equiv.sum_comp (contrEquiv1 dot_S1024x1024_S1024x1024_S1024x1024_0_0_1_1_n_n 1024 rfl rfl).symm]
  refine Finset.sum_congr rfl fun n _ => ?_
  have hn := contrEquiv1_symm_val dot_S1024x1024_S1024x1024_S1024x1024_0_0_1_1_n_n 1024 rfl rfl n
  have el : dot_S1024x1024_S1024x1024_S1024x1024_0_0_1_1_n_n.lhsIdx (ix2 k j)
      ((contrEquiv1 dot_S1024x1024_S1024x1024_S1024x1024_0_0_1_1_n_n 1024 rfl rfl).symm n) = ix2 n k :=
    funext fun c => Fin.ext (by
      match c with
      | ⟨0, _⟩ =>
        exact (dot_S1024x1024_S1024x1024_S1024x1024_0_0_1_1_n_n.lhsIdx_val_of_single rfl _ _).trans hn
      | ⟨1, _⟩ => exact lhs_rows_1 _ _)
  have er : dot_S1024x1024_S1024x1024_S1024x1024_0_0_1_1_n_n.rhsIdx (ix2 k j)
      ((contrEquiv1 dot_S1024x1024_S1024x1024_S1024x1024_0_0_1_1_n_n 1024 rfl rfl).symm n) = ix2 n j :=
    funext fun c => Fin.ext (by
      match c with
      | ⟨0, _⟩ =>
        exact (dot_S1024x1024_S1024x1024_S1024x1024_0_0_1_1_n_n.rhsIdx_val_of_single rfl _ _).trans hn
      | ⟨1, _⟩ => exact rhs_rows_1 _ _)
  rw [el, er]

/-- The value stored at the first step: zero everywhere. -/
theorem pay2_1 (k j : Fin 1024) : k2_pay1 (F := Ideal) (ix2 k j) = Ideal.ofBits .f32 0x00000000#32 := by
  unfold k2_pay1
  simp only [shapeCast_self]
  rfl

/-- The same with the zero word read. -/
theorem pay2_1_zero (k j : Fin 1024) : k2_pay1 (F := Ideal) (ix2 k j) = 0 :=
  (pay2_1 k j).trans Ideal.ofBits_zero_f32

/-- The value stored at every step: the accumulator plus the block's contribution to the inner product. -/
theorem pay2_2 (acc : Vec Ideal S1024x1024 .f32) (a b : Vec Ideal S1024x1024 .bf16) (k j : Fin 1024) :
    k2_pay2 acc a b (ix2 k j) = acc (ix2 k j) + ∑ n : Fin 1024, a (ix2 n k) * b (ix2 n j) := by
  unfold k2_pay2
  simp only [shapeCast_self]
  exact congrArg (acc (ix2 k j) + ·) (matmul_rows_apply a b k j)

/-- The value stored at the last step: the distance made of the two squared lengths and the accumulated inner product. -/
theorem pay2_3 (sc sm : Vec Ideal S1x1024 .f32) (acc : Vec Ideal S1024x1024 .f32) (k j : Fin 1024) :
    k2_pay3 sc sm acc (ix2 k j)
      = Cert.DistSpec.finish (sm (ix2 (0 : Fin 1) j)) (acc (ix2 k j)) (sc (ix2 (0 : Fin 1) k)) := by
  unfold k2_pay3
  simp only [shapeCast_self]
  show Ideal.sqrt (max ((broadcastTo S1024x1024 sm broadcasts_S1x1024_S1024x1024 (ix2 k j)
      - Ideal.ofBits .f32 0x40000000#32 * acc (ix2 k j))
      + broadcastTo S1024x1024 (transpose S1024x1 [1, 0] sc transposes_S1x1024_p1_0_S1024x1) broadcasts_S1024x1_S1024x1024 (ix2 k j))
      (Ideal.ofBits .f32 0x00000000#32)) = _
  rw [broadcastTo_1b_ab_apply, broadcastTo_a1_ab_apply, transpose_ix2_apply]
  rfl

end Cert.KernelIdeal.Pay

end
-- ==== Proof.KIVal2c.lean ====
/-
  Region 2, the accumulator over the extended reals. At entry (k, j) the first point of a row of the grid leaves
  zero plus the point's contribution, the sum over the 1024 rows r of the two blocks of a(r, k) * b(r, j); every later
  point adds its own contribution. The blocks of step s are rows s * 1024 … s * 1024 + 1023 of the two products, so
  after step s of a row the accumulator holds the first s + 1 tiles of the inner product of column K of the first
  product with column J of the second, and after the fourth step the whole inner product over the 4096 rows.
-/
import proofs.«139255_j55740085568003_2_alg».proof.Proof.KIVal2a
import proofs.«139255_j55740085568003_2_alg».proof.Proof.KIVal2b
import proofs.«139255_j55740085568003_2_alg».proof.Proof.Pay2
import proofs.«139255_j55740085568003_2_alg».proof.Proof.LibTileSum

set_option maxRecDepth 16384

noncomputable section

open scoped BigOperators

namespace Cert.KernelIdeal.Val2

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b)) (c : Dev nD)

/-- The four arrays the region finds, read as arrays of extended reals: the first product (4096 by 2048), the second
    product (4096 by 4096), the second's squared column lengths (1 by 4096) and the first's (1 by 2048). -/
abbrev aXC : (⟨2, ![4096, 2048]⟩ : Shape).Idx → EReal := V c main_v1_0
abbrev aXM : (⟨2, ![4096, 4096]⟩ : Shape).Idx → EReal := V c main_v0_0
abbrev aSM : (⟨2, ![1, 4096]⟩ : Shape).Idx → EReal := V c main_v0_1
abbrev aSC : (⟨2, ![1, 2048]⟩ : Shape).Idx → EReal := V c main_v1_1

/-- The inner product of column k of one block with column j of another, over the block's 1024 rows. -/
def dotCol (a b : Vec Ideal S1024x1024 .bf16) (k j : Fin 1024) : EReal := ∑ r : Fin 1024, a (ix2 r k) * b (ix2 r j)

/-- Tile s (rows s * 1024 … s * 1024 + 1023) of the inner product of column K of the first product with column J of
    the second; zero past the fourth tile. -/
def tile (K : Fin 2048) (J : Fin 4096) (s : ℕ) : EReal :=
  if h : s < 4 then
    ∑ r : Fin 1024, aXC V c (ix2 (⟨s * 1024 + r.val, by omega⟩ : Fin 4096) K) * aXM V c (ix2 (⟨s * 1024 + r.val, by omega⟩ : Fin 4096) J)
  else 0

/-- The contribution of point t at entry (k, j) is the tile of its step. -/
theorem contrib_eq (t : Fin cfg2.N) (k j : Fin 1024) (K : Fin 2048) (J : Fin 4096)
    (hK : K.val = t.val / 16 * 1024 + k.val) (hJ : J.val = t.val / 4 % 4 * 1024 + j.val) :
    dotCol (iblk2 V c 0 t) (iblk2 V c 1 t) k j = tile V c K J (t.val % 4) := by
  have h4 : t.val % 4 < 4 := Nat.mod_lt _ (by decide)
  unfold tile dotCol
  rw [dif_pos h4]
  refine Finset.sum_congr rfl fun r _ => ?_
  exact congrArg₂ (fun x y : EReal => x * y)
    (blk0 V c t r k ⟨t.val % 4 * 1024 + r.val, by omega⟩ K rfl hK)
    (blk1 V c t r j ⟨t.val % 4 * 1024 + r.val, by omega⟩ J rfl hJ)

/-- After the first point of a row the accumulator holds zero plus the point's contribution. -/
theorem scr_A (t : Fin cfg2.N) (h0 : t.val % 4 = 0) (k j : Fin 1024) :
    (outsAt2 V c t).2 (ix2 k j) = 0 + dotCol (iblk2 V c 0 t) (iblk2 V c 1 t) k j := by
  have h1 : ¬t.val % 4 = 3 := by omega
  unfold outsAt2
  rw [step2_A V c t (prevAt2 V c t) h0 h1]
  dsimp only
  rw [sout_A (F := Ideal) c t h0 h1 (iblk2 V c 0 t) (iblk2 V c 1 t) (iblk2 V c 2 t) (iblk2 V c 3 t)]
  refine (Pay.pay2_2 (k2_pay1 (F := Ideal)) (iblk2 V c 0 t) (iblk2 V c 1 t) k j).trans ?_
  rw [Pay.pay2_1_zero]
  rfl

/-- After any later point it holds what it held before plus the point's contribution. -/
theorem scr_BC (t : Fin cfg2.N) (h0 : ¬t.val % 4 = 0) (k j : Fin 1024) :
    (outsAt2 V c t).2 (ix2 k j) = prevAt2 V c t (ix2 k j) + dotCol (iblk2 V c 0 t) (iblk2 V c 1 t) k j := by
  unfold outsAt2
  by_cases h1 : t.val % 4 = 3
  · rw [step2_C V c t (prevAt2 V c t) h0 h1]
    dsimp only
    rw [sout_C (F := Ideal) c t h0 h1 (iblk2 V c 0 t) (iblk2 V c 1 t) (iblk2 V c 2 t) (iblk2 V c 3 t) (prevAt2 V c t)]
    exact Pay.pay2_2 (prevAt2 V c t) (iblk2 V c 0 t) (iblk2 V c 1 t) k j
  · rw [step2_B V c t (prevAt2 V c t) h0 h1]
    dsimp only
    rw [sout_B (F := Ideal) c t h0 h1 (iblk2 V c 0 t) (iblk2 V c 1 t) (iblk2 V c 2 t) (iblk2 V c 3 t) (prevAt2 V c t)]
    exact Pay.pay2_2 (prevAt2 V c t) (iblk2 V c 0 t) (iblk2 V c 1 t) k j

/-- At the last point of a row the result's buffer holds the distance made of the two squared lengths' blocks and
    the accumulator after the point. -/
theorem out_C_at (t : Fin cfg2.N) (h1 : t.val % 4 = 3) (k j : Fin 1024) :
    (outsAt2 V c t).1 (ix2 k j)
      = Cert.DistSpec.finish (iblk2 V c 2 t (ix2 (0 : Fin 1) j)) ((outsAt2 V c t).2 (ix2 k j)) (iblk2 V c 3 t (ix2 (0 : Fin 1) k)) := by
  have h0 : ¬t.val % 4 = 0 := by omega
  unfold outsAt2
  rw [step2_C V c t (prevAt2 V c t) h0 h1]
  dsimp only
  rw [out_C (F := Ideal) c t h0 h1 (iblk2 V c 0 t) (iblk2 V c 1 t) (iblk2 V c 2 t) (iblk2 V c 3 t) (prevAt2 V c t),
    sout_C (F := Ideal) c t h0 h1 (iblk2 V c 0 t) (iblk2 V c 1 t) (iblk2 V c 2 t) (iblk2 V c 3 t) (prevAt2 V c t)]
  exact Pay.pay2_3 (iblk2 V c 3 t) (iblk2 V c 2 t) (k2_pay2 (prevAt2 V c t) (iblk2 V c 0 t) (iblk2 V c 1 t)) k j

/-- The invariant: after point n, at entry (k, j) of the block of columns (K, J), the accumulator holds the tiles of
    the steps so far in n's row. By induction on the point. -/
theorem scr_inv (k j : Fin 1024) (K : Fin 2048) (J : Fin 4096) : ∀ (n : ℕ) (hn : n < cfg2.N),
    K.val = n / 16 * 1024 + k.val → J.val = n / 4 % 4 * 1024 + j.val →
    scrAt2 V c n hn (ix2 k j) = ∑ s ∈ Finset.range (n % 4 + 1), tile V c K J s := by
  intro n
  induction n with
  | zero =>
    intro hn hK hJ
    refine (congrFun (scrAt2_eq V c ⟨0, hn⟩) (ix2 k j)).trans ?_
    rw [scr_A V c ⟨0, hn⟩ rfl k j, contrib_eq V c ⟨0, hn⟩ k j K J hK hJ, zero_add]
    exact (Finset.sum_range_one _).symm
  | succ n ih =>
    intro hn hK hJ
    refine (congrFun (scrAt2_eq V c ⟨n + 1, hn⟩) (ix2 k j)).trans ?_
    by_cases h0 : (n + 1) % 4 = 0
    · rw [scr_A V c ⟨n + 1, hn⟩ h0 k j, contrib_eq V c ⟨n + 1, hn⟩ k j K J hK hJ, zero_add]
      show tile V c K J ((n + 1) % 4) = _
      rw [h0]
      exact (Finset.sum_range_one _).symm
    · rw [scr_BC V c ⟨n + 1, hn⟩ h0 k j, contrib_eq V c ⟨n + 1, hn⟩ k j K J hK hJ,
        prevAt2_pos V c ⟨n + 1, hn⟩ (Nat.succ_ne_zero n)]
      show scrAt2 V c n (Nat.lt_of_succ_lt hn) (ix2 k j) + tile V c K J ((n + 1) % 4) = _
      rw [ih (Nat.lt_of_succ_lt hn) (by omega) (by omega)]
      have e : (n + 1) % 4 = n % 4 + 1 := by omega
      rw [e, Finset.sum_range_succ _ (n % 4 + 1)]

/-- The four tiles make the whole inner product over the 4096 rows. -/
theorem tiles_eq (K : Fin 2048) (J : Fin 4096) :
    ∑ s ∈ Finset.range 4, tile V c K J s = ∑ n : Fin 4096, aXC V c (ix2 n K) * aXM V c (ix2 n J) := by
  rw [Cert.LibTileSum.sum_4096_4x1024 (fun n : Fin 4096 => aXC V c (ix2 n K) * aXM V c (ix2 n J)),
    ← Cert.LibTileSum.sum_fin_eq_range 4 (tile V c K J)]
  refine Finset.sum_congr rfl fun b _ => ?_
  unfold tile
  rw [dif_pos b.isLt]

/-- So after the last point of a row the accumulator holds the whole inner product. -/
theorem scr_last (t : Fin cfg2.N) (h1 : t.val % 4 = 3) (k j : Fin 1024) (K : Fin 2048) (J : Fin 4096)
    (hK : K.val = t.val / 16 * 1024 + k.val) (hJ : J.val = t.val / 4 % 4 * 1024 + j.val) :
    (outsAt2 V c t).2 (ix2 k j) = ∑ n : Fin 4096, aXC V c (ix2 n K) * aXM V c (ix2 n J) := by
  refine (congrFun (scrAt2_eq V c t) (ix2 k j)).symm.trans ?_
  rw [scr_inv V c k j K J t.val t.isLt hK hJ, h1]
  exact tiles_eq V c K J

end Cert.KernelIdeal.Val2

end
-- ==== Proof.KIVal2.lean ====
/-
  Region 2, the result array after the run. The result's window is written back only at the last point of each row
  of the grid; there its buffer holds, at entry (k, j) of block (k-tile, m-tile), the distance made of the second
  squared length at column J = m-tile * 1024 + j, the whole inner product of columns K and J, and the first squared
  length at column K = k-tile * 1024 + k: block (k-tile, m-tile) of one function of the arrays the region finds.
  The eight last points' blocks tile the 2048 by 4096 array, so it ends holding that function everywhere.
-/
import proofs.«139255_j55740085568003_2_alg».proof.Proof.KIVal2c
import proofs.«139255_j55740085568003_2_alg».proof.Proof.SpecCross

set_option maxRecDepth 16384

noncomputable section

open scoped BigOperators

namespace Cert.KernelIdeal.Val2

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b)) (c : Dev nD)

/-- The whole result array: at (K, J) the distance from the four arrays the region finds. -/
def distArr : (⟨2, ![2048, 4096]⟩ : Shape).Idx → EReal :=
  fun i => Cert.DistSpec.distOf (aXC V c) (aXM V c) (aSM V c) (aSC V c) (i 0) (i 1)

/-- At the last point of a row the result's buffer holds, at (k, j), the distance at the block's columns. -/
theorem flushed_at (t : Fin cfg2.N) (h1 : t.val % 4 = 3) (k j : Fin 1024) (K : Fin 2048) (J : Fin 4096)
    (hK : K.val = t.val / 16 * 1024 + k.val) (hJ : J.val = t.val / 4 % 4 * 1024 + j.val) :
    (outsAt2 V c t).1 (ix2 k j) = Cert.DistSpec.distOf (aXC V c) (aXM V c) (aSM V c) (aSC V c) K J := by
  rw [out_C_at V c t h1 k j, scr_last V c t h1 k j K J hK hJ, blk2 V c t j J hJ, blk3 V c t k K hK]
  rfl

/-- What a flushing point writes back is its block of the whole result array. -/
theorem flushed_eq (t : Fin cfg2.N) (hf : (cfg2.win 4).flush t = true) :
    (dat2 V c).flushed 4 t = ((cfg2.win 4).blk t).view.read (Elt Ideal) (distArr V c) := by
  have h1 : t.val % 4 = 3 := (flush2_4 t).mp hf
  obtain ⟨-, -, -, -, -, -, -, -, e0, e1⟩ := idx_facts t
  show (cfg2.win 4).cut (grid2.coords t) ((dat2 V c).after 4 t) = _
  rw [after2_4]
  funext y
  rw [View.read_apply]
  show (outsAt2 V c t).1 y = Cert.DistSpec.distOf (aXC V c) (aXM V c) (aSM V c) (aSC V c)
    ((((cfg2.win 4).blk t).view.emb y) 0) ((((cfg2.win 4).blk t).view.emb y) 1)
  refine (congrArg (outsAt2 V c t).1 (eq_ix2 y)).trans ?_
  refine flushed_at V c t h1 (y 0) (y 1) _ _ ?_ ?_
  · show win2_4.index t (0 : Fin 2) * 1024 + 1 * (y 0).val = t.val / 16 * 1024 + (y 0).val
    rw [e0]; omega
  · show win2_4.index t (1 : Fin 2) * 1024 + 1 * (y 1).val = t.val / 4 % 4 * 1024 + (y 1).val
    rw [e1]; omega

/-- An index of the array is in point t's block iff each coordinate is in the block's range on its axis. -/
theorem mem_blk (t : Fin cfg2.N) (i : (⟨2, ![2048, 4096]⟩ : Shape).Idx) :
    i ∈ ((cfg2.win 4).blk t).view.set ↔ ∀ a : Fin 2, win2_4.index t a * S1024x1024.size a ≤ (i a).val ∧ (i a).val < win2_4.index t a * S1024x1024.size a + S1024x1024.size a := by
  show i ∈ ((View.whole main_v2).slice (win2_4.rect t)).set ↔ _
  rw [View.set_slice_whole, Rect.mem_set_unit]
  exact Iff.rfl

/-- Every index of the array is in the block of the last point of some row. -/
theorem cover (i : (⟨2, ![2048, 4096]⟩ : Shape).Idx) :
    ∃ t : Fin cfg2.N, (cfg2.win 4).flush t = true ∧ i ∈ ((cfg2.win 4).blk t).view.set := by
  have hi0 : (i 0).val < 2048 := (i 0).isLt
  have hi1 : (i 1).val < 4096 := (i 1).isLt
  have hN : cfg2.N = 32 := N_2
  have hlt : 16 * ((i 0).val / 1024) + 4 * ((i 1).val / 1024) + 3 < cfg2.N := by rw [hN]; omega
  refine ⟨⟨16 * ((i 0).val / 1024) + 4 * ((i 1).val / 1024) + 3, hlt⟩, ?_, ?_⟩
  · refine (flush2_4 _).mpr ?_
    show (16 * ((i 0).val / 1024) + 4 * ((i 1).val / 1024) + 3) % 4 = 3
    omega
  · obtain ⟨-, -, -, -, -, -, -, -, e0, e1⟩ := idx_facts ⟨16 * ((i 0).val / 1024) + 4 * ((i 1).val / 1024) + 3, hlt⟩
    have e0' : win2_4.index ⟨16 * ((i 0).val / 1024) + 4 * ((i 1).val / 1024) + 3, hlt⟩ (0 : Fin 2) = (16 * ((i 0).val / 1024) + 4 * ((i 1).val / 1024) + 3) / 16 := e0
    have e1' : win2_4.index ⟨16 * ((i 0).val / 1024) + 4 * ((i 1).val / 1024) + 3, hlt⟩ (1 : Fin 2) = (16 * ((i 0).val / 1024) + 4 * ((i 1).val / 1024) + 3) / 4 % 4 := e1
    rw [mem_blk]
    intro a
    match a with
    | ⟨0, _⟩ =>
      show win2_4.index _ (0 : Fin 2) * 1024 ≤ (i 0).val ∧ (i 0).val < win2_4.index _ (0 : Fin 2) * 1024 + 1024
      rw [e0']; omega
    | ⟨1, _⟩ =>
      show win2_4.index _ (1 : Fin 2) * 1024 ≤ (i 1).val ∧ (i 1).val < win2_4.index _ (1 : Fin 2) * 1024 + 1024
      rw [e1']; omega

/-- The result array after the run is the whole result array of distances. -/
theorem final : (dat2 V c).arrAt 4 cfg2.N = distArr V c :=
  (dat2 V c).arrAt_eq_of_cover 4 (distArr V c) (flushed_eq V c) cover

/-- The result array after the run, read at (k, j): the distance made of the second squared length at j, the inner
    product over the 4096 rows of column k of the first product with column j of the second, and the first squared
    length at k. -/
theorem val2 (k : Fin 2048) (j : Fin 4096) :
    (dat2 (F := Ideal) V c).arrAt 4 cfg2.N (ix2 k j)
      = Cert.DistSpec.distOf (V c main_v1_0) (V c main_v0_0) (V c main_v0_1) (V c main_v1_1) k j :=
  congrFun (final V c) (ix2 k j)

end Cert.KernelIdeal.Val2

end
-- ==== Proof.KIDist.lean ====
/-
  The kernel program computes the specification's distance array.
  Region 0 leaves the product X M and, summed over the row tiles, the squared lengths of its columns; region 1 the
  same for X Cᵀ; region 2 reads the four arrays and leaves, at (k, j), the last step of the specification applied
  to summ j, to the inner product of column k of X Cᵀ with column j of X M summed over the row tiles, and to sumc k.
  Put together at the contents each region is entered with, the result array at the end is the specification's dist
  of the argument arrays as launched. The sums over tiles are the specification's sums re-associated; nothing here
  needs the inputs finite.
-/
import proofs.«139255_j55740085568003_2_alg».proof.Proof.KIFrame
import proofs.«139255_j55740085568003_2_alg».proof.Proof.Spec
import proofs.«139255_j55740085568003_2_alg».proof.Proof.SpecCross
import proofs.«139255_j55740085568003_2_alg».proof.Proof.KIVal0
import proofs.«139255_j55740085568003_2_alg».proof.Proof.KIW1
import proofs.«139255_j55740085568003_2_alg».proof.Proof.KIVal2
import Idealize.ShloMosaic.Lib.ValueIdx

noncomputable section

open scoped BigOperators

namespace Cert.KernelIdeal.Fr

open Idealize.ShloMosaic Idealize.ShloMosaic.TcCoe Idealize.SL.Sem
open Idealize.ShloMosaic.ValueIdx Cert.KernelIdeal Cert.KernelIdeal.Gen Cert.DistSpec

/-- The last step on four arrays that hold the two products and the two vectors of squared lengths is the
    specification's distance at (k, j): the inner product over the rows is the specification's cross. -/
theorem distAt_of_parts (X : SX.Idx → EReal) (M : SM.Idx → EReal) (C : SC.Idx → EReal)
    (pm : (⟨2, ![4096, 4096]⟩ : Shape).Idx → EReal) (sm : (⟨2, ![1, 4096]⟩ : Shape).Idx → EReal)
    (pc : (⟨2, ![4096, 2048]⟩ : Shape).Idx → EReal) (sc : (⟨2, ![1, 2048]⟩ : Shape).Idx → EReal)
    (hpm : ∀ (n j : Fin 4096), pm (ix2 n j) = xm X M n j) (hsm : ∀ j : Fin 4096, sm (ix2 (0 : Fin 1) j) = summ X M j)
    (hpc : ∀ (n : Fin 4096) (k : Fin 2048), pc (ix2 n k) = xc X C n k) (hsc : ∀ k : Fin 2048, sc (ix2 (0 : Fin 1) k) = sumc X C k)
    (k : Fin 2048) (j : Fin 4096) :
    distOf pc pm sm sc k j = distAt X M C k j := by
  unfold distOf crossOf distAt cross
  rw [hsm, hsc, Finset.sum_congr rfl fun n _ => by rw [hpc, hpm]]

/-- At the end of the run the result array holds the specification's distance array of the launch contents of the
    three arguments. -/
theorem W3_main_v2_dist (m : (ℓ : Loc nD τ sig) → Buf (Elt Ideal) ℓ) (ρ : Dev nD → PrngReg) (c : Dev nD) :
    W3 (F := Ideal) m ρ c (Proc.devRef .tc main_v2)
      = Cert.DistSpec.dist (m ((c : Thread nD τ).loc main_arg0)) (m ((c : Thread nD τ).loc main_arg1)) (m ((c : Thread nD τ).loc main_arg2)) := by
  refine (W3_main_v2 (F := Ideal) m ρ c).trans ?_
  funext i
  obtain ⟨k, j, rfl⟩ : ∃ (k : Fin 2048) (j : Fin 4096), i = ix2 k j := ⟨i 0, i 1, eq_ix2 i⟩
  refine (Val2.val2 (V2 (F := Ideal) m ρ) c k j).trans ?_
  have hpc : ∀ (n : Fin 4096) (k : Fin 2048), V2 (F := Ideal) m ρ c main_v1_0 (ix2 n k)
      = xc (m ((c : Thread nD τ).loc main_arg0)) (m ((c : Thread nD τ).loc main_arg2)) n k := fun n k => by
    refine (congrFun (V2_main_v1_0 (F := Ideal) m ρ c) (ix2 n k)).trans ((Val1.val1_xc (V1 (F := Ideal) m ρ) c n k).trans ?_)
    rw [V1_main_arg0, V1_main_arg2]
  have hsc : ∀ k : Fin 2048, V2 (F := Ideal) m ρ c main_v1_1 (ix2 (0 : Fin 1) k)
      = sumc (m ((c : Thread nD τ).loc main_arg0)) (m ((c : Thread nD τ).loc main_arg2)) k := fun k => by
    refine (congrFun (V2_main_v1_1 (F := Ideal) m ρ c) (ix2 (0 : Fin 1) k)).trans ((Val1.val1_sumc (V1 (F := Ideal) m ρ) c k).trans ?_)
    rw [V1_main_arg0, V1_main_arg2]
  exact distAt_of_parts (m ((c : Thread nD τ).loc main_arg0)) (m ((c : Thread nD τ).loc main_arg1)) (m ((c : Thread nD τ).loc main_arg2))
    (V2 (F := Ideal) m ρ c main_v0_0) (V2 (F := Ideal) m ρ c main_v0_1) (V2 (F := Ideal) m ρ c main_v1_0) (V2 (F := Ideal) m ρ c main_v1_1)
    (fun n j => (congrFun (V2_main_v0_0 (F := Ideal) m ρ c) (ix2 n j)).trans (Val0.val0_xm (V0 (F := Ideal) m ρ) c n j))
    (fun j => (congrFun (V2_main_v0_1 (F := Ideal) m ρ c) (ix2 (0 : Fin 1) j)).trans (Val0.val0_summ (V0 (F := Ideal) m ρ) c j))
    hpc hsc k j

/-- Every weakly fair execution of the kernel program terminates with its result array at the specification's
    distance array of the argument arrays as they were at the start, and the argument arrays unchanged. -/
theorem run_dist (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread nD τ).loc main_v2)
          = Cert.DistSpec.dist (m ((c.tc : Thread nD τ).loc main_arg0)) (m ((c.tc : Thread nD τ).loc main_arg1))
              (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c =>
    ⟨(h c _ (mem_uc main_v2 (by decide))).trans (W3_main_v2_dist m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all (F := Ideal) m ρ)

end Cert.KernelIdeal.Fr

end
-- ==== Proof.RefStages.lean ====
/-
  The reference program read stage by stage at an index, in the vocabulary of the shared specification.
  Each of its three matrix products is a sum over the contracted axis, each of its two column sums a sum over the
  rows starting from zero, and its transposes and broadcasts only re-index; so at the index (k, j) the three
  arrays that meet in the last step are the squared length summ j, the inner product cross k j and the squared
  length sumc k of the specification.
-/
import proofs.«139255_j55740085568003_2_alg».proof.Defs
import proofs.«139255_j55740085568003_2_alg».proof.Proof.Gen.ReferenceIdeal.Run
import proofs.«139255_j55740085568003_2_alg».proof.Proof.Gen.ReferenceIdeal.Read
import proofs.«139255_j55740085568003_2_alg».proof.Proof.Spec

noncomputable section

open scoped BigOperators

namespace Cert.ReferenceIdeal.RefValue

open Idealize.ShloMosaic Idealize.ShloMosaic.TcCoe Idealize.SL.Sem Cert.ReferenceIdeal
open Idealize.ShloMosaic.ValueIdx Cert.ReferenceIdeal.Read Cert.DistSpec

/-- Entry (n, j) of the first product is the specification's xm. -/
theorem v0_at (X : FVec Ideal S4096x512 .f32) (M : FVec Ideal S512x4096 .f32) (n : Fin 4096) (j : Fin 4096) :
    val_main_v0 (F := Ideal) X M (ix2 n j) = xm X M n j := by
  rw [val_main_v0_apply]
  unfold xm
  refine Finset.sum_congr rfl fun d _ => ?_
  have el : lidx_main_v0 (ix2 n j) d = ix2 n d :=
    funext fun a => Fin.ext (by match a with | ⟨0, _⟩ => rfl | ⟨1, _⟩ => rfl)
  have er : ridx_main_v0 (ix2 n j) d = ix2 d j :=
    funext fun a => Fin.ext (by match a with | ⟨0, _⟩ => rfl | ⟨1, _⟩ => rfl)
  rw [el, er]

/-- Entry (n, k) of the second product, taken against the transposed centroids, is the specification's xc. -/
theorem v2_at (X : FVec Ideal S4096x512 .f32) (C : FVec Ideal S2048x512 .f32) (n : Fin 4096) (k : Fin 2048) :
    val_main_v2 (F := Ideal) X C (ix2 n k) = xc X C n k := by
  rw [val_main_v2_apply]
  unfold xc
  refine Finset.sum_congr rfl fun d _ => ?_
  rw [val_main_v1_apply]
  have el : lidx_main_v2 (ix2 n k) d = ix2 n d :=
    funext fun a => Fin.ext (by match a with | ⟨0, _⟩ => rfl | ⟨1, _⟩ => rfl)
  have er : idx_main_v1 (ridx_main_v2 (ix2 n k) d) = ix2 k d :=
    funext fun a => Fin.ext (by match a with | ⟨0, _⟩ => rfl | ⟨1, _⟩ => rfl)
  rw [el, er]

/-- The first column sum: entry j is the squared length of column j of the first product. -/
theorem v4_at (X : FVec Ideal S4096x512 .f32) (M : FVec Ideal S512x4096 .f32) (j : Fin 4096) :
    val_main_v4 (F := Ideal) X M (ix1 j) = summ X M j := by
  rw [val_main_v4_apply, val_main_cst_apply, Ideal.ofBits_def, Ideal.ofBits_zero_f32, zero_add]
  unfold summ
  refine Finset.sum_congr rfl fun n _ => ?_
  have e : idx_main_v4 (ix1 j) n = ix2 n j :=
    funext fun a => Fin.ext (by match a with | ⟨0, _⟩ => rfl | ⟨1, _⟩ => rfl)
  rw [e, val_main_v3_apply, Ideal.mulf_def, v0_at]

/-- The second column sum: entry k is the squared length of column k of the second product. -/
theorem v13_at (X : FVec Ideal S4096x512 .f32) (C : FVec Ideal S2048x512 .f32) (k : Fin 2048) :
    val_main_v13 (F := Ideal) X C (ix1 k) = sumc X C k := by
  rw [val_main_v13_apply, val_main_cst_1_apply, Ideal.ofBits_def, Ideal.ofBits_zero_f32, zero_add]
  unfold sumc
  refine Finset.sum_congr rfl fun n _ => ?_
  have e : idx_main_v13 (ix1 k) n = ix2 n k :=
    funext fun a => Fin.ext (by match a with | ⟨0, _⟩ => rfl | ⟨1, _⟩ => rfl)
  rw [e, val_main_v12_apply, Ideal.mulf_def, v2_at]

/-- The third product, of the transposed second product with the first: entry (k, j) is the inner product of
    column k of the second with column j of the first. -/
theorem v7_at (X : FVec Ideal S4096x512 .f32) (M : FVec Ideal S512x4096 .f32) (C : FVec Ideal S2048x512 .f32)
    (k : Fin 2048) (j : Fin 4096) :
    val_main_v7 (F := Ideal) X M C (ix2 k j) = cross X M C k j := by
  rw [val_main_v7_apply]
  unfold cross
  refine Finset.sum_congr rfl fun n _ => ?_
  rw [val_main_v6_apply]
  have el : idx_main_v6 (lidx_main_v7 (ix2 k j) n) = ix2 n k :=
    funext fun a => Fin.ext (by match a with | ⟨0, _⟩ => rfl | ⟨1, _⟩ => rfl)
  have er : ridx_main_v7 (ix2 k j) n = ix2 n j :=
    funext fun a => Fin.ext (by match a with | ⟨0, _⟩ => rfl | ⟨1, _⟩ => rfl)
  rw [el, er, v2_at, v0_at]

end Cert.ReferenceIdeal.RefValue

end
-- ==== Proof.RefSide.lean ====
/-
  The reference program computes the specification's distance array.
  At the index (k, j) its last four operations are: the broadcast row summ j minus the literal 2 times the inner
  product cross k j, plus the broadcast column sumc k, the maximum with the literal 0, and the square root; the
  three arrays are read in the stage module. The run of the program then ends with the result array equal to
  the specification's dist of the argument arrays, the arguments unchanged, and dropping the result gives the frame.
-/
import proofs.«139255_j55740085568003_2_alg».proof.Defs
import proofs.«139255_j55740085568003_2_alg».proof.Proof.Gen.ReferenceIdeal
import proofs.«139255_j55740085568003_2_alg».proof.Proof.Gen.Pre_finite_inputs
import proofs.«139255_j55740085568003_2_alg».proof.Proof.Gen.ReferenceIdeal.Run
import proofs.«139255_j55740085568003_2_alg».proof.Proof.Gen.ReferenceIdeal.Read
import proofs.«139255_j55740085568003_2_alg».proof.Proof.Spec
import proofs.«139255_j55740085568003_2_alg».proof.Proof.RefStages

noncomputable section

open scoped BigOperators

namespace Cert.ReferenceIdeal.RefValue

open Idealize.ShloMosaic Idealize.ShloMosaic.TcCoe Idealize.SL.Sem Cert.ReferenceIdeal
open Idealize.ShloMosaic.ValueIdx Cert.ReferenceIdeal.Read Cert.DistSpec

/-- The last stage of the reference, as a function of the three argument arrays, is the specification's distance
    array: index by index, sqrt (max ((summ j - 2 * cross k j) + sumc k) 0). -/
theorem result_eq (X : FVec Ideal S4096x512 .f32) (M : FVec Ideal S512x4096 .f32) (C : FVec Ideal S2048x512 .f32) :
    val_main_v19 (F := Ideal) X M C = Cert.DistSpec.dist X M C := by
  funext i
  obtain ⟨k, j, rfl⟩ : ∃ (k : Fin 2048) (j : Fin 4096), i = ix2 k j := ⟨i 0, i 1, eq_ix2 i⟩
  have e4 : idx_main_v5 (idx_main_v10 (ix2 k j)) = ix1 j :=
    funext fun a => Fin.ext (by match a with | ⟨0, _⟩ => rfl)
  have e13 : idx_main_v14 (idx_main_v15 (ix2 k j)) = ix1 k :=
    funext fun a => Fin.ext (by match a with | ⟨0, _⟩ => rfl)
  rw [val_main_v19_apply, val_main_v18_apply, val_main_v16_apply, val_main_v11_apply, val_main_v10_apply,
    val_main_v5_apply, val_main_v9_apply, val_main_v8_apply, val_main_cst_0_apply, val_main_v15_apply,
    val_main_v14_apply, val_main_v17_apply, val_main_cst_2_apply, e4, e13, v4_at, v7_at, v13_at]
  rfl

/-- Every weakly fair execution of the reference terminates with its result array at the specification's distance
    array of the argument arrays as they were at the start, and the argument arrays unchanged. -/
theorem run_dist (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v19)
          = Cert.DistSpec.dist (m ((c.tc : Thread nD τ).loc main_arg0)) (m ((c.tc : Thread nD τ).loc main_arg1))
              (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run Cert.ReferenceIdeal.defs _ _).mono
    (fun _ h c => ⟨((h c).1.trans (val_main_v19_eq (F := Ideal) _ _ _)).trans (result_eq _ _ _), (h c).2⟩)
    (Cert.ReferenceIdeal.Value.run (F := Ideal) m ρ)

/-- The reference runs and leaves its argument arrays as they were: its run with the result dropped. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The proof of the certificate's claim.
  Three kernels compute dist[k, j] = sqrt (max (summ j - 2 * cross k j + sumc k, 0)): the first the product X M and
  the squared lengths of its columns, the second the same for X Cᵀ, each accumulating its column sums over the row
  tiles; the third the inner products of the columns of the two products, accumulated over the row tiles, and the
  last step. The reference computes the same three sums whole. On the extended reals sums are commutative and
  associative, so the tiles' partial sums re-associate into the whole sums and both programs compute the one
  specification (Proof/Spec.lean); no finiteness of the inputs is used anywhere. The frames are the programs' runs
  with the result dropped; the two format changes of the kernel are the identity at the ideal instance.
-/
import proofs.«139255_j55740085568003_2_alg».proof.Defs
import proofs.«139255_j55740085568003_2_alg».proof.Proof.Gen.Kernel
import proofs.«139255_j55740085568003_2_alg».proof.Proof.Gen.KernelIdeal
import proofs.«139255_j55740085568003_2_alg».proof.Proof.Gen.ReferenceIdeal
import proofs.«139255_j55740085568003_2_alg».proof.Proof.Gen.Pre_finite_inputs
import proofs.«139255_j55740085568003_2_alg».proof.Proof.KBFrame
import proofs.«139255_j55740085568003_2_alg».proof.Proof.KIFrame
import proofs.«139255_j55740085568003_2_alg».proof.Proof.KIDist
import proofs.«139255_j55740085568003_2_alg».proof.Proof.RefSide
import Idealize.ShloMosaic.Adequacy
import Idealize.ShloMosaic.Init

noncomputable section

namespace Cert.Proof

open Idealize.ShloMosaic Idealize.ShloMosaic.TcCoe Idealize.SL.Sem

/-- At the ideal instance both programs end with the result array at the specification's distance array of the
    argument arrays, which agree; the arguments are unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.DistSpec.dist
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Fr.run_dist m ρ, ?_⟩
  exact (θ_run Cert.ReferenceIdeal.defs _ _).mono
    (fun _ h c => ⟨by rw [(h c).1, (hagree c).1, (hagree c).2.1, (hagree c).2.2], (h c).2⟩)
    (Cert.ReferenceIdeal.RefValue.run_dist m' ρ')

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  Cert.ReferenceIdeal.RefValue.frame_ri,
  ⟨IdealRules.truncf_extf.statement _ .f32 .bf16, IdealRules.truncf_extf.statement _ .f32 .bf16⟩,
  algebraic⟩

end Cert.Proof

end
